-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x512 : Shape := ⟨3, ![4, 4096, 512]⟩
abbrev S512x64 : Shape := ⟨2, ![512, 64]⟩
abbrev S64 : Shape := ⟨1, ![64]⟩
abbrev S_ : Shape := ⟨0, ![]⟩

class Facts : Prop where
  bcast_S_S4x4096x512 : S_.BroadcastsInDim S4x4096x512 (![] : Fin 0 → Fin S4x4096x512.rank)
  reducesTo_S4x4096x512_S_d0_1_2 : S4x4096x512.ReducesTo [0, 1, 2] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S512x64 .f32) (main_arg6 : FVec F S64 .f32) (main_v13 : IVec S_ 1) (main_v16 : IVec S512x64 1) : IVec S_ 1 :=
  let main_c_5 : IVec S_ 1 := constantI S_ 1 1#1
  let main_v17 : IVec S_ 1 := (fun x v => Host.reduce IntOp.andi x v reducesTo_S512x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S512x64 .f32 := Host.absf main_arg5
  let main_cst_8 : FVec F S_ .f32 := constant S_ .f32 0x7F800000#32
  let main_v25 : FVec F S512x64 .f32 := broadcastInDim S512x64 ![] bcast_S_S512x64 main_cst_8
  let main_v26 : IVec S512x64 1 := cmpf .olt main_v24 main_v25
  let main_c_9 : IVec S_ 1 := constantI S_ 1 1#1
  let main_v27 : IVec S_ 1 := (fun x v => Host.reduce IntOp.andi x v reducesTo_S512x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S4x4096x512 .f32) (main_arg1 : FVec F S512x64 .f32) (main_arg2 : FVec F S64 .f32) (main_arg3 : FVec F S512x64 .f32) (main_arg4 : FVec F S64 .f32) (main_arg5 : FVec F S512x64 .f32) (main_arg6 : FVec F S64 .f32) : IVec S_ 1 :=
  let main_v0 : FVec F S4x4096x512 .f32 := Host.absf main_arg0
  let main_cst : FVec F S_ .f32 := constant S_ .f32 0x7F800000#32
  let main_v1 : FVec F S4x4096x512 .f32 := broadcastInDim S4x4096x512 ![] bcast_S_S4x4096x512 main_cst
  let main_v2 : IVec S4x4096x512 1 := cmpf .olt main_v0 main_v1
  let main_c : IVec S_ 1 := constantI S_ 1 1#1
  let main_v3 : IVec S_ 1 := (fun x v => Host.reduce IntOp.andi x v reducesTo_S4x4096x512_S_d0_1_2 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S512x64 .f32 := Host.absf main_arg3
  let main_cst_4 : FVec F S_ .f32 := constant S_ .f32 0x7F800000#32
  let main_v15 : FVec F S512x64 .f32 := broadcastInDim S512x64 ![] bcast_S_S512x64 main_cst_4
  let main_v16 : IVec S512x64 1 := cmpf .olt main_v14 main_v15
  fn_part1 (F := F) main_arg4 main_arg5 main_arg6 main_v13 main_v16
-- ==== Kernel.lean ====
abbrev S4x4096x512 : Shape := ⟨3, ![4, 4096, 512]⟩
abbrev S512x64 : Shape := ⟨2, ![512, 64]⟩
abbrev S64 : Shape := ⟨1, ![64]⟩
abbrev S_ : Shape := ⟨0, ![]⟩
abbrev S1x64 : Shape := ⟨2, ![1, 64]⟩
abbrev S512x128 : Shape := ⟨2, ![512, 128]⟩
abbrev S128 : Shape := ⟨1, ![128]⟩
abbrev S1x128 : Shape := ⟨2, ![1, 128]⟩
abbrev S16384x512 : Shape := ⟨2, ![16384, 512]⟩
abbrev S16384x128 : Shape := ⟨2, ![16384, 128]⟩
abbrev S2048x512 : Shape := ⟨2, ![2048, 512]⟩
abbrev S2048x128 : Shape := ⟨2, ![2048, 128]⟩
abbrev S4x4096x128 : Shape := ⟨3, ![4, 4096, 128]⟩
abbrev S4x4096x64 : Shape := ⟨3, ![4, 4096, 64]⟩
abbrev S1x2048x512 : Shape := ⟨3, ![1, 2048, 512]⟩
abbrev S1x512x128 : Shape := ⟨3, ![1, 512, 128]⟩
abbrev S1x2048x64 : Shape := ⟨3, ![1, 2048, 64]⟩
abbrev S2048x64 : Shape := ⟨2, ![2048, 64]⟩
abbrev S2048x1 : Shape := ⟨2, ![2048, 1]⟩
abbrev S2048 : Shape := ⟨1, ![2048]⟩

abbrev nBuf : Space → Nat
  | .hbm => 21
  | .vmem => 18
  | .smem => 0
  | _ => 0

abbrev bufTy : (tb : Table) → Fin (tcTables nBuf tb) → BufTy
  | .hbm, ⟨0, _⟩ => ⟨S4x4096x512, .f32⟩
  | .hbm, ⟨1, _⟩ => ⟨S512x64, .f32⟩
  | .hbm, ⟨2, _⟩ => ⟨S64, .f32⟩
  | .hbm, ⟨3, _⟩ => ⟨S512x64, .f32⟩
  | .hbm, ⟨4, _⟩ => ⟨S64, .f32⟩
  | .hbm, ⟨5, _⟩ => ⟨S512x64, .f32⟩
  | .hbm, ⟨6, _⟩ => ⟨S64, .f32⟩
  | .hbm, ⟨7, _⟩ => ⟨S_, .f32⟩
  | .hbm, ⟨8, _⟩ => ⟨S512x64, .f32⟩
  | .hbm, ⟨9, _⟩ => ⟨S512x64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S1x64, .f32⟩
  | .hbm, ⟨14, _⟩ => ⟨S512x128, .f32⟩
  | .hbm, ⟨15, _⟩ => ⟨S128, .f32⟩
  | .hbm, ⟨16, _⟩ => ⟨S1x128, .f32⟩
  | .hbm, ⟨17, _⟩ => ⟨S16384x512, .f32⟩
  | .hbm, ⟨18, _⟩ => ⟨S16384x128, .bf16⟩
  | .hbm, ⟨19, _⟩ => ⟨S4x4096x128, .bf16⟩
  | .hbm, ⟨20, _⟩ => ⟨S4x4096x64, .f32⟩
  | .local _ .vmem, ⟨0, _⟩ => ⟨S2048x512, .f32⟩
  | .local _ .vmem, ⟨1, _⟩ => ⟨S2048x512, .f32⟩
  | .local _ .vmem, ⟨2, _⟩ => ⟨S512x128, .f32⟩
  | .local _ .vmem, ⟨3, _⟩ => ⟨S1x128, .f32⟩
  | .local _ .vmem, ⟨4, _⟩ => ⟨S2048x128, .bf16⟩
  | .local _ .vmem, ⟨5, _⟩ => ⟨S2048x128, .bf16⟩
  | .local _ .vmem, ⟨6, _⟩ => ⟨S1x2048x512, .f32⟩
  | .local _ .vmem, ⟨7, _⟩ => ⟨S1x2048x512, .f32⟩
  | .local _ .vmem, ⟨8, _⟩ => ⟨S512x64, .f32⟩
  | .local _ .vmem, ⟨9, _⟩ => ⟨S1x64, .f32⟩
  | .local _ .vmem, ⟨10, _⟩ => ⟨S1x512x128, .bf16⟩
  | .local _ .vmem, ⟨11, _⟩ => ⟨S1x512x128, .bf16⟩
  | .local _ .vmem, ⟨12, _⟩ => ⟨S1x2048x64, .f32⟩
  | .local _ .vmem, ⟨13, _⟩ => ⟨S1x2048x64, .f32⟩
  | .local _ .vmem, ⟨14, _⟩ => ⟨S2048x64, .bf16⟩
  | .local _ .vmem, ⟨15, _⟩ => ⟨S2048x1, .f32⟩
  | .local _ .vmem, ⟨16, _⟩ => ⟨S2048x1, .f32⟩
  | .local _ .vmem, ⟨17, _⟩ => ⟨S2048x64, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_scratch0 : Ref sig .tc := ⟨.vmem, 14, rfl⟩
abbrev cc1_scratch1 : Ref sig .tc := ⟨.vmem, 15, rfl⟩
abbrev cc1_scratch2 : Ref sig .tc := ⟨.vmem, 16, rfl⟩
abbrev cc1_scratch3 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![4, 2, 8], ![false, false, false]⟩

def k1_cond2 (i : grid1.Coords) : BitVec 1 :=
  let arg2 : BitVec 32 := BitVec.ofNat 32 (i 2).val
  let c7_i32 : BitVec 32 := 7#32
  let v39 : BitVec 1 := Scalar.cmpi .eq arg2 c7_i32
  let v40 : BitVec 32 := Scalar.extui v39
  let c0_i32_22 : BitVec 32 := 0#32
  let v41 : BitVec 1 := Scalar.cmpi .ne v40 c0_i32_22
  v41

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 1 → Memref sig .tc .vmem S512x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false, false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false, false]

abbrev stage1_3 : Fin 2 → Memref sig .tc .vmem S1x512x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, true]

abbrev stage1_4 : Fin 2 → Memref sig .tc .vmem S1x2048x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  bcast_S_S512x64 : S_.BroadcastsInDim S512x64 (![] : Fin 0 → Fin S512x64.rank)
  bcast_S_S64 : S_.BroadcastsInDim S64 (![] : Fin 0 → Fin S64.rank)
  shapeCasts_S64_S1x64 : S64.ShapeCasts S1x64
  concatenates_S512x64_S512x64_S512x128_d1 : Shape.Concatenates [S512x64, S512x64] S512x128 1
  concatenates_S64_S64_S128_d0 : Shape.Concatenates [S64, S64] S128 0
  shapeCasts_S128_S1x128 : S128.ShapeCasts S1x128
  shapeCasts_S4x4096x512_S16384x512 : S4x4096x512.ShapeCasts S16384x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  packedbf16_S2048x128_S2048x128_0_0 : (Rect.unit (s := S2048x128) ![0, 0] S2048x128.size inb_S2048x128_S2048x128_0_0).PackedRows (EltTy.packing .bf16)
  shapeCasts_S16384x128_S4x4096x128 : S16384x128.ShapeCasts S4x4096x128
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  packedbf16_S2048x64_S2048x64_0_0 : (Rect.unit (s := S2048x64) ![0, 0] S2048x64.size inb_S2048x64_S2048x64_0_0).PackedRows (EltTy.packing .bf16)
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  slices_S512x128_o0_0_S512x64 : S512x128.Slices ![0, 0] S512x64
  slices_S512x128_o0_64_S512x64 : S512x128.Slices ![0, 64] S512x64
  reduces_S2048x512_S2048 : S2048x512.Reduces [1] S2048
  shapeCasts_S2048_S2048x1 : S2048.ShapeCasts S2048x1
  broadcasts_S2048x1_S2048x512 : S2048x1.Broadcasts S2048x512
  broadcasts_S2048x1_S2048x64 : S2048x1.Broadcasts S2048x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  shapeCasts_S2048x64_S1x2048x64 : S2048x64.ShapeCasts S1x2048x64
  dot_S2048x512_S512x128_S2048x128_1_0_0_1_n_n_wf : DotDims.WF S2048x512 S512x128 S2048x128 [1] [0] [0] [1] [] []
  dot_S2048x512_S512x64_S2048x64_1_0_0_1_n_n_wf : DotDims.WF S2048x512 S512x64 S2048x64 [1] [0] [0] [1] [] []
  dot_S2048x64_S512x64_S2048x512_1_1_0_0_n_n_wf : DotDims.WF S2048x64 S512x64 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S16384x128.size a
  hwx0_3 : ∀ i : grid0.Coords, EltTy.bits .bf16 = 32 ∨ (Rect.block (s := S16384x128) S2048x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x512.size a ≤ S4x4096x512.size a
  hwx1_0 : ∀ i : grid1.Coords, EltTy.bits .f32 = 32 ∨ (Rect.block (s := S4x4096x512) S1x2048x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x64.size a ≤ S512x64.size a
  hwx1_1 : ∀ i : grid1.Coords, EltTy.bits .f32 = 32 ∨ (Rect.block (s := S512x64) S512x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x128.size a ≤ S4x4096x128.size a
  hwx1_3 : ∀ i : grid1.Coords, EltTy.bits .bf16 = 32 ∨ (Rect.block (s := S4x4096x128) S1x512x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x2048x64.size a ≤ S4x4096x64.size a
  hwx1_4 : ∀ i : grid1.Coords, EltTy.bits .f32 = 32 ∨ (Rect.block (s := S4x4096x64) S1x2048x64.size (cc1_transform_4 i) (hinb1_4 i)).WholeWords (EltTy.packing .f32)

variable [Facts₀]

def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf
def dot_S2048x512_S512x64_S2048x64_1_0_0_1_n_n : DotDims S2048x512 S512x64 S2048x64 where
  lhsContracting := [1]
  rhsContracting := [0]
  lhsNonContracting := [0]
  rhsNonContracting := [1]
  lhsBatch := []
  rhsBatch := []
  wf := dot_S2048x512_S512x64_S2048x64_1_0_0_1_n_n_wf
def dot_S2048x64_S512x64_S2048x512_1_1_0_0_n_n : DotDims S2048x64 S512x64 S2048x512 where
  lhsContracting := [1]
  rhsContracting := [1]
  lhsNonContracting := [0]
  rhsNonContracting := [0]
  lhsBatch := []
  rhsBatch := []
  wf := dot_S2048x64_S512x64_S2048x512_1_1_0_0_n_n_wf

abbrev win0_0 : Pipeline.Window sig grid0 :=
  Pipeline.Window.ofSpec (Memref.whole main_v8) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1x2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x512x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v11) S1x2048x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S4x4096x512 : Shape := ⟨3, ![4, 4096, 512]⟩
abbrev S512x64 : Shape := ⟨2, ![512, 64]⟩
abbrev S64 : Shape := ⟨1, ![64]⟩
abbrev S4x4096x64 : Shape := ⟨3, ![4, 4096, 64]⟩
abbrev S1x1x64 : Shape := ⟨3, ![1, 1, 64]⟩
abbrev S_ : Shape := ⟨0, ![]⟩
abbrev S4x4096x4096 : Shape := ⟨3, ![4, 4096, 4096]⟩
abbrev S4x4096 : Shape := ⟨2, ![4, 4096]⟩
abbrev S4x4096x1 : Shape := ⟨3, ![4, 4096, 1]⟩

abbrev nBuf : Space → Nat
  | .hbm => 41
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S512x64, .f32⟩
  | .hbm, ⟨2, _⟩ => ⟨S64, .f32⟩
  | .hbm, ⟨3, _⟩ => ⟨S512x64, .f32⟩
  | .hbm, ⟨4, _⟩ => ⟨S64, .f32⟩
  | .hbm, ⟨5, _⟩ => ⟨S512x64, .f32⟩
  | .hbm, ⟨6, _⟩ => ⟨S64, .f32⟩
  | .hbm, ⟨7, _⟩ => ⟨S4x4096x64, .f32⟩
  | .hbm, ⟨8, _⟩ => ⟨S1x1x64, .f32⟩
  | .hbm, ⟨9, _⟩ => ⟨S4x4096x64, .f32⟩
  | .hbm, ⟨10, _⟩ => ⟨S4x4096x64, .f32⟩
  | .hbm, ⟨11, _⟩ => ⟨S4x4096x64, .f32⟩
  | .hbm, ⟨12, _⟩ => ⟨S1x1x64, .f32⟩
  | .hbm, ⟨13, _⟩ => ⟨S4x4096x64, .f32⟩
  | .hbm, ⟨14, _⟩ => ⟨S4x4096x64, .f32⟩
  | .hbm, ⟨15, _⟩ => ⟨S4x4096x64, .f32⟩
  | .hbm, ⟨16, _⟩ => ⟨S1x1x64, .f32⟩
  | .hbm, ⟨17, _⟩ => ⟨S4x4096x64, .f32⟩
  | .hbm, ⟨18, _⟩ => ⟨S4x4096x64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4x4096x4096, .f32⟩
  | .hbm, ⟨24, _⟩ => ⟨S4x4096x4096, .f32⟩
  | .hbm, ⟨25, _⟩ => ⟨S4x4096x4096, .f32⟩
  | .hbm, ⟨26, _⟩ => ⟨S_, .f32⟩
  | .hbm, ⟨27, _⟩ => ⟨S4x4096, .f32⟩
  | .hbm, ⟨28, _⟩ => ⟨S_, .f32⟩
  | .hbm, ⟨29, _⟩ => ⟨S4x4096, .f32⟩
  | .hbm, ⟨30, _⟩ => ⟨S4x4096, .f32⟩
  | .hbm, ⟨31, _⟩ => ⟨S4x4096x1, .f32⟩
  | .hbm, ⟨32, _⟩ => ⟨S4x4096x4096, .f32⟩
  | .hbm, ⟨33, _⟩ => ⟨S4x4096x4096, .f32⟩
  | .hbm, ⟨34, _⟩ => ⟨S4x4096x4096, .f32⟩
  | .hbm, ⟨35, _⟩ => ⟨S_, .f32⟩
  | .hbm, ⟨36, _⟩ => ⟨S4x4096, .f32⟩
  | .hbm, ⟨37, _⟩ => ⟨S4x4096x1, .f32⟩
  | .hbm, ⟨38, _⟩ => ⟨S4x4096x4096, .f32⟩
  | .hbm, ⟨39, _⟩ => ⟨S4x4096x4096, .f32⟩
  | .hbm, ⟨40, _⟩ => ⟨S4x4096x64, .f32⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S4x4096x64_0_1_2 : S1x1x64.BroadcastsInDim S4x4096x64 (![0, 1, 2] : Fin 3 → Fin S4x4096x64.rank)
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x512_S512x64_S4x4096x64_2_0_01_1_n_n_wf : DotDims.WF S4x4096x512 S512x64 S4x4096x64 [2] [0] [0, 1] [1] [] []
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]

variable [Facts₀]

def dot_S4x4096x512_S512x64_S4x4096x64_2_0_01_1_n_n : DotDims S4x4096x512 S512x64 S4x4096x64 where
  lhsContracting := [2]
  rhsContracting := [0]
  lhsNonContracting := [0, 1]
  rhsNonContracting := [1]
  lhsBatch := []
  rhsBatch := []
  wf := dot_S4x4096x512_S512x64_S4x4096x64_2_0_01_1_n_n_wf
def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf

class Facts : Prop extends Facts₀ where

variable [Facts]
-- ==== Proof.KernelRegion0.lean ====
/-
  The first kernel region (the fused key/value projection), at a parameter `V`: the buffer contents the region is
  entered with. Its grid has 8 points; point `t` reads rows `2048 t … 2048 t + 2047` of the flattened input, the
  whole concatenated weight matrix and bias row, and writes the same rows of the packed key|value array.
  Here: each window's block at a point, the body's run (the one store's piece found by the run itself), what the
  output's staging buffer holds after the body, the proof data and the body obligation.
-/
import proofs.«132332_j31885837205648_2_alg».proof.Proof.Gen.Kernel.Launch
import proofs.«132332_j31885837205648_2_alg».proof.Proof.Gen.Kernel.Skeleton
import proofs.«132332_j31885837205648_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- One staging buffer of the output window, through which its contents are stated. -/
abbrev VO0_3 : View sig .tc .vmem S2048x128 .bf16 := (Memref.whole cc0_stg3_0 : Memref sig .tc .vmem S2048x128 .bf16).view
abbrev ms0_0 (t : Fin cfg0.N) : Memref sig .tc .vmem S2048x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x128 .bf16 := win0_3.stage (cfg0.slots t 3)
abbrev hs0_3 (t : Fin cfg0.N) : (ms0_3 t).IsWhole := hstage0_3 ((cfg0.slots t 3).cast nbuf0_3)

set_option maxHeartbeats 1000000 in
/-- The body on whole staging memrefs, the three inputs' at their contents and the output's at anything, runs to the
    continuation holding the inputs' as they were and the output's with the run's pieces written. -/
noncomputable def kernelRun0 (c : Dev nD) (i : grid0.Coords) (arg1 : Memref sig .tc .vmem S2048x512 .f32) (harg1 : arg1.IsWhole) (arg2 : Memref sig .tc .vmem S512x128 .f32) (harg2 : arg2.IsWhole) (arg3 : Memref sig .tc .vmem S1x128 .f32) (harg3 : arg3.IsWhole) (arg4 : Memref sig .tc .vmem S2048x128 .bf16) (harg4 : arg4.IsWhole)
    (x0 : Vec F S2048x512 .f32) (x1 : Vec F S512x128 .f32) (x2 : Vec F S1x128 .f32) :
    { L3 : List (View.Piece (Elt F) S2048x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc0__proj_kv_kernel i arg1 harg1 arg2 harg2 arg3 harg3 arg4 harg4) K } := by
  refine ⟨?_, fun E K => ?run⟩
  case run =>
    simp only [cc0__proj_kv_kernel_eq_skeleton]; unfold cc0__proj_kv_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-- The run's pieces tile the output's block, so they cover it. -/
theorem cover0_3 (c : Dev nD) (i : grid0.Coords) (arg1 : Memref sig .tc .vmem S2048x512 .f32) (harg1 : arg1.IsWhole) (arg2 : Memref sig .tc .vmem S512x128 .f32) (harg2 : arg2.IsWhole) (arg3 : Memref sig .tc .vmem S1x128 .f32) (harg3 : arg3.IsWhole) (arg4 : Memref sig .tc .vmem S2048x128 .bf16) (harg4 : arg4.IsWhole)
    (x0 : Vec F S2048x512 .f32) (x1 : Vec F S512x128 .f32) (x2 : Vec F S1x128 .f32) (y : S2048x128.Idx) :
    ∃ pc ∈ (kernelRun0 c i arg1 harg1 arg2 harg2 arg3 harg3 arg4 harg4 x0 x1 x2).1, y ∈ pc.1.set :=
  View.cover_of_tiledL (kernelRun0 c i arg1 harg1 arg2 harg2 arg3 harg3 arg4 harg4 x0 x1 x2).1 S2048x128.size (by sl_kernel_rfl) y

/-- What the body leaves in the output's staging buffer: its pieces read back. -/
def out0_3 (c : Dev nD) (i : grid0.Coords) (arg1 : Memref sig .tc .vmem S2048x512 .f32) (harg1 : arg1.IsWhole) (arg2 : Memref sig .tc .vmem S512x128 .f32) (harg2 : arg2.IsWhole) (arg3 : Memref sig .tc .vmem S1x128 .f32) (harg3 : arg3.IsWhole) (arg4 : Memref sig .tc .vmem S2048x128 .bf16) (harg4 : arg4.IsWhole)
    (x0 : Vec F S2048x512 .f32) (x1 : Vec F S512x128 .f32) (x2 : Vec F S1x128 .f32) : Vec F S2048x128 .bf16 :=
  VO0_3.read (Elt F) (VO0_3.writes (Elt F) VO0_3.junk (kernelRun0 c i arg1 harg1 arg2 harg2 arg3 harg3 arg4 harg4 x0 x1 x2).1)

/-- What point `t` leaves in the output's staging buffer, from the input blocks at `t`. -/
def outAt0 (c : Dev nD) (t : Fin cfg0.N) : Vec F S2048x128 .bf16 :=
  out0_3 c (grid0.coords t) (ms0_0 t) (hs0_0 t) (ms0_1 t) (hs0_1 t) (ms0_2 t) (hs0_2 t) (ms0_3 t) (hs0_3 t) (iblk0 V c 0 t) (iblk0 V c 1 t) (iblk0 V c 2 t)

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt0 V c t
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt0 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

set_option maxHeartbeats 1000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  unfold outAt0 out0_3
  iintro ⟨HΦ, Ho, ⟨%d0, H0⟩, ⟨%d1, H1⟩, ⟨%d2, H2⟩, ⟨%d3, H3⟩⟩
  iapply ((kernelRun0 c (grid0.coords t) _ _ _ _ _ _ _ _ (iblk0 V c 0 t) (iblk0 V c 1 t) (iblk0 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0_3 c _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

end Region0

end Cert.Kernel.Fr

end
-- ==== Proof.KernelRegion1Base.lean ====
/-
  The second kernel region (attention with the query projection fused in), what its three control cases share.
  The grid is 4 × 2 × 8: batch, query tile of 2048 rows, key block of 512 rows; the key block is the innermost
  coordinate, so point `t` has key block `t % 8`. At key block 0 the body projects the query tile and resets the
  running maximum, normaliser and weighted sum it keeps in four scratch buffers; at every point it folds one key
  block into them; at key block 7 it divides and stores the output tile, which is written back only there.
  Here: each window's block at a point, the two branch conditions decided over the grid, where the output window is
  idle, the staging and scratch memrefs, and the class invariant spelled out.
-/
import proofs.«132332_j31885837205648_2_alg».proof.Proof.Gen.Kernel.Launch
import proofs.«132332_j31885837205648_2_alg».proof.Proof.Gen.Kernel.Skeleton
import proofs.«132332_j31885837205648_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's branch conditions -/

/-- The first `scf.if`: the key-block coordinate is 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The second `scf.if`: the key-block coordinate is 7, the last. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last key block the output window is idle and not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At the last key block it is live. -/
theorem liveAt1_4 : ∀ t : Fin cfg1.N, cond1_1 (grid1.coords t) → cfg1.idle 4 (grid1.coords t) = false := by decide +kernel

/-! ## The memrefs the body is called with -/

abbrev VO1_4 : View sig .tc .vmem S1x2048x64 .f32 := (Memref.whole cc1_stg4_0 : Memref sig .tc .vmem S1x2048x64 .f32).view
abbrev ms1_0 (t : Fin cfg1.N) : Memref sig .tc .vmem S1x2048x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x128 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x2048x64 .f32 := win1_4.stage (cfg1.slots t 4)
abbrev hs1_4 (t : Fin cfg1.N) : (ms1_4 t).IsWhole := hstage1_4 ((cfg1.slots t 4).cast nbuf1_4)
/-- The four scratch operands: the projected query tile, the running maximum, the running normaliser, the running
    weighted sum. -/
abbrev scM1_0 : Memref sig .tc .vmem S2048x64 .bf16 := Memref.whole cc1_scratch0
abbrev scM1_1 : Memref sig .tc .vmem S2048x1 .f32 := Memref.whole cc1_scratch1
abbrev scM1_2 : Memref sig .tc .vmem S2048x1 .f32 := Memref.whole cc1_scratch2
abbrev scM1_3 : Memref sig .tc .vmem S2048x64 .f32 := Memref.whole cc1_scratch3
abbrev VS1_0 : View sig .tc .vmem S2048x64 .bf16 := scM1_0.view
abbrev VS1_1 : View sig .tc .vmem S2048x1 .f32 := scM1_1.view
abbrev VS1_2 : View sig .tc .vmem S2048x1 .f32 := scM1_2.view
abbrev VS1_3 : View sig .tc .vmem S2048x64 .f32 := scM1_3.view

/-- The other region's staging buffers, which this region never touches, each whole at some contents. -/
abbrev others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- The class invariant with the scratch operands as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d)) ∗ (∃ r, prngReg c r)) := by
  unfold Pipeline.ΦA; rw [scopedRest1_eq]; simp only [scM1_0, scM1_1, scM1_2, scM1_3, owns_whole]; try rfl

end Cert.Kernel.Fr

end
-- ==== Proof.KernelRun1A.lean ====
/-
  The attention body at a point of key block 0 (the first `scf.if` taken, the second not): the query tile is
  projected into the first scratch, the running maximum is reset to -∞ and the normaliser and weighted sum to zero,
  then the first key block is folded in. The output window is idle. The pieces each scratch ends with are found by
  the run.
-/
import proofs.«132332_j31885837205648_2_alg».proof.Proof.KernelRegion1Base

set_option maxRecDepth 16384

noncomputable section

namespace Cert.Kernel.Fr

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : cond1_0 i) (hc1 : ¬cond1_1 i)
    (x0 : Vec F S1x2048x512 .f32) (x1 : Vec F S512x64 .f32) (x2 : Vec F S1x64 .f32) (x3 : Vec F S1x512x128 .bf16) :
    Σ' (L4 : List (View.Piece (Elt F) S1x2048x64 .f32)) (LS0 : List (View.Piece (Elt F) S2048x64 .bf16)) (LS1 : List (View.Piece (Elt F) S2048x1 .f32)) (LS2 : List (View.Piece (Elt F) S2048x1 .f32)), { LS3 : List (View.Piece (Elt F) S2048x64 .f32) //
      ∀ (xi4 : Vec F S1x2048x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11) K } := by
  refine ⟨[], ?_, ?_, ?_, ?_, fun xi4 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    isplitl [HS2]; · iexists _; iexact HS2
    iexists _; iexact HS3

end Cert.Kernel.Fr

end
-- ==== Proof.KernelRun1B.lean ====
/-
  The attention body at a point of key blocks 1 to 6 (neither `scf.if` taken): one key block is folded into the
  running maximum, normaliser and weighted sum, which come in at what the point before left; the projected query
  tile is read and left as it is. The output window is idle.
-/
import proofs.«132332_j31885837205648_2_alg».proof.Proof.KernelRun1A

set_option maxRecDepth 16384

noncomputable section

namespace Cert.Kernel.Fr

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : ¬cond1_0 i) (hc1 : ¬cond1_1 i)
    (x0 : Vec F S1x2048x512 .f32) (x1 : Vec F S512x64 .f32) (x2 : Vec F S1x64 .f32) (x3 : Vec F S1x512x128 .bf16) (xs0 : Vec F S2048x64 .bf16) (xs1 : Vec F S2048x1 .f32) (xs2 : Vec F S2048x1 .f32) (xs3 : Vec F S2048x64 .f32) :
    Σ' (L4 : List (View.Piece (Elt F) S1x2048x64 .f32)) (LS1 : List (View.Piece (Elt F) S2048x1 .f32)) (LS2 : List (View.Piece (Elt F) S2048x1 .f32)), { LS3 : List (View.Piece (Elt F) S2048x64 .f32) //
      ∀ (xi4 : Vec F S1x2048x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
                ∗ owns (c : Thread nD τ) arg8 fullShare xs0 ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11) K } := by
  refine ⟨[], ?_, ?_, ?_, fun xi4 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4
    obtain rfl := harg8.eq_unread hfs0; obtain rfl := harg9.eq_unread hfs1; obtain rfl := harg10.eq_unread hfs2; obtain rfl := harg11.eq_unread hfs3
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]
    · iexists _; isplitr; · ipureintro; exact harg8.read_unread _
      iexact HS0
    isplitl [HS1]; · iexists _; iexact HS1
    isplitl [HS2]; · iexists _; iexact HS2
    iexists _; iexact HS3

end Cert.Kernel.Fr

end
-- ==== Proof.KernelRun1C.lean ====
/-
  The attention body at a point of key block 7 (the second `scf.if` taken): the last key block is folded in, then
  the weighted sum is divided by the normaliser and stored into the output tile, which is written back here.
-/
import proofs.«132332_j31885837205648_2_alg».proof.Proof.KernelRun1B

set_option maxRecDepth 16384

noncomputable section

namespace Cert.Kernel.Fr

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : ¬cond1_0 i) (hc1 : cond1_1 i)
    (x0 : Vec F S1x2048x512 .f32) (x1 : Vec F S512x64 .f32) (x2 : Vec F S1x64 .f32) (x3 : Vec F S1x512x128 .bf16) (xs0 : Vec F S2048x64 .bf16) (xs1 : Vec F S2048x1 .f32) (xs2 : Vec F S2048x1 .f32) (xs3 : Vec F S2048x64 .f32) :
    Σ' (L4 : List (View.Piece (Elt F) S1x2048x64 .f32)) (LS1 : List (View.Piece (Elt F) S2048x1 .f32)) (LS2 : List (View.Piece (Elt F) S2048x1 .f32)), { LS3 : List (View.Piece (Elt F) S2048x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)
                ∗ owns (c : Thread nD τ) arg8 fullShare xs0 ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3
    obtain rfl := harg8.eq_unread hfs0; obtain rfl := harg9.eq_unread hfs1; obtain rfl := harg10.eq_unread hfs2; obtain rfl := harg11.eq_unread hfs3
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]
    · iexists _; isplitr; · ipureintro; exact harg8.read_unread _
      iexact HS0
    isplitl [HS1]; · iexists _; iexact HS1
    isplitl [HS2]; · iexists _; iexact HS2
    iexists _; iexact HS3

end Cert.Kernel.Fr

end
-- ==== Proof.KernelRegion1.lean ====
/-
  The second kernel region's certificate half, at a parameter `V` (the buffer contents at its entry): what each
  control case leaves in the four scratch buffers and in the output tile, those contents point by point as a
  recursion over the 64 grid points (a point of key block 0 starts afresh; every other point continues from what the
  point before left), the invariant that carries the four scratches from point to point, the proof data and the body
  obligation.
-/
import proofs.«132332_j31885837205648_2_alg».proof.Proof.KernelRun1C

set_option maxRecDepth 16384

noncomputable section

namespace Cert.Kernel.Fr

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

theorem scover1_A_0 (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : cond1_0 i) (hc1 : ¬cond1_1 i) (x0 : Vec F S1x2048x512 .f32) (x1 : Vec F S512x64 .f32) (x2 : Vec F S1x64 .f32) (x3 : Vec F S1x512x128 .bf16) (y : S2048x64.Idx) :
    ∃ pc ∈ (kernelRun1_A c i arg3 harg3 arg4 harg4 arg5 harg5 arg6 harg6 arg7 harg7 arg8 harg8 arg9 harg9 arg10 harg10 arg11 harg11 hc0 hc1 x0 x1 x2 x3).2.1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3).2.1 S2048x64.size (by sl_kernel_rfl) y
def sout1_A_0 (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : cond1_0 i) (hc1 : ¬cond1_1 i) (x0 : Vec F S1x2048x512 .f32) (x1 : Vec F S512x64 .f32) (x2 : Vec F S1x64 .f32) (x3 : Vec F S1x512x128 .bf16) : Vec F S2048x64 .bf16 :=
  VS1_0.read (Elt F) (VS1_0.writes (Elt F) VS1_0.junk (kernelRun1_A c i arg3 harg3 arg4 harg4 arg5 harg5 arg6 harg6 arg7 harg7 arg8 harg8 arg9 harg9 arg10 harg10 arg11 harg11 hc0 hc1 x0 x1 x2 x3).2.1)
theorem scover1_A_1 (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : cond1_0 i) (hc1 : ¬cond1_1 i) (x0 : Vec F S1x2048x512 .f32) (x1 : Vec F S512x64 .f32) (x2 : Vec F S1x64 .f32) (x3 : Vec F S1x512x128 .bf16) (y : S2048x1.Idx) :
    ∃ pc ∈ (kernelRun1_A c i arg3 harg3 arg4 harg4 arg5 harg5 arg6 harg6 arg7 harg7 arg8 harg8 arg9 harg9 arg10 harg10 arg11 harg11 hc0 hc1 x0 x1 x2 x3).2.2.1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3).2.2.1 S2048x1.size (by sl_kernel_rfl) y
def sout1_A_1 (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : cond1_0 i) (hc1 : ¬cond1_1 i) (x0 : Vec F S1x2048x512 .f32) (x1 : Vec F S512x64 .f32) (x2 : Vec F S1x64 .f32) (x3 : Vec F S1x512x128 .bf16) : Vec F S2048x1 .f32 :=
  VS1_1.read (Elt F) (VS1_1.writes (Elt F) VS1_1.junk (kernelRun1_A c i arg3 harg3 arg4 harg4 arg5 harg5 arg6 harg6 arg7 harg7 arg8 harg8 arg9 harg9 arg10 harg10 arg11 harg11 hc0 hc1 x0 x1 x2 x3).2.2.1)
theorem scover1_A_2 (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : cond1_0 i) (hc1 : ¬cond1_1 i) (x0 : Vec F S1x2048x512 .f32) (x1 : Vec F S512x64 .f32) (x2 : Vec F S1x64 .f32) (x3 : Vec F S1x512x128 .bf16) (y : S2048x1.Idx) :
    ∃ pc ∈ (kernelRun1_A c i arg3 harg3 arg4 harg4 arg5 harg5 arg6 harg6 arg7 harg7 arg8 harg8 arg9 harg9 arg10 harg10 arg11 harg11 hc0 hc1 x0 x1 x2 x3).2.2.2.1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3).2.2.2.1 S2048x1.size (by sl_kernel_rfl) y
def sout1_A_2 (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : cond1_0 i) (hc1 : ¬cond1_1 i) (x0 : Vec F S1x2048x512 .f32) (x1 : Vec F S512x64 .f32) (x2 : Vec F S1x64 .f32) (x3 : Vec F S1x512x128 .bf16) : Vec F S2048x1 .f32 :=
  VS1_2.read (Elt F) (VS1_2.writes (Elt F) VS1_2.junk (kernelRun1_A c i arg3 harg3 arg4 harg4 arg5 harg5 arg6 harg6 arg7 harg7 arg8 harg8 arg9 harg9 arg10 harg10 arg11 harg11 hc0 hc1 x0 x1 x2 x3).2.2.2.1)
theorem scover1_A_3 (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : cond1_0 i) (hc1 : ¬cond1_1 i) (x0 : Vec F S1x2048x512 .f32) (x1 : Vec F S512x64 .f32) (x2 : Vec F S1x64 .f32) (x3 : Vec F S1x512x128 .bf16) (y : S2048x64.Idx) :
    ∃ pc ∈ (kernelRun1_A c i arg3 harg3 arg4 harg4 arg5 harg5 arg6 harg6 arg7 harg7 arg8 harg8 arg9 harg9 arg10 harg10 arg11 harg11 hc0 hc1 x0 x1 x2 x3).2.2.2.2.1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3).2.2.2.2.1 S2048x64.size (by sl_kernel_rfl) y
def sout1_A_3 (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : cond1_0 i) (hc1 : ¬cond1_1 i) (x0 : Vec F S1x2048x512 .f32) (x1 : Vec F S512x64 .f32) (x2 : Vec F S1x64 .f32) (x3 : Vec F S1x512x128 .bf16) : Vec F S2048x64 .f32 :=
  VS1_3.read (Elt F) (VS1_3.writes (Elt F) VS1_3.junk (kernelRun1_A c i arg3 harg3 arg4 harg4 arg5 harg5 arg6 harg6 arg7 harg7 arg8 harg8 arg9 harg9 arg10 harg10 arg11 harg11 hc0 hc1 x0 x1 x2 x3).2.2.2.2.1)
theorem scover1_B_1 (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : ¬cond1_0 i) (hc1 : ¬cond1_1 i) (x0 : Vec F S1x2048x512 .f32) (x1 : Vec F S512x64 .f32) (x2 : Vec F S1x64 .f32) (x3 : Vec F S1x512x128 .bf16) (xs0 : Vec F S2048x64 .bf16) (xs1 : Vec F S2048x1 .f32) (xs2 : Vec F S2048x1 .f32) (xs3 : Vec F S2048x64 .f32) (y : S2048x1.Idx) :
    ∃ pc ∈ (kernelRun1_B c i arg3 harg3 arg4 harg4 arg5 harg5 arg6 harg6 arg7 harg7 arg8 harg8 arg9 harg9 arg10 harg10 arg11 harg11 hc0 hc1 x0 x1 x2 x3 xs0 xs1 xs2 xs3).2.1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 xs0 xs1 xs2 xs3).2.1 S2048x1.size (by sl_kernel_rfl) y
def sout1_B_1 (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : ¬cond1_0 i) (hc1 : ¬cond1_1 i) (x0 : Vec F S1x2048x512 .f32) (x1 : Vec F S512x64 .f32) (x2 : Vec F S1x64 .f32) (x3 : Vec F S1x512x128 .bf16) (xs0 : Vec F S2048x64 .bf16) (xs1 : Vec F S2048x1 .f32) (xs2 : Vec F S2048x1 .f32) (xs3 : Vec F S2048x64 .f32) : Vec F S2048x1 .f32 :=
  VS1_1.read (Elt F) (VS1_1.writes (Elt F) VS1_1.junk (kernelRun1_B c i arg3 harg3 arg4 harg4 arg5 harg5 arg6 harg6 arg7 harg7 arg8 harg8 arg9 harg9 arg10 harg10 arg11 harg11 hc0 hc1 x0 x1 x2 x3 xs0 xs1 xs2 xs3).2.1)
theorem scover1_B_2 (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : ¬cond1_0 i) (hc1 : ¬cond1_1 i) (x0 : Vec F S1x2048x512 .f32) (x1 : Vec F S512x64 .f32) (x2 : Vec F S1x64 .f32) (x3 : Vec F S1x512x128 .bf16) (xs0 : Vec F S2048x64 .bf16) (xs1 : Vec F S2048x1 .f32) (xs2 : Vec F S2048x1 .f32) (xs3 : Vec F S2048x64 .f32) (y : S2048x1.Idx) :
    ∃ pc ∈ (kernelRun1_B c i arg3 harg3 arg4 harg4 arg5 harg5 arg6 harg6 arg7 harg7 arg8 harg8 arg9 harg9 arg10 harg10 arg11 harg11 hc0 hc1 x0 x1 x2 x3 xs0 xs1 xs2 xs3).2.2.1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 xs0 xs1 xs2 xs3).2.2.1 S2048x1.size (by sl_kernel_rfl) y
def sout1_B_2 (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : ¬cond1_0 i) (hc1 : ¬cond1_1 i) (x0 : Vec F S1x2048x512 .f32) (x1 : Vec F S512x64 .f32) (x2 : Vec F S1x64 .f32) (x3 : Vec F S1x512x128 .bf16) (xs0 : Vec F S2048x64 .bf16) (xs1 : Vec F S2048x1 .f32) (xs2 : Vec F S2048x1 .f32) (xs3 : Vec F S2048x64 .f32) : Vec F S2048x1 .f32 :=
  VS1_2.read (Elt F) (VS1_2.writes (Elt F) VS1_2.junk (kernelRun1_B c i arg3 harg3 arg4 harg4 arg5 harg5 arg6 harg6 arg7 harg7 arg8 harg8 arg9 harg9 arg10 harg10 arg11 harg11 hc0 hc1 x0 x1 x2 x3 xs0 xs1 xs2 xs3).2.2.1)
theorem scover1_B_3 (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : ¬cond1_0 i) (hc1 : ¬cond1_1 i) (x0 : Vec F S1x2048x512 .f32) (x1 : Vec F S512x64 .f32) (x2 : Vec F S1x64 .f32) (x3 : Vec F S1x512x128 .bf16) (xs0 : Vec F S2048x64 .bf16) (xs1 : Vec F S2048x1 .f32) (xs2 : Vec F S2048x1 .f32) (xs3 : Vec F S2048x64 .f32) (y : S2048x64.Idx) :
    ∃ pc ∈ (kernelRun1_B c i arg3 harg3 arg4 harg4 arg5 harg5 arg6 harg6 arg7 harg7 arg8 harg8 arg9 harg9 arg10 harg10 arg11 harg11 hc0 hc1 x0 x1 x2 x3 xs0 xs1 xs2 xs3).2.2.2.1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 xs0 xs1 xs2 xs3).2.2.2.1 S2048x64.size (by sl_kernel_rfl) y
def sout1_B_3 (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : ¬cond1_0 i) (hc1 : ¬cond1_1 i) (x0 : Vec F S1x2048x512 .f32) (x1 : Vec F S512x64 .f32) (x2 : Vec F S1x64 .f32) (x3 : Vec F S1x512x128 .bf16) (xs0 : Vec F S2048x64 .bf16) (xs1 : Vec F S2048x1 .f32) (xs2 : Vec F S2048x1 .f32) (xs3 : Vec F S2048x64 .f32) : Vec F S2048x64 .f32 :=
  VS1_3.read (Elt F) (VS1_3.writes (Elt F) VS1_3.junk (kernelRun1_B c i arg3 harg3 arg4 harg4 arg5 harg5 arg6 harg6 arg7 harg7 arg8 harg8 arg9 harg9 arg10 harg10 arg11 harg11 hc0 hc1 x0 x1 x2 x3 xs0 xs1 xs2 xs3).2.2.2.1)
theorem scover1_C_1 (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : ¬cond1_0 i) (hc1 : cond1_1 i) (x0 : Vec F S1x2048x512 .f32) (x1 : Vec F S512x64 .f32) (x2 : Vec F S1x64 .f32) (x3 : Vec F S1x512x128 .bf16) (xs0 : Vec F S2048x64 .bf16) (xs1 : Vec F S2048x1 .f32) (xs2 : Vec F S2048x1 .f32) (xs3 : Vec F S2048x64 .f32) (y : S2048x1.Idx) :
    ∃ pc ∈ (kernelRun1_C c i arg3 harg3 arg4 harg4 arg5 harg5 arg6 harg6 arg7 harg7 arg8 harg8 arg9 harg9 arg10 harg10 arg11 harg11 hc0 hc1 x0 x1 x2 x3 xs0 xs1 xs2 xs3).2.1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 xs0 xs1 xs2 xs3).2.1 S2048x1.size (by sl_kernel_rfl) y
def sout1_C_1 (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : ¬cond1_0 i) (hc1 : cond1_1 i) (x0 : Vec F S1x2048x512 .f32) (x1 : Vec F S512x64 .f32) (x2 : Vec F S1x64 .f32) (x3 : Vec F S1x512x128 .bf16) (xs0 : Vec F S2048x64 .bf16) (xs1 : Vec F S2048x1 .f32) (xs2 : Vec F S2048x1 .f32) (xs3 : Vec F S2048x64 .f32) : Vec F S2048x1 .f32 :=
  VS1_1.read (Elt F) (VS1_1.writes (Elt F) VS1_1.junk (kernelRun1_C c i arg3 harg3 arg4 harg4 arg5 harg5 arg6 harg6 arg7 harg7 arg8 harg8 arg9 harg9 arg10 harg10 arg11 harg11 hc0 hc1 x0 x1 x2 x3 xs0 xs1 xs2 xs3).2.1)
theorem scover1_C_2 (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : ¬cond1_0 i) (hc1 : cond1_1 i) (x0 : Vec F S1x2048x512 .f32) (x1 : Vec F S512x64 .f32) (x2 : Vec F S1x64 .f32) (x3 : Vec F S1x512x128 .bf16) (xs0 : Vec F S2048x64 .bf16) (xs1 : Vec F S2048x1 .f32) (xs2 : Vec F S2048x1 .f32) (xs3 : Vec F S2048x64 .f32) (y : S2048x1.Idx) :
    ∃ pc ∈ (kernelRun1_C c i arg3 harg3 arg4 harg4 arg5 harg5 arg6 harg6 arg7 harg7 arg8 harg8 arg9 harg9 arg10 harg10 arg11 harg11 hc0 hc1 x0 x1 x2 x3 xs0 xs1 xs2 xs3).2.2.1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 xs0 xs1 xs2 xs3).2.2.1 S2048x1.size (by sl_kernel_rfl) y
def sout1_C_2 (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : ¬cond1_0 i) (hc1 : cond1_1 i) (x0 : Vec F S1x2048x512 .f32) (x1 : Vec F S512x64 .f32) (x2 : Vec F S1x64 .f32) (x3 : Vec F S1x512x128 .bf16) (xs0 : Vec F S2048x64 .bf16) (xs1 : Vec F S2048x1 .f32) (xs2 : Vec F S2048x1 .f32) (xs3 : Vec F S2048x64 .f32) : Vec F S2048x1 .f32 :=
  VS1_2.read (Elt F) (VS1_2.writes (Elt F) VS1_2.junk (kernelRun1_C c i arg3 harg3 arg4 harg4 arg5 harg5 arg6 harg6 arg7 harg7 arg8 harg8 arg9 harg9 arg10 harg10 arg11 harg11 hc0 hc1 x0 x1 x2 x3 xs0 xs1 xs2 xs3).2.2.1)
theorem scover1_C_3 (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : ¬cond1_0 i) (hc1 : cond1_1 i) (x0 : Vec F S1x2048x512 .f32) (x1 : Vec F S512x64 .f32) (x2 : Vec F S1x64 .f32) (x3 : Vec F S1x512x128 .bf16) (xs0 : Vec F S2048x64 .bf16) (xs1 : Vec F S2048x1 .f32) (xs2 : Vec F S2048x1 .f32) (xs3 : Vec F S2048x64 .f32) (y : S2048x64.Idx) :
    ∃ pc ∈ (kernelRun1_C c i arg3 harg3 arg4 harg4 arg5 harg5 arg6 harg6 arg7 harg7 arg8 harg8 arg9 harg9 arg10 harg10 arg11 harg11 hc0 hc1 x0 x1 x2 x3 xs0 xs1 xs2 xs3).2.2.2.1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 xs0 xs1 xs2 xs3).2.2.2.1 S2048x64.size (by sl_kernel_rfl) y
def sout1_C_3 (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : ¬cond1_0 i) (hc1 : cond1_1 i) (x0 : Vec F S1x2048x512 .f32) (x1 : Vec F S512x64 .f32) (x2 : Vec F S1x64 .f32) (x3 : Vec F S1x512x128 .bf16) (xs0 : Vec F S2048x64 .bf16) (xs1 : Vec F S2048x1 .f32) (xs2 : Vec F S2048x1 .f32) (xs3 : Vec F S2048x64 .f32) : Vec F S2048x64 .f32 :=
  VS1_3.read (Elt F) (VS1_3.writes (Elt F) VS1_3.junk (kernelRun1_C c i arg3 harg3 arg4 harg4 arg5 harg5 arg6 harg6 arg7 harg7 arg8 harg8 arg9 harg9 arg10 harg10 arg11 harg11 hc0 hc1 x0 x1 x2 x3 xs0 xs1 xs2 xs3).2.2.2.1)
/-- Away from the last key block nothing is stored into the output window: a placeholder nothing consults. -/
def out1_A_4 (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : cond1_0 i) (hc1 : ¬cond1_1 i) (x0 : Vec F S1x2048x512 .f32) (x1 : Vec F S512x64 .f32) (x2 : Vec F S1x64 .f32) (x3 : Vec F S1x512x128 .bf16) : Vec F S1x2048x64 .f32 :=
  VO1_4.read (Elt F) (VO1_4.writes (Elt F) VO1_4.junk (kernelRun1_A c i arg3 harg3 arg4 harg4 arg5 harg5 arg6 harg6 arg7 harg7 arg8 harg8 arg9 harg9 arg10 harg10 arg11 harg11 hc0 hc1 x0 x1 x2 x3).1)
def out1_B_4 (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : ¬cond1_0 i) (hc1 : ¬cond1_1 i) (x0 : Vec F S1x2048x512 .f32) (x1 : Vec F S512x64 .f32) (x2 : Vec F S1x64 .f32) (x3 : Vec F S1x512x128 .bf16) (xs0 : Vec F S2048x64 .bf16) (xs1 : Vec F S2048x1 .f32) (xs2 : Vec F S2048x1 .f32) (xs3 : Vec F S2048x64 .f32) : Vec F S1x2048x64 .f32 :=
  VO1_4.read (Elt F) (VO1_4.writes (Elt F) VO1_4.junk (kernelRun1_B c i arg3 harg3 arg4 harg4 arg5 harg5 arg6 harg6 arg7 harg7 arg8 harg8 arg9 harg9 arg10 harg10 arg11 harg11 hc0 hc1 x0 x1 x2 x3 xs0 xs1 xs2 xs3).1)
/-- At the last key block the stored pieces tile the output tile. -/
theorem cover1_C_4 (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : ¬cond1_0 i) (hc1 : cond1_1 i) (x0 : Vec F S1x2048x512 .f32) (x1 : Vec F S512x64 .f32) (x2 : Vec F S1x64 .f32) (x3 : Vec F S1x512x128 .bf16) (xs0 : Vec F S2048x64 .bf16) (xs1 : Vec F S2048x1 .f32) (xs2 : Vec F S2048x1 .f32) (xs3 : Vec F S2048x64 .f32) (y : S1x2048x64.Idx) :
    ∃ pc ∈ (kernelRun1_C c i arg3 harg3 arg4 harg4 arg5 harg5 arg6 harg6 arg7 harg7 arg8 harg8 arg9 harg9 arg10 harg10 arg11 harg11 hc0 hc1 x0 x1 x2 x3 xs0 xs1 xs2 xs3).1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 xs0 xs1 xs2 xs3).1 S1x2048x64.size (by sl_kernel_rfl) y
def out1_C_4 (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : ¬cond1_0 i) (hc1 : cond1_1 i) (x0 : Vec F S1x2048x512 .f32) (x1 : Vec F S512x64 .f32) (x2 : Vec F S1x64 .f32) (x3 : Vec F S1x512x128 .bf16) (xs0 : Vec F S2048x64 .bf16) (xs1 : Vec F S2048x1 .f32) (xs2 : Vec F S2048x1 .f32) (xs3 : Vec F S2048x64 .f32) : Vec F S1x2048x64 .f32 :=
  VO1_4.read (Elt F) (VO1_4.writes (Elt F) VO1_4.junk (kernelRun1_C c i arg3 harg3 arg4 harg4 arg5 harg5 arg6 harg6 arg7 harg7 arg8 harg8 arg9 harg9 arg10 harg10 arg11 harg11 hc0 hc1 x0 x1 x2 x3 xs0 xs1 xs2 xs3).1)

section Region1
variable (V : (c : Dev nD) → (b : Ref sig .tc) → Buf (Elt F) ((c : Thread nD τ).loc b))

/-- The contents after a point, as a tuple: the output tile's staging buffer, then the four scratches. -/
def caseA1 (c : Dev nD) (t : Fin cfg1.N) (hc0 : cond1_0 (grid1.coords t)) (hc1 : ¬cond1_1 (grid1.coords t)) : (Vec F S1x2048x64 .f32 × Vec F S2048x64 .bf16 × Vec F S2048x1 .f32 × Vec F S2048x1 .f32 × Vec F S2048x64 .f32) :=
  (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t),
   sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t),
   sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t),
   sout1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t),
   sout1_A_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t))
def caseB1 (c : Dev nD) (t : Fin cfg1.N) (hc0 : ¬cond1_0 (grid1.coords t)) (hc1 : ¬cond1_1 (grid1.coords t)) (p : (Vec F S1x2048x64 .f32 × Vec F S2048x64 .bf16 × Vec F S2048x1 .f32 × Vec F S2048x1 .f32 × Vec F S2048x64 .f32)) : (Vec F S1x2048x64 .f32 × Vec F S2048x64 .bf16 × Vec F S2048x1 .f32 × Vec F S2048x1 .f32 × Vec F S2048x64 .f32) :=
  (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) p.2.1 p.2.2.1 p.2.2.2.1 p.2.2.2.2,
   p.2.1,
   sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) p.2.1 p.2.2.1 p.2.2.2.1 p.2.2.2.2,
   sout1_B_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) p.2.1 p.2.2.1 p.2.2.2.1 p.2.2.2.2,
   sout1_B_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) p.2.1 p.2.2.1 p.2.2.2.1 p.2.2.2.2)
def caseC1 (c : Dev nD) (t : Fin cfg1.N) (hc0 : ¬cond1_0 (grid1.coords t)) (hc1 : cond1_1 (grid1.coords t)) (p : (Vec F S1x2048x64 .f32 × Vec F S2048x64 .bf16 × Vec F S2048x1 .f32 × Vec F S2048x1 .f32 × Vec F S2048x64 .f32)) : (Vec F S1x2048x64 .f32 × Vec F S2048x64 .bf16 × Vec F S2048x1 .f32 × Vec F S2048x1 .f32 × Vec F S2048x64 .f32) :=
  (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) p.2.1 p.2.2.1 p.2.2.2.1 p.2.2.2.2,
   p.2.1,
   sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) p.2.1 p.2.2.1 p.2.2.2.1 p.2.2.2.2,
   sout1_C_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) p.2.1 p.2.2.1 p.2.2.2.1 p.2.2.2.2,
   sout1_C_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) p.2.1 p.2.2.1 p.2.2.2.1 p.2.2.2.2)

/-- THE ACCUMULATION: what the output tile's buffer and the four scratches hold after the body at position `n`. -/
def outsAt1 (c : Dev nD) : (n : ℕ) → n < cfg1.N → (Vec F S1x2048x64 .f32 × Vec F S2048x64 .bf16 × Vec F S2048x1 .f32 × Vec F S2048x1 .f32 × Vec F S2048x64 .f32)
  | 0, hn => caseA1 V c ⟨0, hn⟩ ((hcond1_0 ⟨0, hn⟩).mpr (Nat.zero_mod _)) (fun h => (fun h => by (try dsimp only at h); omega) ((hcond1_1 ⟨0, hn⟩).mp h))
  | n + 1, hn =>
    if h0 : (n + 1) % 8 = 0 then
      if h1 : (n + 1) % 8 = 7 then False.elim (by omega)
      else caseA1 V c ⟨n + 1, hn⟩ ((hcond1_0 ⟨n + 1, hn⟩).mpr h0) (fun h => h1 ((hcond1_1 ⟨n + 1, hn⟩).mp h))
    else
      if h1 : (n + 1) % 8 = 7 then
        caseC1 V c ⟨n + 1, hn⟩ (fun h => h0 ((hcond1_0 ⟨n + 1, hn⟩).mp h)) ((hcond1_1 ⟨n + 1, hn⟩).mpr h1) (outsAt1 c n (Nat.lt_of_succ_lt hn))
      else
        caseB1 V c ⟨n + 1, hn⟩ (fun h => h0 ((hcond1_0 ⟨n + 1, hn⟩).mp h)) (fun h => h1 ((hcond1_1 ⟨n + 1, hn⟩).mp h)) (outsAt1 c n (Nat.lt_of_succ_lt hn))

theorem outsAt1_A (c : Dev nD) (t : Fin cfg1.N) (h0 : t.val % 8 = 0) (h1 : ¬t.val % 8 = 7) :
    outsAt1 V c t.val t.isLt = caseA1 V c t ((hcond1_0 t).mpr h0) (fun h => h1 ((hcond1_1 t).mp h)) := by
  obtain ⟨n, hn⟩ := t
  cases n with
  | zero => exact rfl
  | succ n => exact (dif_pos h0).trans ((dif_neg h1).trans rfl)
theorem outsAt1_B (c : Dev nD) (t : Fin cfg1.N) (h0 : ¬t.val % 8 = 0) (h1 : ¬t.val % 8 = 7) :
    outsAt1 V c t.val t.isLt = caseB1 V c t (fun h => h0 ((hcond1_0 t).mp h)) (fun h => h1 ((hcond1_1 t).mp h)) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)
theorem outsAt1_C (c : Dev nD) (t : Fin cfg1.N) (h0 : ¬t.val % 8 = 0) (h1 : t.val % 8 = 7) :
    outsAt1 V c t.val t.isLt = caseC1 V c t (fun h => h0 ((hcond1_0 t).mp h)) ((hcond1_1 t).mpr h1) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: the class's before the first point; afterwards the other region's
    staging buffers at anything, each scratch at what the point before left in it, the generator register at some
    state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2.1) ∗ owns (c : Thread nD τ) scM1_3 fullShare ((outsAt1 V c n hn).2.2.2.2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2.1) ∗ owns (c : Thread nD τ) scM1_3 fullShare ((outsAt1 V c n hn).2.2.2.2)) ∗ (∃ r, prngReg c r)) := rfl
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2.1) ∗ owns (c : Thread nD τ) scM1_3 fullShare ((outsAt1 V c (n - 1) (by omega)).2.2.2.2)) ∗ (∃ r, prngReg c r)) := by
  cases n with
  | zero => exact absurd rfl hz
  | succ n => rfl

/-- The proof data of the second pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 16000000 in
/-- The body at any point: the inputs' memrefs hold their blocks; the key block says which case the point is in; the
    invariant hands the body the four scratches at what the point before left (at anything before a first block's
    reset) and takes them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [show (dat1 V c).leavesExact 3 t = owns (c : Thread nD τ) (ms1_3 t) fullShare ((dat1 V c).after 3 t) from by
      unfold Dat.leavesExact; rw [liveAt1_3 t], after1_3]
  by_cases h0 : t.val % 8 = 0
  · have h1 : ¬t.val % 8 = 7 := by omega
    have hc0 : cond1_0 (grid1.coords t) := (hcond1_0 t).mpr h0
    have hc1 : ¬cond1_1 (grid1.coords t) := fun h => h1 ((hcond1_1 t).mp h)
    rw [Dat.leavesExact_idle (dat1 V c) 4 t (idleAt1_4 t hc1) (noFlush1_4 t hc1)]
    rw [outsAt1_A V c t h0 h1]
    unfold caseA1 sout1_A_0 sout1_A_1 sout1_A_2 sout1_A_3; (try dsimp only)
    by_cases hz : t.val = 0
    · rw [PhiS1_castSucc V c t, PhiS1_zero V c _ _ hz, PhiA1_eq]
      iintro ⟨⟨⟨S1, S2, S3, S4, S5, S6, HS0, HS1, HS2, HS3⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ _ _ _ _ _ _ hc0 hc1 (iblk1 V c 0 t) (iblk1 V c 1 t) (iblk1 V c 2 t) (iblk1 V c 3 t)).2.2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%es0, HS0⟩, ⟨%es1, HS1⟩, ⟨%es2, HS2⟩, ⟨%es3, HS3⟩⟩
      isplitl [S1 S2 S3 S4 S5 S6 HS0 HS1 HS2 HS3 Hg]
      · isplitl [S1 S2 S3 S4 S5 S6 HS0 HS1 HS2 HS3]
        · isplitl [S1]; · iexact S1
          isplitl [S2]; · iexact S2
          isplitl [S3]; · iexact S3
          isplitl [S4]; · iexact S4
          isplitl [S5]; · iexact S5
          isplitl [S6]; · iexact S6
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _ _ _ _ _ _ _)
          unfold owns; iexists _; isplitr
          swap; · iexact HS3
          ipureintro; exact View.read_writes_of_cover _ _ _ _ _ (scover1_A_3 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨⟨S1, S2, S3, S4, S5, S6, HS0, HS1, HS2, HS3⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ _ _ _ _ _ _ hc0 hc1 (iblk1 V c 0 t) (iblk1 V c 1 t) (iblk1 V c 2 t) (iblk1 V c 3 t)).2.2.2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      isplitl [HS3]; · iexists _; iexact HS3
      iintro ⟨H0, H1, H2, H3, H4, ⟨%es0, HS0⟩, ⟨%es1, HS1⟩, ⟨%es2, HS2⟩, ⟨%es3, HS3⟩⟩
      isplitl [S1 S2 S3 S4 S5 S6 HS0 HS1 HS2 HS3 Hg]
      · isplitl [S1 S2 S3 S4 S5 S6 HS0 HS1 HS2 HS3]
        · isplitl [S1]; · iexact S1
          isplitl [S2]; · iexact S2
          isplitl [S3]; · iexact S3
          isplitl [S4]; · iexact S4
          isplitl [S5]; · iexact S5
          isplitl [S6]; · iexact S6
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _ _ _ _ _ _ _)
          unfold owns; iexists _; isplitr
          swap; · iexact HS3
          ipureintro; exact View.read_writes_of_cover _ _ _ _ _ (scover1_A_3 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    have hc0 : ¬cond1_0 (grid1.coords t) := fun h => h0 ((hcond1_0 t).mp h)
    by_cases h1 : t.val % 8 = 7
    · have hc1 : cond1_1 (grid1.coords t) := (hcond1_1 t).mpr h1
      rw [show (dat1 V c).leavesExact 4 t = owns (c : Thread nD τ) (ms1_4 t) fullShare ((dat1 V c).after 4 t) from by
        unfold Dat.leavesExact; rw [liveAt1_4 t hc1], after1_4]
      rw [outsAt1_C V c t h0 h1]
      unfold caseC1 out1_C_4 sout1_C_1 sout1_C_2 sout1_C_3; (try dsimp only)
      rw [PhiS1_castSucc V c t, PhiS1_pos V c _ _ hz]
      iintro ⟨⟨⟨S1, S2, S3, S4, S5, S6, HS0, HS1, HS2, HS3⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ _ _ _ _ _ _ hc0 hc1 (iblk1 V c 0 t) (iblk1 V c 1 t) (iblk1 V c 2 t) (iblk1 V c 3 t) _ _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HS3]; · iexact HS3
      iintro ⟨H0, H1, H2, H3, ⟨%e4, H4⟩, HS0, ⟨%es1, HS1⟩, ⟨%es2, HS2⟩, ⟨%es3, HS3⟩⟩
      isplitl [S1 S2 S3 S4 S5 S6 HS0 HS1 HS2 HS3 Hg]
      · isplitl [S1 S2 S3 S4 S5 S6 HS0 HS1 HS2 HS3]
        · isplitl [S1]; · iexact S1
          isplitl [S2]; · iexact S2
          isplitl [S3]; · iexact S3
          isplitl [S4]; · iexact S4
          isplitl [S5]; · iexact S5
          isplitl [S6]; · iexact S6
          isplitl [HS0]
          · iexact HS0
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_C_2 c _ _ _ _ _ _ _ _ _ _ _ _ _ _ _ _ _ _ _ _ _ _ _ _ _ _ _ _ _)
          unfold owns; iexists _; isplitr
          swap; · iexact HS3
          ipureintro; exact View.read_writes_of_cover _ _ _ _ _ (scover1_C_3 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _ _ _ _ _ _ _ _ _ _)
    · have hc1 : ¬cond1_1 (grid1.coords t) := fun h => h1 ((hcond1_1 t).mp h)
      rw [Dat.leavesExact_idle (dat1 V c) 4 t (idleAt1_4 t hc1) (noFlush1_4 t hc1)]
      rw [outsAt1_B V c t h0 h1]
      unfold caseB1 sout1_B_1 sout1_B_2 sout1_B_3; (try dsimp only)
      rw [PhiS1_castSucc V c t, PhiS1_pos V c _ _ hz]
      iintro ⟨⟨⟨S1, S2, S3, S4, S5, S6, HS0, HS1, HS2, HS3⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ _ _ _ _ _ _ hc0 hc1 (iblk1 V c 0 t) (iblk1 V c 1 t) (iblk1 V c 2 t) (iblk1 V c 3 t) _ _ _ _).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, HS0, ⟨%es1, HS1⟩, ⟨%es2, HS2⟩, ⟨%es3, HS3⟩⟩
      isplitl [S1 S2 S3 S4 S5 S6 HS0 HS1 HS2 HS3 Hg]
      · isplitl [S1 S2 S3 S4 S5 S6 HS0 HS1 HS2 HS3]
        · isplitl [S1]; · iexact S1
          isplitl [S2]; · iexact S2
          isplitl [S3]; · iexact S3
          isplitl [S4]; · iexact S4
          isplitl [S5]; · iexact S5
          isplitl [S6]; · iexact S6
          isplitl [HS0]
          · iexact HS0
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_B_2 c _ _ _ _ _ _ _ _ _ _ _ _ _ _ _ _ _ _ _ _ _ _ _ _ _ _ _ _ _)
          unfold owns; iexists _; isplitr
          swap; · iexact HS3
          ipureintro; exact View.read_writes_of_cover _ _ _ _ _ (scover1_B_3 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the scratches' named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨S1, S2, S3, S4, S5, S6, HS0, HS1, HS2, HS3⟩, Hg⟩
  isplitl [S1 S2 S3 S4 S5 S6 HS0 HS1 HS2 HS3]
  · isplitl [S1]; · iexact S1
    isplitl [S2]; · iexact S2
    isplitl [S3]; · iexact S3
    isplitl [S4]; · iexact S4
    isplitl [S5]; · iexact S5
    isplitl [S6]; · iexact S6
    isplitl [HS0]; · iexists _; iexact HS0
    isplitl [HS1]; · iexists _; iexact HS1
    isplitl [HS2]; · iexists _; iexact HS2
    iexists _; iexact HS3
  iexact Hg

end Region1

end Cert.Kernel.Fr

end
-- ==== Proof.KernelFrame.lean ====
/-
  The whole program's run: @main is a stretch of host operations (the scaled query weights and bias, the
  concatenated key|value weights and bias, the input flattened), the projection region, one reshape, the attention
  region. The buffer contents at each of the five segment boundaries are a fold from the launch memory: a stretch's
  operations applied, a region's arrays at what its write-backs leave. Every pipeline's proof data is taken at its
  region's entry contents; each region is a segment over the thread state "every unscoped buffer at the boundary's
  contents, the generator register at some state, nothing owed". The run ends with every unscoped buffer at the last
  boundary's contents; from it: the arguments end as launched, and the result array is what the attention region's
  write-backs leave.
-/
import proofs.«132332_j31885837205648_2_alg».proof.Proof.KernelRegion0
import proofs.«132332_j31885837205648_2_alg».proof.Proof.KernelRegion1

set_option maxRecDepth 16384

noncomputable section

namespace Cert.Kernel.Fr

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-- The result array ends at what the attention region's write-backs leave. -/
theorem W4_main_v11 (c : Dev nD) : W4 m ρ c (Proc.devRef .tc main_v11) = (dat1 (V3 m ρ) c).arrAt 4 cfg1.N :=
  W4_arr m ρ c 4

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-- The class invariant of the second region gives back the generator register and the scoped rest. -/
theorem PhiA1_split (c : Dev nD) : (Pipeline.ΦA spec1 c : sProp 𝕄)
    ⊢ iprop((∃ r, prngReg c r) ∗ emp ∗ Pipeline.scopedRest (Ix := Unit) (Name := ℕ) (U := UR sig nD τ) (Lvl := ℕ) (Val := Elt F) spec1 c) := by
  unfold Pipeline.ΦA
  iintro ⟨Hr, Hp⟩
  isplitl [Hp]; · iexact Hp
  isplitr; · iempintro
  iexact Hr

/-! ## The regions as segments -/

set_option backward.isDefEq.respectTransparency.types false in
/-- Region 0 over the thread state: entered from every unscoped buffer at the contents before it, left at the
    contents after it; its arrays split out of the unscoped buffers and put back at the exit contents; the generator
    register into the invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the
    contents after it; its arrays split out of the unscoped buffers and put back at the exit contents; the generator
    register into the invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    iintro ⟨Hp, -, Hr⟩
    iapply (hin1 (V3 m ρ) c)
    unfold Pipeline.ΦA
    isplitl [Hr]; · iexact Hr
    iexact Hp
  hout c := by
    rw [Pipeline.ownSems0_none, show (pdats m ρ 1 c).Φ (Fin.last _) = (dat1 (V3 m ρ) c).Φ (Fin.last cfg1.N) from rfl]
    exact (hout1 (V3 m ρ) c).trans (PhiA1_split c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩) (run_all m ρ)

end Cert.Kernel.Fr

end
-- ==== Proof.KernelIdealRegion0.lean ====
/-
  The first kernel region (the fused key/value projection), at a parameter `V`: the buffer contents the region is
  entered with. Its grid has 8 points; point `t` reads rows `2048 t … 2048 t + 2047` of the flattened input, the
  whole concatenated weight matrix and bias row, and writes the same rows of the packed key|value array.
  Here: each window's block at a point, the body's run (the one store's piece found by the run itself), what the
  output's staging buffer holds after the body, the proof data and the body obligation.
-/
import proofs.«132332_j31885837205648_2_alg».proof.Proof.Gen.KernelIdeal.Launch
import proofs.«132332_j31885837205648_2_alg».proof.Proof.Gen.KernelIdeal.Skeleton
import proofs.«132332_j31885837205648_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- One staging buffer of the output window, through which its contents are stated. -/
abbrev VO0_3 : View sig .tc .vmem S2048x128 .bf16 := (Memref.whole cc0_stg3_0 : Memref sig .tc .vmem S2048x128 .bf16).view
abbrev ms0_0 (t : Fin cfg0.N) : Memref sig .tc .vmem S2048x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x128 .bf16 := win0_3.stage (cfg0.slots t 3)
abbrev hs0_3 (t : Fin cfg0.N) : (ms0_3 t).IsWhole := hstage0_3 ((cfg0.slots t 3).cast nbuf0_3)

set_option maxHeartbeats 1000000 in
/-- The body on whole staging memrefs, the three inputs' at their contents and the output's at anything, runs to the
    continuation holding the inputs' as they were and the output's with the run's pieces written. -/
noncomputable def kernelRun0 (c : Dev nD) (i : grid0.Coords) (arg1 : Memref sig .tc .vmem S2048x512 .f32) (harg1 : arg1.IsWhole) (arg2 : Memref sig .tc .vmem S512x128 .f32) (harg2 : arg2.IsWhole) (arg3 : Memref sig .tc .vmem S1x128 .f32) (harg3 : arg3.IsWhole) (arg4 : Memref sig .tc .vmem S2048x128 .bf16) (harg4 : arg4.IsWhole)
    (x0 : Vec F S2048x512 .f32) (x1 : Vec F S512x128 .f32) (x2 : Vec F S1x128 .f32) :
    { L3 : List (View.Piece (Elt F) S2048x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc0__proj_kv_kernel i arg1 harg1 arg2 harg2 arg3 harg3 arg4 harg4) K } := by
  refine ⟨?_, fun E K => ?run⟩
  case run =>
    simp only [cc0__proj_kv_kernel_eq_skeleton]; unfold cc0__proj_kv_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-- The run's pieces tile the output's block, so they cover it. -/
theorem cover0_3 (c : Dev nD) (i : grid0.Coords) (arg1 : Memref sig .tc .vmem S2048x512 .f32) (harg1 : arg1.IsWhole) (arg2 : Memref sig .tc .vmem S512x128 .f32) (harg2 : arg2.IsWhole) (arg3 : Memref sig .tc .vmem S1x128 .f32) (harg3 : arg3.IsWhole) (arg4 : Memref sig .tc .vmem S2048x128 .bf16) (harg4 : arg4.IsWhole)
    (x0 : Vec F S2048x512 .f32) (x1 : Vec F S512x128 .f32) (x2 : Vec F S1x128 .f32) (y : S2048x128.Idx) :
    ∃ pc ∈ (kernelRun0 c i arg1 harg1 arg2 harg2 arg3 harg3 arg4 harg4 x0 x1 x2).1, y ∈ pc.1.set :=
  View.cover_of_tiledL (kernelRun0 c i arg1 harg1 arg2 harg2 arg3 harg3 arg4 harg4 x0 x1 x2).1 S2048x128.size (by sl_kernel_rfl) y

/-- What the body leaves in the output's staging buffer: its pieces read back. -/
def out0_3 (c : Dev nD) (i : grid0.Coords) (arg1 : Memref sig .tc .vmem S2048x512 .f32) (harg1 : arg1.IsWhole) (arg2 : Memref sig .tc .vmem S512x128 .f32) (harg2 : arg2.IsWhole) (arg3 : Memref sig .tc .vmem S1x128 .f32) (harg3 : arg3.IsWhole) (arg4 : Memref sig .tc .vmem S2048x128 .bf16) (harg4 : arg4.IsWhole)
    (x0 : Vec F S2048x512 .f32) (x1 : Vec F S512x128 .f32) (x2 : Vec F S1x128 .f32) : Vec F S2048x128 .bf16 :=
  VO0_3.read (Elt F) (VO0_3.writes (Elt F) VO0_3.junk (kernelRun0 c i arg1 harg1 arg2 harg2 arg3 harg3 arg4 harg4 x0 x1 x2).1)

/-- What point `t` leaves in the output's staging buffer, from the input blocks at `t`. -/
def outAt0 (c : Dev nD) (t : Fin cfg0.N) : Vec F S2048x128 .bf16 :=
  out0_3 c (grid0.coords t) (ms0_0 t) (hs0_0 t) (ms0_1 t) (hs0_1 t) (ms0_2 t) (hs0_2 t) (ms0_3 t) (hs0_3 t) (iblk0 V c 0 t) (iblk0 V c 1 t) (iblk0 V c 2 t)

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt0 V c t
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt0 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

set_option maxHeartbeats 1000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  unfold outAt0 out0_3
  iintro ⟨HΦ, Ho, ⟨%d0, H0⟩, ⟨%d1, H1⟩, ⟨%d2, H2⟩, ⟨%d3, H3⟩⟩
  iapply ((kernelRun0 c (grid0.coords t) _ _ _ _ _ _ _ _ (iblk0 V c 0 t) (iblk0 V c 1 t) (iblk0 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0_3 c _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

end Region0

end Cert.KernelIdeal.Fr

end
-- ==== Proof.KernelIdealRegion1Base.lean ====
/-
  The second kernel region (attention with the query projection fused in), what its three control cases share.
  The grid is 4 × 2 × 8: batch, query tile of 2048 rows, key block of 512 rows; the key block is the innermost
  coordinate, so point `t` has key block `t % 8`. At key block 0 the body projects the query tile and resets the
  running maximum, normaliser and weighted sum it keeps in four scratch buffers; at every point it folds one key
  block into them; at key block 7 it divides and stores the output tile, which is written back only there.
  Here: each window's block at a point, the two branch conditions decided over the grid, where the output window is
  idle, the staging and scratch memrefs, and the class invariant spelled out.
-/
import proofs.«132332_j31885837205648_2_alg».proof.Proof.Gen.KernelIdeal.Launch
import proofs.«132332_j31885837205648_2_alg».proof.Proof.Gen.KernelIdeal.Skeleton
import proofs.«132332_j31885837205648_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's branch conditions -/

/-- The first `scf.if`: the key-block coordinate is 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The second `scf.if`: the key-block coordinate is 7, the last. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last key block the output window is idle and not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At the last key block it is live. -/
theorem liveAt1_4 : ∀ t : Fin cfg1.N, cond1_1 (grid1.coords t) → cfg1.idle 4 (grid1.coords t) = false := by decide +kernel

/-! ## The memrefs the body is called with -/

abbrev VO1_4 : View sig .tc .vmem S1x2048x64 .f32 := (Memref.whole cc1_stg4_0 : Memref sig .tc .vmem S1x2048x64 .f32).view
abbrev ms1_0 (t : Fin cfg1.N) : Memref sig .tc .vmem S1x2048x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x128 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x2048x64 .f32 := win1_4.stage (cfg1.slots t 4)
abbrev hs1_4 (t : Fin cfg1.N) : (ms1_4 t).IsWhole := hstage1_4 ((cfg1.slots t 4).cast nbuf1_4)
/-- The four scratch operands: the projected query tile, the running maximum, the running normaliser, the running
    weighted sum. -/
abbrev scM1_0 : Memref sig .tc .vmem S2048x64 .bf16 := Memref.whole cc1_scratch0
abbrev scM1_1 : Memref sig .tc .vmem S2048x1 .f32 := Memref.whole cc1_scratch1
abbrev scM1_2 : Memref sig .tc .vmem S2048x1 .f32 := Memref.whole cc1_scratch2
abbrev scM1_3 : Memref sig .tc .vmem S2048x64 .f32 := Memref.whole cc1_scratch3
abbrev VS1_0 : View sig .tc .vmem S2048x64 .bf16 := scM1_0.view
abbrev VS1_1 : View sig .tc .vmem S2048x1 .f32 := scM1_1.view
abbrev VS1_2 : View sig .tc .vmem S2048x1 .f32 := scM1_2.view
abbrev VS1_3 : View sig .tc .vmem S2048x64 .f32 := scM1_3.view

/-- The other region's staging buffers, which this region never touches, each whole at some contents. -/
abbrev others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- The class invariant with the scratch operands as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d)) ∗ (∃ r, prngReg c r)) := by
  unfold Pipeline.ΦA; rw [scopedRest1_eq]; simp only [scM1_0, scM1_1, scM1_2, scM1_3, owns_whole]; try rfl

end Cert.KernelIdeal.Fr

end
-- ==== Proof.KernelIdealRun1A.lean ====
/-
  The attention body at a point of key block 0 (the first `scf.if` taken, the second not): the query tile is
  projected into the first scratch, the running maximum is reset to -∞ and the normaliser and weighted sum to zero,
  then the first key block is folded in. The output window is idle. The pieces each scratch ends with are found by
  the run.
-/
import proofs.«132332_j31885837205648_2_alg».proof.Proof.KernelIdealRegion1Base

set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : cond1_0 i) (hc1 : ¬cond1_1 i)
    (x0 : Vec F S1x2048x512 .f32) (x1 : Vec F S512x64 .f32) (x2 : Vec F S1x64 .f32) (x3 : Vec F S1x512x128 .bf16) :
    Σ' (L4 : List (View.Piece (Elt F) S1x2048x64 .f32)) (LS0 : List (View.Piece (Elt F) S2048x64 .bf16)) (LS1 : List (View.Piece (Elt F) S2048x1 .f32)) (LS2 : List (View.Piece (Elt F) S2048x1 .f32)), { LS3 : List (View.Piece (Elt F) S2048x64 .f32) //
      ∀ (xi4 : Vec F S1x2048x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11) K } := by
  refine ⟨[], ?_, ?_, ?_, ?_, fun xi4 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    isplitl [HS2]; · iexists _; iexact HS2
    iexists _; iexact HS3

end Cert.KernelIdeal.Fr

end
-- ==== Proof.KernelIdealRun1B.lean ====
/-
  The attention body at a point of key blocks 1 to 6 (neither `scf.if` taken): one key block is folded into the
  running maximum, normaliser and weighted sum, which come in at what the point before left; the projected query
  tile is read and left as it is. The output window is idle.
-/
import proofs.«132332_j31885837205648_2_alg».proof.Proof.KernelIdealRun1A

set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : ¬cond1_0 i) (hc1 : ¬cond1_1 i)
    (x0 : Vec F S1x2048x512 .f32) (x1 : Vec F S512x64 .f32) (x2 : Vec F S1x64 .f32) (x3 : Vec F S1x512x128 .bf16) (xs0 : Vec F S2048x64 .bf16) (xs1 : Vec F S2048x1 .f32) (xs2 : Vec F S2048x1 .f32) (xs3 : Vec F S2048x64 .f32) :
    Σ' (L4 : List (View.Piece (Elt F) S1x2048x64 .f32)) (LS1 : List (View.Piece (Elt F) S2048x1 .f32)) (LS2 : List (View.Piece (Elt F) S2048x1 .f32)), { LS3 : List (View.Piece (Elt F) S2048x64 .f32) //
      ∀ (xi4 : Vec F S1x2048x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
                ∗ owns (c : Thread nD τ) arg8 fullShare xs0 ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11) K } := by
  refine ⟨[], ?_, ?_, ?_, fun xi4 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4
    obtain rfl := harg8.eq_unread hfs0; obtain rfl := harg9.eq_unread hfs1; obtain rfl := harg10.eq_unread hfs2; obtain rfl := harg11.eq_unread hfs3
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]
    · iexists _; isplitr; · ipureintro; exact harg8.read_unread _
      iexact HS0
    isplitl [HS1]; · iexists _; iexact HS1
    isplitl [HS2]; · iexists _; iexact HS2
    iexists _; iexact HS3

end Cert.KernelIdeal.Fr

end
-- ==== Proof.KernelIdealRun1C.lean ====
/-
  The attention body at a point of key block 7 (the second `scf.if` taken): the last key block is folded in, then
  the weighted sum is divided by the normaliser and stored into the output tile, which is written back here.
-/
import proofs.«132332_j31885837205648_2_alg».proof.Proof.KernelIdealRun1B

set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : ¬cond1_0 i) (hc1 : cond1_1 i)
    (x0 : Vec F S1x2048x512 .f32) (x1 : Vec F S512x64 .f32) (x2 : Vec F S1x64 .f32) (x3 : Vec F S1x512x128 .bf16) (xs0 : Vec F S2048x64 .bf16) (xs1 : Vec F S2048x1 .f32) (xs2 : Vec F S2048x1 .f32) (xs3 : Vec F S2048x64 .f32) :
    Σ' (L4 : List (View.Piece (Elt F) S1x2048x64 .f32)) (LS1 : List (View.Piece (Elt F) S2048x1 .f32)) (LS2 : List (View.Piece (Elt F) S2048x1 .f32)), { LS3 : List (View.Piece (Elt F) S2048x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)
                ∗ owns (c : Thread nD τ) arg8 fullShare xs0 ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3
    obtain rfl := harg8.eq_unread hfs0; obtain rfl := harg9.eq_unread hfs1; obtain rfl := harg10.eq_unread hfs2; obtain rfl := harg11.eq_unread hfs3
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]
    · iexists _; isplitr; · ipureintro; exact harg8.read_unread _
      iexact HS0
    isplitl [HS1]; · iexists _; iexact HS1
    isplitl [HS2]; · iexists _; iexact HS2
    iexists _; iexact HS3

end Cert.KernelIdeal.Fr

end
-- ==== Proof.KernelIdealRegion1.lean ====
/-
  The second kernel region's certificate half, at a parameter `V` (the buffer contents at its entry): what each
  control case leaves in the four scratch buffers and in the output tile, those contents point by point as a
  recursion over the 64 grid points (a point of key block 0 starts afresh; every other point continues from what the
  point before left), the invariant that carries the four scratches from point to point, the proof data and the body
  obligation.
-/
import proofs.«132332_j31885837205648_2_alg».proof.Proof.KernelIdealRun1C

set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

theorem scover1_A_0 (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : cond1_0 i) (hc1 : ¬cond1_1 i) (x0 : Vec F S1x2048x512 .f32) (x1 : Vec F S512x64 .f32) (x2 : Vec F S1x64 .f32) (x3 : Vec F S1x512x128 .bf16) (y : S2048x64.Idx) :
    ∃ pc ∈ (kernelRun1_A c i arg3 harg3 arg4 harg4 arg5 harg5 arg6 harg6 arg7 harg7 arg8 harg8 arg9 harg9 arg10 harg10 arg11 harg11 hc0 hc1 x0 x1 x2 x3).2.1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3).2.1 S2048x64.size (by sl_kernel_rfl) y
def sout1_A_0 (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : cond1_0 i) (hc1 : ¬cond1_1 i) (x0 : Vec F S1x2048x512 .f32) (x1 : Vec F S512x64 .f32) (x2 : Vec F S1x64 .f32) (x3 : Vec F S1x512x128 .bf16) : Vec F S2048x64 .bf16 :=
  VS1_0.read (Elt F) (VS1_0.writes (Elt F) VS1_0.junk (kernelRun1_A c i arg3 harg3 arg4 harg4 arg5 harg5 arg6 harg6 arg7 harg7 arg8 harg8 arg9 harg9 arg10 harg10 arg11 harg11 hc0 hc1 x0 x1 x2 x3).2.1)
theorem scover1_A_1 (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : cond1_0 i) (hc1 : ¬cond1_1 i) (x0 : Vec F S1x2048x512 .f32) (x1 : Vec F S512x64 .f32) (x2 : Vec F S1x64 .f32) (x3 : Vec F S1x512x128 .bf16) (y : S2048x1.Idx) :
    ∃ pc ∈ (kernelRun1_A c i arg3 harg3 arg4 harg4 arg5 harg5 arg6 harg6 arg7 harg7 arg8 harg8 arg9 harg9 arg10 harg10 arg11 harg11 hc0 hc1 x0 x1 x2 x3).2.2.1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3).2.2.1 S2048x1.size (by sl_kernel_rfl) y
def sout1_A_1 (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : cond1_0 i) (hc1 : ¬cond1_1 i) (x0 : Vec F S1x2048x512 .f32) (x1 : Vec F S512x64 .f32) (x2 : Vec F S1x64 .f32) (x3 : Vec F S1x512x128 .bf16) : Vec F S2048x1 .f32 :=
  VS1_1.read (Elt F) (VS1_1.writes (Elt F) VS1_1.junk (kernelRun1_A c i arg3 harg3 arg4 harg4 arg5 harg5 arg6 harg6 arg7 harg7 arg8 harg8 arg9 harg9 arg10 harg10 arg11 harg11 hc0 hc1 x0 x1 x2 x3).2.2.1)
theorem scover1_A_2 (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : cond1_0 i) (hc1 : ¬cond1_1 i) (x0 : Vec F S1x2048x512 .f32) (x1 : Vec F S512x64 .f32) (x2 : Vec F S1x64 .f32) (x3 : Vec F S1x512x128 .bf16) (y : S2048x1.Idx) :
    ∃ pc ∈ (kernelRun1_A c i arg3 harg3 arg4 harg4 arg5 harg5 arg6 harg6 arg7 harg7 arg8 harg8 arg9 harg9 arg10 harg10 arg11 harg11 hc0 hc1 x0 x1 x2 x3).2.2.2.1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3).2.2.2.1 S2048x1.size (by sl_kernel_rfl) y
def sout1_A_2 (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : cond1_0 i) (hc1 : ¬cond1_1 i) (x0 : Vec F S1x2048x512 .f32) (x1 : Vec F S512x64 .f32) (x2 : Vec F S1x64 .f32) (x3 : Vec F S1x512x128 .bf16) : Vec F S2048x1 .f32 :=
  VS1_2.read (Elt F) (VS1_2.writes (Elt F) VS1_2.junk (kernelRun1_A c i arg3 harg3 arg4 harg4 arg5 harg5 arg6 harg6 arg7 harg7 arg8 harg8 arg9 harg9 arg10 harg10 arg11 harg11 hc0 hc1 x0 x1 x2 x3).2.2.2.1)
theorem scover1_A_3 (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : cond1_0 i) (hc1 : ¬cond1_1 i) (x0 : Vec F S1x2048x512 .f32) (x1 : Vec F S512x64 .f32) (x2 : Vec F S1x64 .f32) (x3 : Vec F S1x512x128 .bf16) (y : S2048x64.Idx) :
    ∃ pc ∈ (kernelRun1_A c i arg3 harg3 arg4 harg4 arg5 harg5 arg6 harg6 arg7 harg7 arg8 harg8 arg9 harg9 arg10 harg10 arg11 harg11 hc0 hc1 x0 x1 x2 x3).2.2.2.2.1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3).2.2.2.2.1 S2048x64.size (by sl_kernel_rfl) y
def sout1_A_3 (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : cond1_0 i) (hc1 : ¬cond1_1 i) (x0 : Vec F S1x2048x512 .f32) (x1 : Vec F S512x64 .f32) (x2 : Vec F S1x64 .f32) (x3 : Vec F S1x512x128 .bf16) : Vec F S2048x64 .f32 :=
  VS1_3.read (Elt F) (VS1_3.writes (Elt F) VS1_3.junk (kernelRun1_A c i arg3 harg3 arg4 harg4 arg5 harg5 arg6 harg6 arg7 harg7 arg8 harg8 arg9 harg9 arg10 harg10 arg11 harg11 hc0 hc1 x0 x1 x2 x3).2.2.2.2.1)
theorem scover1_B_1 (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : ¬cond1_0 i) (hc1 : ¬cond1_1 i) (x0 : Vec F S1x2048x512 .f32) (x1 : Vec F S512x64 .f32) (x2 : Vec F S1x64 .f32) (x3 : Vec F S1x512x128 .bf16) (xs0 : Vec F S2048x64 .bf16) (xs1 : Vec F S2048x1 .f32) (xs2 : Vec F S2048x1 .f32) (xs3 : Vec F S2048x64 .f32) (y : S2048x1.Idx) :
    ∃ pc ∈ (kernelRun1_B c i arg3 harg3 arg4 harg4 arg5 harg5 arg6 harg6 arg7 harg7 arg8 harg8 arg9 harg9 arg10 harg10 arg11 harg11 hc0 hc1 x0 x1 x2 x3 xs0 xs1 xs2 xs3).2.1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 xs0 xs1 xs2 xs3).2.1 S2048x1.size (by sl_kernel_rfl) y
def sout1_B_1 (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : ¬cond1_0 i) (hc1 : ¬cond1_1 i) (x0 : Vec F S1x2048x512 .f32) (x1 : Vec F S512x64 .f32) (x2 : Vec F S1x64 .f32) (x3 : Vec F S1x512x128 .bf16) (xs0 : Vec F S2048x64 .bf16) (xs1 : Vec F S2048x1 .f32) (xs2 : Vec F S2048x1 .f32) (xs3 : Vec F S2048x64 .f32) : Vec F S2048x1 .f32 :=
  VS1_1.read (Elt F) (VS1_1.writes (Elt F) VS1_1.junk (kernelRun1_B c i arg3 harg3 arg4 harg4 arg5 harg5 arg6 harg6 arg7 harg7 arg8 harg8 arg9 harg9 arg10 harg10 arg11 harg11 hc0 hc1 x0 x1 x2 x3 xs0 xs1 xs2 xs3).2.1)
theorem scover1_B_2 (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : ¬cond1_0 i) (hc1 : ¬cond1_1 i) (x0 : Vec F S1x2048x512 .f32) (x1 : Vec F S512x64 .f32) (x2 : Vec F S1x64 .f32) (x3 : Vec F S1x512x128 .bf16) (xs0 : Vec F S2048x64 .bf16) (xs1 : Vec F S2048x1 .f32) (xs2 : Vec F S2048x1 .f32) (xs3 : Vec F S2048x64 .f32) (y : S2048x1.Idx) :
    ∃ pc ∈ (kernelRun1_B c i arg3 harg3 arg4 harg4 arg5 harg5 arg6 harg6 arg7 harg7 arg8 harg8 arg9 harg9 arg10 harg10 arg11 harg11 hc0 hc1 x0 x1 x2 x3 xs0 xs1 xs2 xs3).2.2.1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 xs0 xs1 xs2 xs3).2.2.1 S2048x1.size (by sl_kernel_rfl) y
def sout1_B_2 (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : ¬cond1_0 i) (hc1 : ¬cond1_1 i) (x0 : Vec F S1x2048x512 .f32) (x1 : Vec F S512x64 .f32) (x2 : Vec F S1x64 .f32) (x3 : Vec F S1x512x128 .bf16) (xs0 : Vec F S2048x64 .bf16) (xs1 : Vec F S2048x1 .f32) (xs2 : Vec F S2048x1 .f32) (xs3 : Vec F S2048x64 .f32) : Vec F S2048x1 .f32 :=
  VS1_2.read (Elt F) (VS1_2.writes (Elt F) VS1_2.junk (kernelRun1_B c i arg3 harg3 arg4 harg4 arg5 harg5 arg6 harg6 arg7 harg7 arg8 harg8 arg9 harg9 arg10 harg10 arg11 harg11 hc0 hc1 x0 x1 x2 x3 xs0 xs1 xs2 xs3).2.2.1)
theorem scover1_B_3 (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : ¬cond1_0 i) (hc1 : ¬cond1_1 i) (x0 : Vec F S1x2048x512 .f32) (x1 : Vec F S512x64 .f32) (x2 : Vec F S1x64 .f32) (x3 : Vec F S1x512x128 .bf16) (xs0 : Vec F S2048x64 .bf16) (xs1 : Vec F S2048x1 .f32) (xs2 : Vec F S2048x1 .f32) (xs3 : Vec F S2048x64 .f32) (y : S2048x64.Idx) :
    ∃ pc ∈ (kernelRun1_B c i arg3 harg3 arg4 harg4 arg5 harg5 arg6 harg6 arg7 harg7 arg8 harg8 arg9 harg9 arg10 harg10 arg11 harg11 hc0 hc1 x0 x1 x2 x3 xs0 xs1 xs2 xs3).2.2.2.1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 xs0 xs1 xs2 xs3).2.2.2.1 S2048x64.size (by sl_kernel_rfl) y
def sout1_B_3 (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : ¬cond1_0 i) (hc1 : ¬cond1_1 i) (x0 : Vec F S1x2048x512 .f32) (x1 : Vec F S512x64 .f32) (x2 : Vec F S1x64 .f32) (x3 : Vec F S1x512x128 .bf16) (xs0 : Vec F S2048x64 .bf16) (xs1 : Vec F S2048x1 .f32) (xs2 : Vec F S2048x1 .f32) (xs3 : Vec F S2048x64 .f32) : Vec F S2048x64 .f32 :=
  VS1_3.read (Elt F) (VS1_3.writes (Elt F) VS1_3.junk (kernelRun1_B c i arg3 harg3 arg4 harg4 arg5 harg5 arg6 harg6 arg7 harg7 arg8 harg8 arg9 harg9 arg10 harg10 arg11 harg11 hc0 hc1 x0 x1 x2 x3 xs0 xs1 xs2 xs3).2.2.2.1)
theorem scover1_C_1 (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : ¬cond1_0 i) (hc1 : cond1_1 i) (x0 : Vec F S1x2048x512 .f32) (x1 : Vec F S512x64 .f32) (x2 : Vec F S1x64 .f32) (x3 : Vec F S1x512x128 .bf16) (xs0 : Vec F S2048x64 .bf16) (xs1 : Vec F S2048x1 .f32) (xs2 : Vec F S2048x1 .f32) (xs3 : Vec F S2048x64 .f32) (y : S2048x1.Idx) :
    ∃ pc ∈ (kernelRun1_C c i arg3 harg3 arg4 harg4 arg5 harg5 arg6 harg6 arg7 harg7 arg8 harg8 arg9 harg9 arg10 harg10 arg11 harg11 hc0 hc1 x0 x1 x2 x3 xs0 xs1 xs2 xs3).2.1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 xs0 xs1 xs2 xs3).2.1 S2048x1.size (by sl_kernel_rfl) y
def sout1_C_1 (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : ¬cond1_0 i) (hc1 : cond1_1 i) (x0 : Vec F S1x2048x512 .f32) (x1 : Vec F S512x64 .f32) (x2 : Vec F S1x64 .f32) (x3 : Vec F S1x512x128 .bf16) (xs0 : Vec F S2048x64 .bf16) (xs1 : Vec F S2048x1 .f32) (xs2 : Vec F S2048x1 .f32) (xs3 : Vec F S2048x64 .f32) : Vec F S2048x1 .f32 :=
  VS1_1.read (Elt F) (VS1_1.writes (Elt F) VS1_1.junk (kernelRun1_C c i arg3 harg3 arg4 harg4 arg5 harg5 arg6 harg6 arg7 harg7 arg8 harg8 arg9 harg9 arg10 harg10 arg11 harg11 hc0 hc1 x0 x1 x2 x3 xs0 xs1 xs2 xs3).2.1)
theorem scover1_C_2 (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : ¬cond1_0 i) (hc1 : cond1_1 i) (x0 : Vec F S1x2048x512 .f32) (x1 : Vec F S512x64 .f32) (x2 : Vec F S1x64 .f32) (x3 : Vec F S1x512x128 .bf16) (xs0 : Vec F S2048x64 .bf16) (xs1 : Vec F S2048x1 .f32) (xs2 : Vec F S2048x1 .f32) (xs3 : Vec F S2048x64 .f32) (y : S2048x1.Idx) :
    ∃ pc ∈ (kernelRun1_C c i arg3 harg3 arg4 harg4 arg5 harg5 arg6 harg6 arg7 harg7 arg8 harg8 arg9 harg9 arg10 harg10 arg11 harg11 hc0 hc1 x0 x1 x2 x3 xs0 xs1 xs2 xs3).2.2.1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 xs0 xs1 xs2 xs3).2.2.1 S2048x1.size (by sl_kernel_rfl) y
def sout1_C_2 (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : ¬cond1_0 i) (hc1 : cond1_1 i) (x0 : Vec F S1x2048x512 .f32) (x1 : Vec F S512x64 .f32) (x2 : Vec F S1x64 .f32) (x3 : Vec F S1x512x128 .bf16) (xs0 : Vec F S2048x64 .bf16) (xs1 : Vec F S2048x1 .f32) (xs2 : Vec F S2048x1 .f32) (xs3 : Vec F S2048x64 .f32) : Vec F S2048x1 .f32 :=
  VS1_2.read (Elt F) (VS1_2.writes (Elt F) VS1_2.junk (kernelRun1_C c i arg3 harg3 arg4 harg4 arg5 harg5 arg6 harg6 arg7 harg7 arg8 harg8 arg9 harg9 arg10 harg10 arg11 harg11 hc0 hc1 x0 x1 x2 x3 xs0 xs1 xs2 xs3).2.2.1)
theorem scover1_C_3 (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : ¬cond1_0 i) (hc1 : cond1_1 i) (x0 : Vec F S1x2048x512 .f32) (x1 : Vec F S512x64 .f32) (x2 : Vec F S1x64 .f32) (x3 : Vec F S1x512x128 .bf16) (xs0 : Vec F S2048x64 .bf16) (xs1 : Vec F S2048x1 .f32) (xs2 : Vec F S2048x1 .f32) (xs3 : Vec F S2048x64 .f32) (y : S2048x64.Idx) :
    ∃ pc ∈ (kernelRun1_C c i arg3 harg3 arg4 harg4 arg5 harg5 arg6 harg6 arg7 harg7 arg8 harg8 arg9 harg9 arg10 harg10 arg11 harg11 hc0 hc1 x0 x1 x2 x3 xs0 xs1 xs2 xs3).2.2.2.1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 xs0 xs1 xs2 xs3).2.2.2.1 S2048x64.size (by sl_kernel_rfl) y
def sout1_C_3 (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : ¬cond1_0 i) (hc1 : cond1_1 i) (x0 : Vec F S1x2048x512 .f32) (x1 : Vec F S512x64 .f32) (x2 : Vec F S1x64 .f32) (x3 : Vec F S1x512x128 .bf16) (xs0 : Vec F S2048x64 .bf16) (xs1 : Vec F S2048x1 .f32) (xs2 : Vec F S2048x1 .f32) (xs3 : Vec F S2048x64 .f32) : Vec F S2048x64 .f32 :=
  VS1_3.read (Elt F) (VS1_3.writes (Elt F) VS1_3.junk (kernelRun1_C c i arg3 harg3 arg4 harg4 arg5 harg5 arg6 harg6 arg7 harg7 arg8 harg8 arg9 harg9 arg10 harg10 arg11 harg11 hc0 hc1 x0 x1 x2 x3 xs0 xs1 xs2 xs3).2.2.2.1)
/-- Away from the last key block nothing is stored into the output window: a placeholder nothing consults. -/
def out1_A_4 (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : cond1_0 i) (hc1 : ¬cond1_1 i) (x0 : Vec F S1x2048x512 .f32) (x1 : Vec F S512x64 .f32) (x2 : Vec F S1x64 .f32) (x3 : Vec F S1x512x128 .bf16) : Vec F S1x2048x64 .f32 :=
  VO1_4.read (Elt F) (VO1_4.writes (Elt F) VO1_4.junk (kernelRun1_A c i arg3 harg3 arg4 harg4 arg5 harg5 arg6 harg6 arg7 harg7 arg8 harg8 arg9 harg9 arg10 harg10 arg11 harg11 hc0 hc1 x0 x1 x2 x3).1)
def out1_B_4 (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : ¬cond1_0 i) (hc1 : ¬cond1_1 i) (x0 : Vec F S1x2048x512 .f32) (x1 : Vec F S512x64 .f32) (x2 : Vec F S1x64 .f32) (x3 : Vec F S1x512x128 .bf16) (xs0 : Vec F S2048x64 .bf16) (xs1 : Vec F S2048x1 .f32) (xs2 : Vec F S2048x1 .f32) (xs3 : Vec F S2048x64 .f32) : Vec F S1x2048x64 .f32 :=
  VO1_4.read (Elt F) (VO1_4.writes (Elt F) VO1_4.junk (kernelRun1_B c i arg3 harg3 arg4 harg4 arg5 harg5 arg6 harg6 arg7 harg7 arg8 harg8 arg9 harg9 arg10 harg10 arg11 harg11 hc0 hc1 x0 x1 x2 x3 xs0 xs1 xs2 xs3).1)
/-- At the last key block the stored pieces tile the output tile. -/
theorem cover1_C_4 (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : ¬cond1_0 i) (hc1 : cond1_1 i) (x0 : Vec F S1x2048x512 .f32) (x1 : Vec F S512x64 .f32) (x2 : Vec F S1x64 .f32) (x3 : Vec F S1x512x128 .bf16) (xs0 : Vec F S2048x64 .bf16) (xs1 : Vec F S2048x1 .f32) (xs2 : Vec F S2048x1 .f32) (xs3 : Vec F S2048x64 .f32) (y : S1x2048x64.Idx) :
    ∃ pc ∈ (kernelRun1_C c i arg3 harg3 arg4 harg4 arg5 harg5 arg6 harg6 arg7 harg7 arg8 harg8 arg9 harg9 arg10 harg10 arg11 harg11 hc0 hc1 x0 x1 x2 x3 xs0 xs1 xs2 xs3).1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 xs0 xs1 xs2 xs3).1 S1x2048x64.size (by sl_kernel_rfl) y
def out1_C_4 (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : ¬cond1_0 i) (hc1 : cond1_1 i) (x0 : Vec F S1x2048x512 .f32) (x1 : Vec F S512x64 .f32) (x2 : Vec F S1x64 .f32) (x3 : Vec F S1x512x128 .bf16) (xs0 : Vec F S2048x64 .bf16) (xs1 : Vec F S2048x1 .f32) (xs2 : Vec F S2048x1 .f32) (xs3 : Vec F S2048x64 .f32) : Vec F S1x2048x64 .f32 :=
  VO1_4.read (Elt F) (VO1_4.writes (Elt F) VO1_4.junk (kernelRun1_C c i arg3 harg3 arg4 harg4 arg5 harg5 arg6 harg6 arg7 harg7 arg8 harg8 arg9 harg9 arg10 harg10 arg11 harg11 hc0 hc1 x0 x1 x2 x3 xs0 xs1 xs2 xs3).1)

section Region1
variable (V : (c : Dev nD) → (b : Ref sig .tc) → Buf (Elt F) ((c : Thread nD τ).loc b))

/-- The contents after a point, as a tuple: the output tile's staging buffer, then the four scratches. -/
def caseA1 (c : Dev nD) (t : Fin cfg1.N) (hc0 : cond1_0 (grid1.coords t)) (hc1 : ¬cond1_1 (grid1.coords t)) : (Vec F S1x2048x64 .f32 × Vec F S2048x64 .bf16 × Vec F S2048x1 .f32 × Vec F S2048x1 .f32 × Vec F S2048x64 .f32) :=
  (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t),
   sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t),
   sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t),
   sout1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t),
   sout1_A_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t))
def caseB1 (c : Dev nD) (t : Fin cfg1.N) (hc0 : ¬cond1_0 (grid1.coords t)) (hc1 : ¬cond1_1 (grid1.coords t)) (p : (Vec F S1x2048x64 .f32 × Vec F S2048x64 .bf16 × Vec F S2048x1 .f32 × Vec F S2048x1 .f32 × Vec F S2048x64 .f32)) : (Vec F S1x2048x64 .f32 × Vec F S2048x64 .bf16 × Vec F S2048x1 .f32 × Vec F S2048x1 .f32 × Vec F S2048x64 .f32) :=
  (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) p.2.1 p.2.2.1 p.2.2.2.1 p.2.2.2.2,
   p.2.1,
   sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) p.2.1 p.2.2.1 p.2.2.2.1 p.2.2.2.2,
   sout1_B_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) p.2.1 p.2.2.1 p.2.2.2.1 p.2.2.2.2,
   sout1_B_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) p.2.1 p.2.2.1 p.2.2.2.1 p.2.2.2.2)
def caseC1 (c : Dev nD) (t : Fin cfg1.N) (hc0 : ¬cond1_0 (grid1.coords t)) (hc1 : cond1_1 (grid1.coords t)) (p : (Vec F S1x2048x64 .f32 × Vec F S2048x64 .bf16 × Vec F S2048x1 .f32 × Vec F S2048x1 .f32 × Vec F S2048x64 .f32)) : (Vec F S1x2048x64 .f32 × Vec F S2048x64 .bf16 × Vec F S2048x1 .f32 × Vec F S2048x1 .f32 × Vec F S2048x64 .f32) :=
  (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) p.2.1 p.2.2.1 p.2.2.2.1 p.2.2.2.2,
   p.2.1,
   sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) p.2.1 p.2.2.1 p.2.2.2.1 p.2.2.2.2,
   sout1_C_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) p.2.1 p.2.2.1 p.2.2.2.1 p.2.2.2.2,
   sout1_C_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) p.2.1 p.2.2.1 p.2.2.2.1 p.2.2.2.2)

/-- THE ACCUMULATION: what the output tile's buffer and the four scratches hold after the body at position `n`. -/
def outsAt1 (c : Dev nD) : (n : ℕ) → n < cfg1.N → (Vec F S1x2048x64 .f32 × Vec F S2048x64 .bf16 × Vec F S2048x1 .f32 × Vec F S2048x1 .f32 × Vec F S2048x64 .f32)
  | 0, hn => caseA1 V c ⟨0, hn⟩ ((hcond1_0 ⟨0, hn⟩).mpr (Nat.zero_mod _)) (fun h => (fun h => by (try dsimp only at h); omega) ((hcond1_1 ⟨0, hn⟩).mp h))
  | n + 1, hn =>
    if h0 : (n + 1) % 8 = 0 then
      if h1 : (n + 1) % 8 = 7 then False.elim (by omega)
      else caseA1 V c ⟨n + 1, hn⟩ ((hcond1_0 ⟨n + 1, hn⟩).mpr h0) (fun h => h1 ((hcond1_1 ⟨n + 1, hn⟩).mp h))
    else
      if h1 : (n + 1) % 8 = 7 then
        caseC1 V c ⟨n + 1, hn⟩ (fun h => h0 ((hcond1_0 ⟨n + 1, hn⟩).mp h)) ((hcond1_1 ⟨n + 1, hn⟩).mpr h1) (outsAt1 c n (Nat.lt_of_succ_lt hn))
      else
        caseB1 V c ⟨n + 1, hn⟩ (fun h => h0 ((hcond1_0 ⟨n + 1, hn⟩).mp h)) (fun h => h1 ((hcond1_1 ⟨n + 1, hn⟩).mp h)) (outsAt1 c n (Nat.lt_of_succ_lt hn))

theorem outsAt1_A (c : Dev nD) (t : Fin cfg1.N) (h0 : t.val % 8 = 0) (h1 : ¬t.val % 8 = 7) :
    outsAt1 V c t.val t.isLt = caseA1 V c t ((hcond1_0 t).mpr h0) (fun h => h1 ((hcond1_1 t).mp h)) := by
  obtain ⟨n, hn⟩ := t
  cases n with
  | zero => exact rfl
  | succ n => exact (dif_pos h0).trans ((dif_neg h1).trans rfl)
theorem outsAt1_B (c : Dev nD) (t : Fin cfg1.N) (h0 : ¬t.val % 8 = 0) (h1 : ¬t.val % 8 = 7) :
    outsAt1 V c t.val t.isLt = caseB1 V c t (fun h => h0 ((hcond1_0 t).mp h)) (fun h => h1 ((hcond1_1 t).mp h)) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)
theorem outsAt1_C (c : Dev nD) (t : Fin cfg1.N) (h0 : ¬t.val % 8 = 0) (h1 : t.val % 8 = 7) :
    outsAt1 V c t.val t.isLt = caseC1 V c t (fun h => h0 ((hcond1_0 t).mp h)) ((hcond1_1 t).mpr h1) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: the class's before the first point; afterwards the other region's
    staging buffers at anything, each scratch at what the point before left in it, the generator register at some
    state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2.1) ∗ owns (c : Thread nD τ) scM1_3 fullShare ((outsAt1 V c n hn).2.2.2.2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2.1) ∗ owns (c : Thread nD τ) scM1_3 fullShare ((outsAt1 V c n hn).2.2.2.2)) ∗ (∃ r, prngReg c r)) := rfl
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2.1) ∗ owns (c : Thread nD τ) scM1_3 fullShare ((outsAt1 V c (n - 1) (by omega)).2.2.2.2)) ∗ (∃ r, prngReg c r)) := by
  cases n with
  | zero => exact absurd rfl hz
  | succ n => rfl

/-- The proof data of the second pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 16000000 in
/-- The body at any point: the inputs' memrefs hold their blocks; the key block says which case the point is in; the
    invariant hands the body the four scratches at what the point before left (at anything before a first block's
    reset) and takes them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [show (dat1 V c).leavesExact 3 t = owns (c : Thread nD τ) (ms1_3 t) fullShare ((dat1 V c).after 3 t) from by
      unfold Dat.leavesExact; rw [liveAt1_3 t], after1_3]
  by_cases h0 : t.val % 8 = 0
  · have h1 : ¬t.val % 8 = 7 := by omega
    have hc0 : cond1_0 (grid1.coords t) := (hcond1_0 t).mpr h0
    have hc1 : ¬cond1_1 (grid1.coords t) := fun h => h1 ((hcond1_1 t).mp h)
    rw [Dat.leavesExact_idle (dat1 V c) 4 t (idleAt1_4 t hc1) (noFlush1_4 t hc1)]
    rw [outsAt1_A V c t h0 h1]
    unfold caseA1 sout1_A_0 sout1_A_1 sout1_A_2 sout1_A_3; (try dsimp only)
    by_cases hz : t.val = 0
    · rw [PhiS1_castSucc V c t, PhiS1_zero V c _ _ hz, PhiA1_eq]
      iintro ⟨⟨⟨S1, S2, S3, S4, S5, S6, HS0, HS1, HS2, HS3⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ _ _ _ _ _ _ hc0 hc1 (iblk1 V c 0 t) (iblk1 V c 1 t) (iblk1 V c 2 t) (iblk1 V c 3 t)).2.2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%es0, HS0⟩, ⟨%es1, HS1⟩, ⟨%es2, HS2⟩, ⟨%es3, HS3⟩⟩
      isplitl [S1 S2 S3 S4 S5 S6 HS0 HS1 HS2 HS3 Hg]
      · isplitl [S1 S2 S3 S4 S5 S6 HS0 HS1 HS2 HS3]
        · isplitl [S1]; · iexact S1
          isplitl [S2]; · iexact S2
          isplitl [S3]; · iexact S3
          isplitl [S4]; · iexact S4
          isplitl [S5]; · iexact S5
          isplitl [S6]; · iexact S6
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _ _ _ _ _ _ _)
          unfold owns; iexists _; isplitr
          swap; · iexact HS3
          ipureintro; exact View.read_writes_of_cover _ _ _ _ _ (scover1_A_3 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨⟨S1, S2, S3, S4, S5, S6, HS0, HS1, HS2, HS3⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ _ _ _ _ _ _ hc0 hc1 (iblk1 V c 0 t) (iblk1 V c 1 t) (iblk1 V c 2 t) (iblk1 V c 3 t)).2.2.2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      isplitl [HS3]; · iexists _; iexact HS3
      iintro ⟨H0, H1, H2, H3, H4, ⟨%es0, HS0⟩, ⟨%es1, HS1⟩, ⟨%es2, HS2⟩, ⟨%es3, HS3⟩⟩
      isplitl [S1 S2 S3 S4 S5 S6 HS0 HS1 HS2 HS3 Hg]
      · isplitl [S1 S2 S3 S4 S5 S6 HS0 HS1 HS2 HS3]
        · isplitl [S1]; · iexact S1
          isplitl [S2]; · iexact S2
          isplitl [S3]; · iexact S3
          isplitl [S4]; · iexact S4
          isplitl [S5]; · iexact S5
          isplitl [S6]; · iexact S6
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _ _ _ _ _ _ _)
          unfold owns; iexists _; isplitr
          swap; · iexact HS3
          ipureintro; exact View.read_writes_of_cover _ _ _ _ _ (scover1_A_3 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    have hc0 : ¬cond1_0 (grid1.coords t) := fun h => h0 ((hcond1_0 t).mp h)
    by_cases h1 : t.val % 8 = 7
    · have hc1 : cond1_1 (grid1.coords t) := (hcond1_1 t).mpr h1
      rw [show (dat1 V c).leavesExact 4 t = owns (c : Thread nD τ) (ms1_4 t) fullShare ((dat1 V c).after 4 t) from by
        unfold Dat.leavesExact; rw [liveAt1_4 t hc1], after1_4]
      rw [outsAt1_C V c t h0 h1]
      unfold caseC1 out1_C_4 sout1_C_1 sout1_C_2 sout1_C_3; (try dsimp only)
      rw [PhiS1_castSucc V c t, PhiS1_pos V c _ _ hz]
      iintro ⟨⟨⟨S1, S2, S3, S4, S5, S6, HS0, HS1, HS2, HS3⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ _ _ _ _ _ _ hc0 hc1 (iblk1 V c 0 t) (iblk1 V c 1 t) (iblk1 V c 2 t) (iblk1 V c 3 t) _ _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HS3]; · iexact HS3
      iintro ⟨H0, H1, H2, H3, ⟨%e4, H4⟩, HS0, ⟨%es1, HS1⟩, ⟨%es2, HS2⟩, ⟨%es3, HS3⟩⟩
      isplitl [S1 S2 S3 S4 S5 S6 HS0 HS1 HS2 HS3 Hg]
      · isplitl [S1 S2 S3 S4 S5 S6 HS0 HS1 HS2 HS3]
        · isplitl [S1]; · iexact S1
          isplitl [S2]; · iexact S2
          isplitl [S3]; · iexact S3
          isplitl [S4]; · iexact S4
          isplitl [S5]; · iexact S5
          isplitl [S6]; · iexact S6
          isplitl [HS0]
          · iexact HS0
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_C_2 c _ _ _ _ _ _ _ _ _ _ _ _ _ _ _ _ _ _ _ _ _ _ _ _ _ _ _ _ _)
          unfold owns; iexists _; isplitr
          swap; · iexact HS3
          ipureintro; exact View.read_writes_of_cover _ _ _ _ _ (scover1_C_3 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _ _ _ _ _ _ _ _ _ _)
    · have hc1 : ¬cond1_1 (grid1.coords t) := fun h => h1 ((hcond1_1 t).mp h)
      rw [Dat.leavesExact_idle (dat1 V c) 4 t (idleAt1_4 t hc1) (noFlush1_4 t hc1)]
      rw [outsAt1_B V c t h0 h1]
      unfold caseB1 sout1_B_1 sout1_B_2 sout1_B_3; (try dsimp only)
      rw [PhiS1_castSucc V c t, PhiS1_pos V c _ _ hz]
      iintro ⟨⟨⟨S1, S2, S3, S4, S5, S6, HS0, HS1, HS2, HS3⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ _ _ _ _ _ _ hc0 hc1 (iblk1 V c 0 t) (iblk1 V c 1 t) (iblk1 V c 2 t) (iblk1 V c 3 t) _ _ _ _).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, HS0, ⟨%es1, HS1⟩, ⟨%es2, HS2⟩, ⟨%es3, HS3⟩⟩
      isplitl [S1 S2 S3 S4 S5 S6 HS0 HS1 HS2 HS3 Hg]
      · isplitl [S1 S2 S3 S4 S5 S6 HS0 HS1 HS2 HS3]
        · isplitl [S1]; · iexact S1
          isplitl [S2]; · iexact S2
          isplitl [S3]; · iexact S3
          isplitl [S4]; · iexact S4
          isplitl [S5]; · iexact S5
          isplitl [S6]; · iexact S6
          isplitl [HS0]
          · iexact HS0
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_B_2 c _ _ _ _ _ _ _ _ _ _ _ _ _ _ _ _ _ _ _ _ _ _ _ _ _ _ _ _ _)
          unfold owns; iexists _; isplitr
          swap; · iexact HS3
          ipureintro; exact View.read_writes_of_cover _ _ _ _ _ (scover1_B_3 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the scratches' named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨S1, S2, S3, S4, S5, S6, HS0, HS1, HS2, HS3⟩, Hg⟩
  isplitl [S1 S2 S3 S4 S5 S6 HS0 HS1 HS2 HS3]
  · isplitl [S1]; · iexact S1
    isplitl [S2]; · iexact S2
    isplitl [S3]; · iexact S3
    isplitl [S4]; · iexact S4
    isplitl [S5]; · iexact S5
    isplitl [S6]; · iexact S6
    isplitl [HS0]; · iexists _; iexact HS0
    isplitl [HS1]; · iexists _; iexact HS1
    isplitl [HS2]; · iexists _; iexact HS2
    iexists _; iexact HS3
  iexact Hg

end Region1

end Cert.KernelIdeal.Fr

end
-- ==== Proof.KernelIdealFrame.lean ====
/-
  The whole program's run: @main is a stretch of host operations (the scaled query weights and bias, the
  concatenated key|value weights and bias, the input flattened), the projection region, one reshape, the attention
  region. The buffer contents at each of the five segment boundaries are a fold from the launch memory: a stretch's
  operations applied, a region's arrays at what its write-backs leave. Every pipeline's proof data is taken at its
  region's entry contents; each region is a segment over the thread state "every unscoped buffer at the boundary's
  contents, the generator register at some state, nothing owed". The run ends with every unscoped buffer at the last
  boundary's contents; from it: the arguments end as launched, and the result array is what the attention region's
  write-backs leave.
-/
import proofs.«132332_j31885837205648_2_alg».proof.Proof.KernelIdealRegion0
import proofs.«132332_j31885837205648_2_alg».proof.Proof.KernelIdealRegion1

set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-- The result array ends at what the attention region's write-backs leave. -/
theorem W4_main_v11 (c : Dev nD) : W4 m ρ c (Proc.devRef .tc main_v11) = (dat1 (V3 m ρ) c).arrAt 4 cfg1.N :=
  W4_arr m ρ c 4

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-- The class invariant of the second region gives back the generator register and the scoped rest. -/
theorem PhiA1_split (c : Dev nD) : (Pipeline.ΦA spec1 c : sProp 𝕄)
    ⊢ iprop((∃ r, prngReg c r) ∗ emp ∗ Pipeline.scopedRest (Ix := Unit) (Name := ℕ) (U := UR sig nD τ) (Lvl := ℕ) (Val := Elt F) spec1 c) := by
  unfold Pipeline.ΦA
  iintro ⟨Hr, Hp⟩
  isplitl [Hp]; · iexact Hp
  isplitr; · iempintro
  iexact Hr

/-! ## The regions as segments -/

set_option backward.isDefEq.respectTransparency.types false in
/-- Region 0 over the thread state: entered from every unscoped buffer at the contents before it, left at the
    contents after it; its arrays split out of the unscoped buffers and put back at the exit contents; the generator
    register into the invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the
    contents after it; its arrays split out of the unscoped buffers and put back at the exit contents; the generator
    register into the invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    iintro ⟨Hp, -, Hr⟩
    iapply (hin1 (V3 m ρ) c)
    unfold Pipeline.ΦA
    isplitl [Hr]; · iexact Hr
    iexact Hp
  hout c := by
    rw [Pipeline.ownSems0_none, show (pdats m ρ 1 c).Φ (Fin.last _) = (dat1 (V3 m ρ) c).Φ (Fin.last cfg1.N) from rfl]
    exact (hout1 (V3 m ρ) c).trans (PhiA1_split c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩) (run_all m ρ)

end Cert.KernelIdeal.Fr

end
-- ==== Proof.KernelIdealBlocks.lean ====
/-
  Block reads: a window's block at a grid point, read at coordinates inside the block, is the window's array read at
  block index × block size + the coordinate, axis by axis. The printed index maps are decided once over each grid:
  in the projection region point `t` takes rows `2048 t …` of the flattened input and of the packed key|value array
  and the whole weight matrix and bias row; in the attention region point `t` is batch `t / 16`, query tile
  `(t / 8) % 2`, key block `t % 8`.
-/
import proofs.«132332_j31885837205648_2_alg».proof.Proof.KernelIdealRegion0
import proofs.«132332_j31885837205648_2_alg».proof.Proof.KernelIdealRegion1
import Idealize.ShloMosaic.Lib.ValueIdx
import Idealize.ShloMosaic.Lib.Pipeline.Value

set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section Blocks
variable (V : (c : Dev nD) → (b : Ref sig .tc) → Buf (Elt F) ((c : Thread nD τ).loc b))

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem iblk0_0_apply (c : Dev nD) (t : Fin cfg0.N) (y : Fin 2048) (i : Fin 512) (r : Fin 16384) (hr : r.val = t.val * 2048 + y.val) :
    (iblk0 V c 0 t : S2048x512.Idx → Elt F .f32) (ix2 y i) = (V c main_v8 : S16384x512.Idx → Elt F .f32) (ix2 r i) := by
  obtain ⟨e0, e1, -⟩ := idx_facts0 t
  show V c main_v8 (((cfg0.win 0).blk t).view.emb (ix2 y i)) = V c main_v8 (ix2 r i)
  refine congrArg _ ?_
  funext a; apply Fin.ext
  match a with
  | ⟨0, _⟩ => show win0_0.index t (0 : Fin 2) * 2048 + 1 * y.val = r.val; omega
  | ⟨1, _⟩ => show win0_0.index t (1 : Fin 2) * 512 + 1 * i.val = i.val; omega

theorem iblk0_1_apply (c : Dev nD) (t : Fin cfg0.N) (i : Fin 512) (col : Fin 128) :
    (iblk0 V c 1 t : S512x128.Idx → Elt F .f32) (ix2 i col) = (V c main_v5 : S512x128.Idx → Elt F .f32) (ix2 i col) := by
  obtain ⟨-, -, e0, e1, -⟩ := idx_facts0 t
  show V c main_v5 (((cfg0.win 1).blk t).view.emb (ix2 i col)) = V c main_v5 (ix2 i col)
  refine congrArg _ ?_
  funext a; apply Fin.ext
  match a with
  | ⟨0, _⟩ => show win0_1.index t (0 : Fin 2) * 512 + 1 * i.val = i.val; omega
  | ⟨1, _⟩ => show win0_1.index t (1 : Fin 2) * 128 + 1 * col.val = col.val; omega

theorem iblk0_2_apply (c : Dev nD) (t : Fin cfg0.N) (col : Fin 128) :
    (iblk0 V c 2 t : S1x128.Idx → Elt F .f32) (ix2 (0 : Fin 1) col) = (V c main_v7 : S1x128.Idx → Elt F .f32) (ix2 (0 : Fin 1) col) := by
  obtain ⟨-, -, -, -, e0, e1, -⟩ := idx_facts0 t
  show V c main_v7 (((cfg0.win 2).blk t).view.emb (ix2 (0 : Fin 1) col)) = V c main_v7 (ix2 (0 : Fin 1) col)
  refine congrArg _ ?_
  funext a; apply Fin.ext
  match a with
  | ⟨0, _⟩ => show win0_2.index t (0 : Fin 2) * 1 + 1 * (0 : Fin 1).val = (0 : Fin 1).val; omega
  | ⟨1, _⟩ => show win0_2.index t (1 : Fin 2) * 128 + 1 * col.val = col.val; omega

theorem idx_facts1 : ∀ t : Fin cfg1.N, win1_0.index t (0 : Fin 3) = t.val / 16 ∧ win1_0.index t (1 : Fin 3) = t.val / 8 % 2 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = t.val / 16 ∧ win1_3.index t (1 : Fin 3) = t.val % 8 ∧ win1_3.index t (2 : Fin 3) = 0
    ∧ win1_4.index t (0 : Fin 3) = t.val / 16 ∧ win1_4.index t (1 : Fin 3) = t.val / 8 % 2 ∧ win1_4.index t (2 : Fin 3) = 0 :=
  (by decide +kernel : ∀ t : Fin grid1.N, _)

theorem iblk1_0_apply (c : Dev nD) (t : Fin cfg1.N) (y : Fin 2048) (i : Fin 512) (b : Fin 4) (s : Fin 4096)
    (hb : b.val = t.val / 16) (hs : s.val = t.val / 8 % 2 * 2048 + y.val) :
    (iblk1 V c 0 t : S1x2048x512.Idx → Elt F .f32) (ix3 (0 : Fin 1) y i) = (V c main_arg0 : S4x4096x512.Idx → Elt F .f32) (ix3 b s i) := by
  obtain ⟨e0, e1, e2, -⟩ := idx_facts1 t
  show V c main_arg0 (((cfg1.win 0).blk t).view.emb (ix3 (0 : Fin 1) y i)) = V c main_arg0 (ix3 b s i)
  refine congrArg _ ?_
  funext a; apply Fin.ext
  match a with
  | ⟨0, _⟩ => show win1_0.index t (0 : Fin 3) * 1 + 1 * (0 : Fin 1).val = b.val; omega
  | ⟨1, _⟩ => show win1_0.index t (1 : Fin 3) * 2048 + 1 * y.val = s.val; omega
  | ⟨2, _⟩ => show win1_0.index t (2 : Fin 3) * 512 + 1 * i.val = i.val; omega

theorem iblk1_1_apply (c : Dev nD) (t : Fin cfg1.N) (i : Fin 512) (h : Fin 64) :
    (iblk1 V c 1 t : S512x64.Idx → Elt F .f32) (ix2 i h) = (V c main_v1 : S512x64.Idx → Elt F .f32) (ix2 i h) := by
  obtain ⟨-, -, -, e0, e1, -⟩ := idx_facts1 t
  show V c main_v1 (((cfg1.win 1).blk t).view.emb (ix2 i h)) = V c main_v1 (ix2 i h)
  refine congrArg _ ?_
  funext a; apply Fin.ext
  match a with
  | ⟨0, _⟩ => show win1_1.index t (0 : Fin 2) * 512 + 1 * i.val = i.val; omega
  | ⟨1, _⟩ => show win1_1.index t (1 : Fin 2) * 64 + 1 * h.val = h.val; omega

theorem iblk1_2_apply (c : Dev nD) (t : Fin cfg1.N) (h : Fin 64) :
    (iblk1 V c 2 t : S1x64.Idx → Elt F .f32) (ix2 (0 : Fin 1) h) = (V c main_v4 : S1x64.Idx → Elt F .f32) (ix2 (0 : Fin 1) h) := by
  obtain ⟨-, -, -, -, -, e0, e1, -⟩ := idx_facts1 t
  show V c main_v4 (((cfg1.win 2).blk t).view.emb (ix2 (0 : Fin 1) h)) = V c main_v4 (ix2 (0 : Fin 1) h)
  refine congrArg _ ?_
  funext a; apply Fin.ext
  match a with
  | ⟨0, _⟩ => show win1_2.index t (0 : Fin 2) * 1 + 1 * (0 : Fin 1).val = (0 : Fin 1).val; omega
  | ⟨1, _⟩ => show win1_2.index t (1 : Fin 2) * 64 + 1 * h.val = h.val; omega

theorem iblk1_3_apply (c : Dev nD) (t : Fin cfg1.N) (j : Fin 512) (col : Fin 128) (b : Fin 4) (s : Fin 4096)
    (hb : b.val = t.val / 16) (hs : s.val = t.val % 8 * 512 + j.val) :
    (iblk1 V c 3 t : S1x512x128.Idx → Elt F .bf16) (ix3 (0 : Fin 1) j col) = (V c main_v10 : S4x4096x128.Idx → Elt F .bf16) (ix3 b s col) := by
  obtain ⟨-, -, -, -, -, -, -, e0, e1, e2, -⟩ := idx_facts1 t
  show V c main_v10 (((cfg1.win 3).blk t).view.emb (ix3 (0 : Fin 1) j col)) = V c main_v10 (ix3 b s col)
  refine congrArg _ ?_
  funext a; apply Fin.ext
  match a with
  | ⟨0, _⟩ => show win1_3.index t (0 : Fin 3) * 1 + 1 * (0 : Fin 1).val = b.val; omega
  | ⟨1, _⟩ => show win1_3.index t (1 : Fin 3) * 512 + 1 * j.val = s.val; omega
  | ⟨2, _⟩ => show win1_3.index t (2 : Fin 3) * 128 + 1 * col.val = col.val; omega

/-- Where an output block's element sits in its array: the projection region's, -/
theorem emb0_3 (t : Fin cfg0.N) (y : Fin 2048) (col : Fin 128) (r : Fin 16384) (hr : r.val = t.val * 2048 + y.val) :
    ((cfg0.win 3).blk t).view.emb (ix2 y col) = (ix2 r col : S16384x128.Idx) := by
  obtain ⟨-, -, -, -, -, -, e0, e1⟩ := idx_facts0 t
  funext a; apply Fin.ext
  match a with
  | ⟨0, _⟩ => show win0_3.index t (0 : Fin 2) * 2048 + 1 * y.val = r.val; omega
  | ⟨1, _⟩ => show win0_3.index t (1 : Fin 2) * 128 + 1 * col.val = col.val; omega

/-- and the attention region's. -/
theorem emb1_4 (t : Fin cfg1.N) (y : Fin 2048) (h : Fin 64) (b : Fin 4) (s : Fin 4096)
    (hb : b.val = t.val / 16) (hs : s.val = t.val / 8 % 2 * 2048 + y.val) :
    ((cfg1.win 4).blk t).view.emb (ix3 (0 : Fin 1) y h) = (ix3 b s h : S4x4096x64.Idx) := by
  obtain ⟨-, -, -, -, -, -, -, -, -, -, e0, e1, e2⟩ := idx_facts1 t
  funext a; apply Fin.ext
  match a with
  | ⟨0, _⟩ => show win1_4.index t (0 : Fin 3) * 1 + 1 * (0 : Fin 1).val = b.val; omega
  | ⟨1, _⟩ => show win1_4.index t (1 : Fin 3) * 2048 + 1 * y.val = s.val; omega
  | ⟨2, _⟩ => show win1_4.index t (2 : Fin 3) * 64 + 1 * h.val = h.val; omega

end Blocks

end Cert.KernelIdeal.Fr

end
-- ==== Proof.KernelIdealPieces.lean ====
/-
  Each piece a kernel body's run leaves in a buffer, read back over arbitrary earlier contents, is the body's payload
  term at the values the body loaded: the first region's one store is the packed key|value projection of the three
  input blocks; in the second region the running maximum, normaliser and weighted sum left by a point are the fold
  of one key block into what they held on entry (the projected query tile, minus infinity, zero and zero at key
  block 0, where the body has just stored those), and at the last key block the output tile is the weighted sum
  divided by the normaliser, both as just stored. All statements are generic in the float instance.
-/
import proofs.«132332_j31885837205648_2_alg».proof.Proof.KernelIdealRegion0
import proofs.«132332_j31885837205648_2_alg».proof.Proof.KernelIdealRegion1
import Idealize.ShloMosaic.Lib.Pipeline.Value

set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-! ## The first region -/

/-- The one covering store of the projection body leaves its payload at the three loaded blocks. -/
theorem piece0 (c : Dev nD) (i : grid0.Coords) (arg1 : Memref sig .tc .vmem S2048x512 .f32) (harg1 : arg1.IsWhole) (arg2 : Memref sig .tc .vmem S512x128 .f32) (harg2 : arg2.IsWhole) (arg3 : Memref sig .tc .vmem S1x128 .f32) (harg3 : arg3.IsWhole) (arg4 : Memref sig .tc .vmem S2048x128 .bf16) (harg4 : arg4.IsWhole)
    (x0 : Vec F S2048x512 .f32) (x1 : Vec F S512x128 .f32) (x2 : Vec F S1x128 .f32) :
    out0_3 c i arg1 harg1 arg2 harg2 arg3 harg3 arg4 harg4 x0 x1 x2 = k0_pay1 x0 x1 x2 := by
  unfold out0_3
  rw [View.read_writes_eq_canon _ _ _ (cover0_3 c i arg1 harg1 arg2 harg2 arg3 harg3 arg4 harg4 x0 x1 x2)]
  unfold kernelRun0
  dsimp only
  rw [View.canon_unit_zero hz2]
  simp only [View.readAt_eq_ld, harg1.read_unread, harg2.read_unread, harg3.read_unread,
    View.ld_unit_zero (S := S2048x512) hz2, View.ld_unit_zero (S := S512x128) hz2, View.ld_unit_zero (S := S1x128) hz2]

/-! ## The second region, key block 0: the query tile projected, the scratches reset, then one key block folded in -/

/-- The projected query tile: the one covering store's payload at the three loaded blocks. -/
theorem pieceA_0 (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : cond1_0 i) (hc1 : ¬cond1_1 i) (x0 : Vec F S1x2048x512 .f32) (x1 : Vec F S512x64 .f32) (x2 : Vec F S1x64 .f32) (x3 : Vec F S1x512x128 .bf16) :
    sout1_A_0 c i arg3 harg3 arg4 harg4 arg5 harg5 arg6 harg6 arg7 harg7 arg8 harg8 arg9 harg9 arg10 harg10 arg11 harg11 hc0 hc1 x0 x1 x2 x3 = k1_pay4 x0 x1 x2 := by
  unfold sout1_A_0
  rw [View.read_writes_eq_canon _ _ _ (scover1_A_0 c i arg3 harg3 arg4 harg4 arg5 harg5 arg6 harg6 arg7 harg7 arg8 harg8 arg9 harg9 arg10 harg10 arg11 harg11 hc0 hc1 x0 x1 x2 x3)]
  unfold kernelRun1_A
  dsimp only
  sl_unfold_words
  rw [View.canon_unit_zero (S := S2048x64) hz2]
  simp only [View.readAt_eq_ld, harg3.read_unread, harg4.read_unread, harg5.read_unread, harg6.read_unread,
    View.ld_unit_zero (S := S1x2048x512) hz3, View.ld_unit_zero (S := S1x512x128) hz3, View.ld_unit_zero (S := S512x64) hz2,
    View.ld_unit_zero (S := S1x64) hz2]

/-- The running maximum: the fold's step from minus infinity, the query tile read back as just stored. -/
theorem pieceA_1 (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : cond1_0 i) (hc1 : ¬cond1_1 i) (x0 : Vec F S1x2048x512 .f32) (x1 : Vec F S512x64 .f32) (x2 : Vec F S1x64 .f32) (x3 : Vec F S1x512x128 .bf16) :
    sout1_A_1 c i arg3 harg3 arg4 harg4 arg5 harg5 arg6 harg6 arg7 harg7 arg8 harg8 arg9 harg9 arg10 harg10 arg11 harg11 hc0 hc1 x0 x1 x2 x3 = k1_pay2 (k1_pay10 x3 (k1_pay4 x0 x1 x2) k1_pay5) := by
  unfold sout1_A_1
  rw [View.read_writes_eq_canon _ _ _ (scover1_A_1 c i arg3 harg3 arg4 harg4 arg5 harg5 arg6 harg6 arg7 harg7 arg8 harg8 arg9 harg9 arg10 harg10 arg11 harg11 hc0 hc1 x0 x1 x2 x3)]
  unfold kernelRun1_A
  dsimp only
  sl_unfold_words
  rw [View.canon_cons_unit_zero (S := S2048x1) hz2]
  simp only [View.readCov_unit_zero (S := S2048x64) _ hz2, View.readCov_unit_zero (S := S2048x1) _ hz2]
  simp only [View.readAt_eq_ld, harg3.read_unread, harg4.read_unread, harg5.read_unread, harg6.read_unread,
    View.ld_unit_zero (S := S1x2048x512) hz3, View.ld_unit_zero (S := S1x512x128) hz3, View.ld_unit_zero (S := S512x64) hz2,
    View.ld_unit_zero (S := S1x64) hz2]

/-- The running normaliser: the fold's step from zero. -/
theorem pieceA_2 (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : cond1_0 i) (hc1 : ¬cond1_1 i) (x0 : Vec F S1x2048x512 .f32) (x1 : Vec F S512x64 .f32) (x2 : Vec F S1x64 .f32) (x3 : Vec F S1x512x128 .bf16) :
    sout1_A_2 c i arg3 harg3 arg4 harg4 arg5 harg5 arg6 harg6 arg7 harg7 arg8 harg8 arg9 harg9 arg10 harg10 arg11 harg11 hc0 hc1 x0 x1 x2 x3 = k1_pay13 x3 (k1_pay4 x0 x1 x2) k1_pay5 k1_pay5 k1_pay6 := by
  unfold sout1_A_2
  rw [View.read_writes_eq_canon _ _ _ (scover1_A_2 c i arg3 harg3 arg4 harg4 arg5 harg5 arg6 harg6 arg7 harg7 arg8 harg8 arg9 harg9 arg10 harg10 arg11 harg11 hc0 hc1 x0 x1 x2 x3)]
  unfold kernelRun1_A
  dsimp only
  sl_unfold_words
  rw [View.canon_cons_unit_zero (S := S2048x1) hz2]
  simp only [View.readCov_unit_zero (S := S2048x64) _ hz2, View.readCov_unit_zero (S := S2048x1) _ hz2]
  simp only [View.readAt_eq_ld, harg3.read_unread, harg4.read_unread, harg5.read_unread, harg6.read_unread,
    View.ld_unit_zero (S := S1x2048x512) hz3, View.ld_unit_zero (S := S1x512x128) hz3, View.ld_unit_zero (S := S512x64) hz2,
    View.ld_unit_zero (S := S1x64) hz2]

/-- The running weighted sum: the fold's step from zero. -/
theorem pieceA_3 (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : cond1_0 i) (hc1 : ¬cond1_1 i) (x0 : Vec F S1x2048x512 .f32) (x1 : Vec F S512x64 .f32) (x2 : Vec F S1x64 .f32) (x3 : Vec F S1x512x128 .bf16) :
    sout1_A_3 c i arg3 harg3 arg4 harg4 arg5 harg5 arg6 harg6 arg7 harg7 arg8 harg8 arg9 harg9 arg10 harg10 arg11 harg11 hc0 hc1 x0 x1 x2 x3 = k1_pay1 (k1_pay14 x3 (k1_pay4 x0 x1 x2) k1_pay5 k1_pay5 k1_pay7) := by
  unfold sout1_A_3
  rw [View.read_writes_eq_canon _ _ _ (scover1_A_3 c i arg3 harg3 arg4 harg4 arg5 harg5 arg6 harg6 arg7 harg7 arg8 harg8 arg9 harg9 arg10 harg10 arg11 harg11 hc0 hc1 x0 x1 x2 x3)]
  unfold kernelRun1_A
  dsimp only
  sl_unfold_words
  rw [View.canon_cons_unit_zero (S := S2048x64) hz2]
  simp only [View.readCov_unit_zero (S := S2048x64) _ hz2, View.readCov_unit_zero (S := S2048x1) _ hz2]
  simp only [View.readAt_eq_ld, harg3.read_unread, harg4.read_unread, harg5.read_unread, harg6.read_unread,
    View.ld_unit_zero (S := S1x2048x512) hz3, View.ld_unit_zero (S := S1x512x128) hz3, View.ld_unit_zero (S := S512x64) hz2,
    View.ld_unit_zero (S := S1x64) hz2]

/-! ## The second region, key blocks 1 to 6: one key block folded into the carried scratches -/

/-- The running maximum: the larger of what it held and the row maxima of this block's scores. -/
theorem pieceB_1 (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : ¬cond1_0 i) (hc1 : ¬cond1_1 i) (x0 : Vec F S1x2048x512 .f32) (x1 : Vec F S512x64 .f32) (x2 : Vec F S1x64 .f32) (x3 : Vec F S1x512x128 .bf16) (xs0 : Vec F S2048x64 .bf16) (xs1 : Vec F S2048x1 .f32) (xs2 : Vec F S2048x1 .f32) (xs3 : Vec F S2048x64 .f32) :
    sout1_B_1 c i arg3 harg3 arg4 harg4 arg5 harg5 arg6 harg6 arg7 harg7 arg8 harg8 arg9 harg9 arg10 harg10 arg11 harg11 hc0 hc1 x0 x1 x2 x3 xs0 xs1 xs2 xs3 = k1_pay2 (k1_pay10 x3 xs0 xs1) := by
  unfold sout1_B_1
  rw [View.read_writes_eq_canon _ _ _ (scover1_B_1 c i arg3 harg3 arg4 harg4 arg5 harg5 arg6 harg6 arg7 harg7 arg8 harg8 arg9 harg9 arg10 harg10 arg11 harg11 hc0 hc1 x0 x1 x2 x3 xs0 xs1 xs2 xs3)]
  unfold kernelRun1_B
  dsimp only
  sl_unfold_words
  rw [View.canon_unit_zero hz2]
  simp only [View.readAt_eq_ld, harg6.read_unread, harg8.read_unread, harg9.read_unread, harg10.read_unread, harg11.read_unread,
    View.ld_unit_zero (S := S1x512x128) hz3, View.ld_unit_zero (S := S2048x64) hz2, View.ld_unit_zero (S := S2048x1) hz2]

/-- The running normaliser: what it held rescaled to the new maximum, plus this block's row sums. -/
theorem pieceB_2 (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : ¬cond1_0 i) (hc1 : ¬cond1_1 i) (x0 : Vec F S1x2048x512 .f32) (x1 : Vec F S512x64 .f32) (x2 : Vec F S1x64 .f32) (x3 : Vec F S1x512x128 .bf16) (xs0 : Vec F S2048x64 .bf16) (xs1 : Vec F S2048x1 .f32) (xs2 : Vec F S2048x1 .f32) (xs3 : Vec F S2048x64 .f32) :
    sout1_B_2 c i arg3 harg3 arg4 harg4 arg5 harg5 arg6 harg6 arg7 harg7 arg8 harg8 arg9 harg9 arg10 harg10 arg11 harg11 hc0 hc1 x0 x1 x2 x3 xs0 xs1 xs2 xs3 = k1_pay13 x3 xs0 xs1 xs1 xs2 := by
  unfold sout1_B_2
  rw [View.read_writes_eq_canon _ _ _ (scover1_B_2 c i arg3 harg3 arg4 harg4 arg5 harg5 arg6 harg6 arg7 harg7 arg8 harg8 arg9 harg9 arg10 harg10 arg11 harg11 hc0 hc1 x0 x1 x2 x3 xs0 xs1 xs2 xs3)]
  unfold kernelRun1_B
  dsimp only
  rw [View.canon_unit_zero hz2]
  simp only [View.readAt_eq_ld, harg6.read_unread, harg8.read_unread, harg9.read_unread, harg10.read_unread, harg11.read_unread,
    View.ld_unit_zero (S := S1x512x128) hz3, View.ld_unit_zero (S := S2048x64) hz2, View.ld_unit_zero (S := S2048x1) hz2]

/-- The running weighted sum: what it held rescaled to the new maximum, plus this block's weighted values. -/
theorem pieceB_3 (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : ¬cond1_0 i) (hc1 : ¬cond1_1 i) (x0 : Vec F S1x2048x512 .f32) (x1 : Vec F S512x64 .f32) (x2 : Vec F S1x64 .f32) (x3 : Vec F S1x512x128 .bf16) (xs0 : Vec F S2048x64 .bf16) (xs1 : Vec F S2048x1 .f32) (xs2 : Vec F S2048x1 .f32) (xs3 : Vec F S2048x64 .f32) :
    sout1_B_3 c i arg3 harg3 arg4 harg4 arg5 harg5 arg6 harg6 arg7 harg7 arg8 harg8 arg9 harg9 arg10 harg10 arg11 harg11 hc0 hc1 x0 x1 x2 x3 xs0 xs1 xs2 xs3 = k1_pay1 (k1_pay14 x3 xs0 xs1 xs1 xs3) := by
  unfold sout1_B_3
  rw [View.read_writes_eq_canon _ _ _ (scover1_B_3 c i arg3 harg3 arg4 harg4 arg5 harg5 arg6 harg6 arg7 harg7 arg8 harg8 arg9 harg9 arg10 harg10 arg11 harg11 hc0 hc1 x0 x1 x2 x3 xs0 xs1 xs2 xs3)]
  unfold kernelRun1_B
  dsimp only
  sl_unfold_words
  rw [View.canon_unit_zero hz2]
  simp only [View.readAt_eq_ld, harg6.read_unread, harg8.read_unread, harg9.read_unread, harg10.read_unread, harg11.read_unread,
    View.ld_unit_zero (S := S1x512x128) hz3, View.ld_unit_zero (S := S2048x64) hz2, View.ld_unit_zero (S := S2048x1) hz2]

/-! ## The second region, key block 7: the last key block folded in, then the division -/

theorem pieceC_1 (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : ¬cond1_0 i) (hc1 : cond1_1 i) (x0 : Vec F S1x2048x512 .f32) (x1 : Vec F S512x64 .f32) (x2 : Vec F S1x64 .f32) (x3 : Vec F S1x512x128 .bf16) (xs0 : Vec F S2048x64 .bf16) (xs1 : Vec F S2048x1 .f32) (xs2 : Vec F S2048x1 .f32) (xs3 : Vec F S2048x64 .f32) :
    sout1_C_1 c i arg3 harg3 arg4 harg4 arg5 harg5 arg6 harg6 arg7 harg7 arg8 harg8 arg9 harg9 arg10 harg10 arg11 harg11 hc0 hc1 x0 x1 x2 x3 xs0 xs1 xs2 xs3 = k1_pay2 (k1_pay10 x3 xs0 xs1) := by
  unfold sout1_C_1
  rw [View.read_writes_eq_canon _ _ _ (scover1_C_1 c i arg3 harg3 arg4 harg4 arg5 harg5 arg6 harg6 arg7 harg7 arg8 harg8 arg9 harg9 arg10 harg10 arg11 harg11 hc0 hc1 x0 x1 x2 x3 xs0 xs1 xs2 xs3)]
  unfold kernelRun1_C
  dsimp only
  sl_unfold_words
  rw [View.canon_unit_zero (S := S2048x1) hz2]
  simp only [View.readAt_eq_ld, harg6.read_unread, harg8.read_unread, harg9.read_unread, harg10.read_unread, harg11.read_unread,
    View.ld_unit_zero (S := S1x512x128) hz3, View.ld_unit_zero (S := S2048x64) hz2, View.ld_unit_zero (S := S2048x1) hz2]

theorem pieceC_2 (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : ¬cond1_0 i) (hc1 : cond1_1 i) (x0 : Vec F S1x2048x512 .f32) (x1 : Vec F S512x64 .f32) (x2 : Vec F S1x64 .f32) (x3 : Vec F S1x512x128 .bf16) (xs0 : Vec F S2048x64 .bf16) (xs1 : Vec F S2048x1 .f32) (xs2 : Vec F S2048x1 .f32) (xs3 : Vec F S2048x64 .f32) :
    sout1_C_2 c i arg3 harg3 arg4 harg4 arg5 harg5 arg6 harg6 arg7 harg7 arg8 harg8 arg9 harg9 arg10 harg10 arg11 harg11 hc0 hc1 x0 x1 x2 x3 xs0 xs1 xs2 xs3 = k1_pay13 x3 xs0 xs1 xs1 xs2 := by
  unfold sout1_C_2
  rw [View.read_writes_eq_canon _ _ _ (scover1_C_2 c i arg3 harg3 arg4 harg4 arg5 harg5 arg6 harg6 arg7 harg7 arg8 harg8 arg9 harg9 arg10 harg10 arg11 harg11 hc0 hc1 x0 x1 x2 x3 xs0 xs1 xs2 xs3)]
  unfold kernelRun1_C
  dsimp only
  sl_unfold_words
  rw [View.canon_unit_zero (S := S2048x1) hz2]
  simp only [View.readAt_eq_ld, harg6.read_unread, harg8.read_unread, harg9.read_unread, harg10.read_unread, harg11.read_unread,
    View.ld_unit_zero (S := S1x512x128) hz3, View.ld_unit_zero (S := S2048x64) hz2, View.ld_unit_zero (S := S2048x1) hz2]

theorem pieceC_3 (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : ¬cond1_0 i) (hc1 : cond1_1 i) (x0 : Vec F S1x2048x512 .f32) (x1 : Vec F S512x64 .f32) (x2 : Vec F S1x64 .f32) (x3 : Vec F S1x512x128 .bf16) (xs0 : Vec F S2048x64 .bf16) (xs1 : Vec F S2048x1 .f32) (xs2 : Vec F S2048x1 .f32) (xs3 : Vec F S2048x64 .f32) :
    sout1_C_3 c i arg3 harg3 arg4 harg4 arg5 harg5 arg6 harg6 arg7 harg7 arg8 harg8 arg9 harg9 arg10 harg10 arg11 harg11 hc0 hc1 x0 x1 x2 x3 xs0 xs1 xs2 xs3 = k1_pay1 (k1_pay14 x3 xs0 xs1 xs1 xs3) := by
  unfold sout1_C_3
  rw [View.read_writes_eq_canon _ _ _ (scover1_C_3 c i arg3 harg3 arg4 harg4 arg5 harg5 arg6 harg6 arg7 harg7 arg8 harg8 arg9 harg9 arg10 harg10 arg11 harg11 hc0 hc1 x0 x1 x2 x3 xs0 xs1 xs2 xs3)]
  unfold kernelRun1_C
  dsimp only
  sl_unfold_words
  rw [View.canon_unit_zero (S := S2048x64) hz2]
  simp only [View.readAt_eq_ld, harg6.read_unread, harg8.read_unread, harg9.read_unread, harg10.read_unread, harg11.read_unread,
    View.ld_unit_zero (S := S1x512x128) hz3, View.ld_unit_zero (S := S2048x64) hz2, View.ld_unit_zero (S := S2048x1) hz2]

/-- The output tile: the weighted sum over the normaliser, each read back as this point has just stored it. -/
theorem pieceC_4 (c : Dev nD) (i : grid1.Coords) (arg3 : Memref sig .tc .vmem S1x2048x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S1x512x128 .bf16) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : ¬cond1_0 i) (hc1 : cond1_1 i) (x0 : Vec F S1x2048x512 .f32) (x1 : Vec F S512x64 .f32) (x2 : Vec F S1x64 .f32) (x3 : Vec F S1x512x128 .bf16) (xs0 : Vec F S2048x64 .bf16) (xs1 : Vec F S2048x1 .f32) (xs2 : Vec F S2048x1 .f32) (xs3 : Vec F S2048x64 .f32) :
    out1_C_4 c i arg3 harg3 arg4 harg4 arg5 harg5 arg6 harg6 arg7 harg7 arg8 harg8 arg9 harg9 arg10 harg10 arg11 harg11 hc0 hc1 x0 x1 x2 x3 xs0 xs1 xs2 xs3 = k1_pay3 (k1_pay1 (k1_pay14 x3 xs0 xs1 xs1 xs3)) (k1_pay13 x3 xs0 xs1 xs1 xs2) := by
  unfold out1_C_4
  rw [View.read_writes_eq_canon _ _ _ (cover1_C_4 c i arg3 harg3 arg4 harg4 arg5 harg5 arg6 harg6 arg7 harg7 arg8 harg8 arg9 harg9 arg10 harg10 arg11 harg11 hc0 hc1 x0 x1 x2 x3 xs0 xs1 xs2 xs3)]
  unfold kernelRun1_C
  dsimp only
  sl_unfold_words
  rw [View.canon_unit_zero (S := S1x2048x64) hz3]
  simp only [View.readCov_unit_zero (S := S2048x64) _ hz2, View.readCov_unit_zero (S := S2048x1) _ hz2]
  simp only [View.readAt_eq_ld, harg6.read_unread, harg8.read_unread, harg9.read_unread, harg10.read_unread, harg11.read_unread,
    View.ld_unit_zero (S := S1x512x128) hz3, View.ld_unit_zero (S := S2048x64) hz2, View.ld_unit_zero (S := S2048x1) hz2]

end Cert.KernelIdeal.Fr

end
-- ==== Proof.AttnSpec.lean ====
/-
  Softmax attention over one row of scores, in two arrangements on the extended reals.

  * The blockwise recurrence: the keys are visited in 8 blocks of 512; a running maximum `m`, a running
    normaliser `l` and a running weighted sum `acc` are rescaled by `exp (m_old - m_new)` at every block, and the
    result is `acc / l` after the last block.
  * The closed form: `∑ k, (exp (s k - M) / L) * v k` with `M` the maximum of all scores and `L` the sum of the
    shifted exponentials.

  Both are written with exactly the operations the ideal float instance uses (`max`, `Ideal.exp`, `Ideal.div`,
  `+`, `-`, `*` on `EReal`, a maximum as a `Finset.fold max` from `⊥`), so that a program's value can be
  rewritten to them without any arithmetic.
-/
import Idealize.ShloMosaic.PureOps.Ideal

noncomputable section

namespace Cert.Attn

open Idealize.ShloMosaic

/-- The state of the blockwise recurrence for one query row: running maximum, running normaliser, running
    weighted sum (one entry per head coordinate). -/
structure St where
  m : EReal
  l : EReal
  acc : Fin 64 → EReal

/-- Before the first block: maximum `-∞`, normaliser and weighted sum zero. -/
def St.init : St := ⟨⊥, 0, fun _ => 0⟩

/-- One block of 512 keys: scores `s`, values `v`. -/
def St.step (st : St) (s : Fin 512 → EReal) (v : Fin 512 → Fin 64 → EReal) : St :=
  let m' := max st.m ((Finset.univ : Finset (Fin 512)).fold max ⊥ s)
  let a := Ideal.exp (st.m - m')
  { m := m'
    l := a * st.l + ∑ j : Fin 512, Ideal.exp (s j - m')
    acc := fun h => a * st.acc h + ∑ j : Fin 512, Ideal.exp (s j - m') * v j h }

/-- The state after the first `n` blocks of the score row `S` and value rows `V` (block `k`, key `j` inside it). -/
def St.after (S : Fin 8 → Fin 512 → EReal) (V : Fin 8 → Fin 512 → Fin 64 → EReal) : (n : ℕ) → n ≤ 8 → St
  | 0, _ => St.init
  | n + 1, hn => (St.after S V n (Nat.le_of_succ_le hn)).step (S ⟨n, hn⟩) (V ⟨n, hn⟩)

/-- The blockwise result at head coordinate `h`. -/
def blockwise (S : Fin 8 → Fin 512 → EReal) (V : Fin 8 → Fin 512 → Fin 64 → EReal) (h : Fin 64) : EReal :=
  Ideal.div ((St.after S V 8 le_rfl).acc h) (St.after S V 8 le_rfl).l

/-- The closed form over all 4096 keys: the maximum (against `-∞`), the shifted exponentials, their sum from zero,
    the quotient, the weighted sum of the values. -/
def closed (s : Fin 4096 → EReal) (v : Fin 4096 → Fin 64 → EReal) (h : Fin 64) : EReal :=
  let M := max ⊥ ((Finset.univ : Finset (Fin 4096)).fold max ⊥ s)
  let L := 0 + ∑ k : Fin 4096, Ideal.exp (s k - M)
  ∑ k : Fin 4096, Ideal.div (Ideal.exp (s k - M)) L * v k h

/-- Key `j` of block `k` among the 4096 keys. -/
def key (k : Fin 8) (j : Fin 512) : Fin 4096 := ⟨k.val * 512 + j.val, by omega⟩

end Cert.Attn

namespace Cert.Attn

open Idealize.ShloMosaic

/-- A linear projection of one input row: `∑ i, x b s i * w i h + bias h`. -/
def proj (x : Fin 4 → Fin 4096 → Fin 512 → EReal) (w : Fin 512 → Fin 64 → EReal) (bias : Fin 64 → EReal)
    (b : Fin 4) (s : Fin 4096) (h : Fin 64) : EReal :=
  (∑ i : Fin 512, x b s i * w i h) + bias h

/-- The scale the reference computes: `1 / sqrt 64`, from the two printed words `1.0` and `64.0`. -/
def refScale : EReal :=
  Ideal.div (Ideal.ofBits .f32 0x3F800000#32) (Ideal.sqrt (Ideal.ofBits .f32 0x42800000#32))

/-- The reference's score of query `q` against key `k` in batch `b`: the product of the two projections, scaled. -/
def refScore (x : Fin 4 → Fin 4096 → Fin 512 → EReal) (wq : Fin 512 → Fin 64 → EReal) (bq : Fin 64 → EReal)
    (wk : Fin 512 → Fin 64 → EReal) (bk : Fin 64 → EReal) (b : Fin 4) (q k : Fin 4096) : EReal :=
  (∑ h : Fin 64, proj x wq bq b q h * proj x wk bk b k h) * refScale

/-- The reference's output: softmax attention in closed form. -/
def refOut (x : Fin 4 → Fin 4096 → Fin 512 → EReal) (wq : Fin 512 → Fin 64 → EReal) (bq : Fin 64 → EReal)
    (wk : Fin 512 → Fin 64 → EReal) (bk : Fin 64 → EReal) (wv : Fin 512 → Fin 64 → EReal) (bv : Fin 64 → EReal)
    (b : Fin 4) (q : Fin 4096) (h : Fin 64) : EReal :=
  closed (fun k => refScore x wq bq wk bk b q k) (fun k h' => proj x wv bv b k h') h

/-- The kernel's scaled query projection: the weights and the bias are multiplied by the printed word `0.125` first. -/
def kScale : EReal := Ideal.ofBits .f32 0x3E000000#32

def kProjQ (x : Fin 4 → Fin 4096 → Fin 512 → EReal) (wq : Fin 512 → Fin 64 → EReal) (bq : Fin 64 → EReal)
    (b : Fin 4) (s : Fin 4096) (h : Fin 64) : EReal :=
  (∑ i : Fin 512, x b s i * (wq i h * kScale)) + bq h * kScale

/-- The kernel's score: the scaled query projection against the key projection, no further scale. -/
def kScore (x : Fin 4 → Fin 4096 → Fin 512 → EReal) (wq : Fin 512 → Fin 64 → EReal) (bq : Fin 64 → EReal)
    (wk : Fin 512 → Fin 64 → EReal) (bk : Fin 64 → EReal) (b : Fin 4) (q k : Fin 4096) : EReal :=
  ∑ h : Fin 64, kProjQ x wq bq b q h * proj x wk bk b k h

/-- The kernel's output: the blockwise recurrence over the kernel's scores and the value projection. -/
def kOut (x : Fin 4 → Fin 4096 → Fin 512 → EReal) (wq : Fin 512 → Fin 64 → EReal) (bq : Fin 64 → EReal)
    (wk : Fin 512 → Fin 64 → EReal) (bk : Fin 64 → EReal) (wv : Fin 512 → Fin 64 → EReal) (bv : Fin 64 → EReal)
    (b : Fin 4) (q : Fin 4096) (h : Fin 64) : EReal :=
  blockwise (fun k j => kScore x wq bq wk bk b q (key k j)) (fun k j h' => proj x wv bv b (key k j) h') h

end Cert.Attn

end
-- ==== Proof.KernelIdealHostVals.lean ====
/-
  What the host operations around the two regions leave in core c's buffers, read at an index.

  Before the projection region: the query weights and bias times the scale word, the bias regrouped as a row; the
  key and value weights side by side along the columns, the key and value biases end to end and regrouped as a
  row; the input regrouped from (batch, position) to one row index batch * 4096 + position.  After it: the
  projection's result regrouped back to (batch, position).  Each array is first written as the operations' term
  over the launch arrays; a regrouping then reads the operand at the index with the same row-major position, a
  concatenation the piece the coordinate falls in.
-/
import proofs.«132332_j31885837205648_2_alg».proof.Proof.KernelIdealFrame
import proofs.«132332_j31885837205648_2_alg».proof.Proof.AttnSpec
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ) (ρ : Dev nD → PrngReg) (c : Dev nD)

/-! ## The launch arrays of core `c`, at their literal types -/

abbrev Arg0 : S4x4096x512.Idx → EReal := m ((c : Thread nD τ).loc main_arg0)
abbrev Arg1 : S512x64.Idx → EReal := m ((c : Thread nD τ).loc main_arg1)
abbrev Arg2 : S64.Idx → EReal := m ((c : Thread nD τ).loc main_arg2)
abbrev Arg3 : S512x64.Idx → EReal := m ((c : Thread nD τ).loc main_arg3)
abbrev Arg4 : S64.Idx → EReal := m ((c : Thread nD τ).loc main_arg4)
abbrev Arg5 : S512x64.Idx → EReal := m ((c : Thread nD τ).loc main_arg5)
abbrev Arg6 : S64.Idx → EReal := m ((c : Thread nD τ).loc main_arg6)

/-! ## Layout reads over variables of the literal shapes -/

/-- A `[16384, 128]` array cast to `[4, 4096, 128]` reads, at `(b, s, col)`, the operand at row `b * 4096 + s`. -/
theorem shapeCast_rows128_apply (X : S16384x128.Idx → EReal) (h : S16384x128.ShapeCasts S4x4096x128)
    (b : Fin 4) (s : Fin 4096) (col : Fin 128) (r : Fin 16384) (hr : r.val = b.val * 4096 + s.val) :
    shapeCast S4x4096x128 X h (ix3 b s col) = X (ix2 r col) :=
  shapeCast_apply X h _ _ (by
    rw [Shape.rowMajor_val_two, Shape.rowMajor_val_three]
    show r.val * 128 + col.val = (b.val * 4096 + s.val) * 128 + col.val
    rw [hr])

/-! ## What the host operations leave -/

theorem V3_main_arg0 : V3 m ρ c main_arg0 = m ((c : Thread nD τ).loc main_arg0) := by
  show StableHlo.after hostOps1 (W2 m ρ c) (Proc.devRef .tc main_arg0) = _
  dsimp only [hostOps1]
  after_results
  rw [W2_of_ne m ρ c main_arg0 (by decide)]
  show StableHlo.after hostOps0 (W0 m ρ c) (Proc.devRef .tc main_arg0) = _
  dsimp only [hostOps0]
  after_results

theorem V3_main_v1 :
    (V3 m ρ c main_v1 : S512x64.Idx → EReal)
      = mulf (m ((c : Thread nD τ).loc main_arg1))
          (broadcastInDim S512x64 ![] bcast_S_S512x64 (constant (F := Ideal) S_ .f32 0x3E000000#32)) := by
  show StableHlo.after hostOps1 (W2 m ρ c) (Proc.devRef .tc main_v1) = _
  dsimp only [hostOps1]
  after_results
  rw [W2_of_ne m ρ c main_v1 (by decide)]
  show StableHlo.after hostOps0 (W0 m ρ c) (Proc.devRef .tc main_v1) = _
  dsimp only [hostOps0]
  after_results

theorem V3_main_v4 :
    (V3 m ρ c main_v4 : S1x64.Idx → EReal)
      = shapeCast S1x64
          (mulf (m ((c : Thread nD τ).loc main_arg2))
            (broadcastInDim S64 ![] bcast_S_S64 (constant (F := Ideal) S_ .f32 0x3E000000#32)))
          shapeCasts_S64_S1x64 := by
  show StableHlo.after hostOps1 (W2 m ρ c) (Proc.devRef .tc main_v4) = _
  dsimp only [hostOps1]
  after_results
  rw [W2_of_ne m ρ c main_v4 (by decide)]
  show StableHlo.after hostOps0 (W0 m ρ c) (Proc.devRef .tc main_v4) = _
  dsimp only [hostOps0]
  after_results
  rfl

theorem V3_main_v10 :
    (V3 m ρ c main_v10 : S4x4096x128.Idx → EReal)
      = shapeCast S4x4096x128 (W2 m ρ c (Proc.devRef .tc main_v9) : S16384x128.Idx → EReal)
          shapeCasts_S16384x128_S4x4096x128 := by
  show StableHlo.after hostOps1 (W2 m ρ c) (Proc.devRef .tc main_v10) = _
  dsimp only [hostOps1]
  after_results
  rfl

/-! ## The values at an index -/

/-- The input array is as launched when the attention region starts. -/
theorem hvx (b : Fin 4) (s : Fin 4096) (i : Fin 512) :
    (V3 m ρ c main_arg0 : S4x4096x512.Idx → EReal) (ix3 b s i) = Arg0 m c (ix3 b s i) := by
  rw [V3_main_arg0]

/-- The scaled query weights. -/
theorem hv1 (i : Fin 512) (h : Fin 64) :
    (V3 m ρ c main_v1 : S512x64.Idx → EReal) (ix2 i h)
      = Arg1 m c (ix2 i h) * Cert.Attn.kScale := by
  rw [V3_main_v1]; rfl

/-- The scaled query bias, as a row. -/
theorem hv4 (h : Fin 64) :
    (V3 m ρ c main_v4 : S1x64.Idx → EReal) (ix2 (0 : Fin 1) h)
      = Arg2 m c (ix1 h) * Cert.Attn.kScale := by
  rw [V3_main_v4, shapeCast_a_1a_apply]; rfl

/-- The projection region's result, regrouped by batch. -/
theorem hv10 (b : Fin 4) (s : Fin 4096) (col : Fin 128) (r : Fin 16384) (hr : r.val = b.val * 4096 + s.val) :
    (V3 m ρ c main_v10 : S4x4096x128.Idx → EReal) (ix3 b s col)
      = (W2 m ρ c (Proc.devRef .tc main_v9) : S16384x128.Idx → EReal) (ix2 r col) := by
  rw [V3_main_v10]
  exact shapeCast_rows128_apply _ _ b s col r hr

/-! ## Before the projection region -/

/-- A `[4, 4096, 512]` array cast to `[16384, 512]` reads, at row `b * 4096 + s`, the operand at `(b, s)`. -/
theorem shapeCast_rows512_apply (X : S4x4096x512.Idx → EReal) (h : S4x4096x512.ShapeCasts S16384x512)
    (b : Fin 4) (s : Fin 4096) (i : Fin 512) (r : Fin 16384) (hr : r.val = b.val * 4096 + s.val) :
    shapeCast S16384x512 X h (ix2 r i) = X (ix3 b s i) :=
  shapeCast_apply X h _ _ (by
    rw [Shape.rowMajor_val_two, Shape.rowMajor_val_three]
    show (b.val * 4096 + s.val) * 512 + i.val = r.val * 512 + i.val
    rw [hr])

/-- Two `[512, 64]` arrays side by side: a column below 64 reads the first. -/
theorem concat_cols_left (X Y : S512x64.Idx → EReal) (hc : Shape.Concatenates [S512x64, S512x64] S512x128 1)
    (i : Fin 512) (h : Fin 64) :
    concatenate S512x128 1 [⟨S512x64, X⟩, ⟨S512x64, Y⟩] hc (ix2 i (⟨h.val, by omega⟩ : Fin 128)) = X (ix2 i h) :=
  concatenate_pair_apply_left (1 : Fin S512x128.rank) X Y hc _ rfl (ix2 i h)
    (fun b => match b with | ⟨0, _⟩ => rfl | ⟨1, _⟩ => rfl)

/-- Two `[512, 64]` arrays side by side: column `64 + h` reads the second at `h`. -/
theorem concat_cols_right (X Y : S512x64.Idx → EReal) (hc : Shape.Concatenates [S512x64, S512x64] S512x128 1)
    (i : Fin 512) (h : Fin 64) :
    concatenate S512x128 1 [⟨S512x64, X⟩, ⟨S512x64, Y⟩] hc (ix2 i (⟨64 + h.val, by omega⟩ : Fin 128)) = Y (ix2 i h) :=
  concatenate_pair_apply_right (1 : Fin S512x128.rank) X Y hc _ rfl rfl (ix2 i h)
    (fun b => match b with | ⟨0, _⟩ => fun _ => rfl | ⟨1, _⟩ => fun hne => absurd rfl hne)
    (by show h.val + 64 = 64 + h.val; omega)

/-- Two `[64]` arrays end to end: an entry below 64 reads the first. -/
theorem concat_vec_left (X Y : S64.Idx → EReal) (hc : Shape.Concatenates [S64, S64] S128 0) (h : Fin 64) :
    concatenate S128 0 [⟨S64, X⟩, ⟨S64, Y⟩] hc (ix1 (⟨h.val, by omega⟩ : Fin 128)) = X (ix1 h) :=
  concatenate_pair_apply_left (0 : Fin S128.rank) X Y hc _ rfl (ix1 h)
    (fun b => match b with | ⟨0, _⟩ => rfl)

/-- Two `[64]` arrays end to end: entry `64 + h` reads the second at `h`. -/
theorem concat_vec_right (X Y : S64.Idx → EReal) (hc : Shape.Concatenates [S64, S64] S128 0) (h : Fin 64) :
    concatenate S128 0 [⟨S64, X⟩, ⟨S64, Y⟩] hc (ix1 (⟨64 + h.val, by omega⟩ : Fin 128)) = Y (ix1 h) :=
  concatenate_pair_apply_right (0 : Fin S128.rank) X Y hc _ rfl rfl (ix1 h)
    (fun b => match b with | ⟨0, _⟩ => fun hne => absurd rfl hne)
    (by show h.val + 64 = 64 + h.val; omega)

theorem V1_main_v8 :
    (V1 m ρ c main_v8 : S16384x512.Idx → EReal)
      = shapeCast S16384x512 (Arg0 m c) shapeCasts_S4x4096x512_S16384x512 := by
  show StableHlo.after hostOps0 (W0 m ρ c) (Proc.devRef .tc main_v8) = _
  dsimp only [hostOps0]
  after_results
  all_goals rfl

theorem V1_main_v5 :
    (V1 m ρ c main_v5 : S512x128.Idx → EReal)
      = concatenate S512x128 1 [⟨S512x64, Arg3 m c⟩, ⟨S512x64, Arg5 m c⟩] concatenates_S512x64_S512x64_S512x128_d1 := by
  show StableHlo.after hostOps0 (W0 m ρ c) (Proc.devRef .tc main_v5) = _
  dsimp only [hostOps0]
  after_results
  all_goals rfl

theorem V1_main_v7 :
    (V1 m ρ c main_v7 : S1x128.Idx → EReal)
      = shapeCast S1x128
          (concatenate S128 0 [⟨S64, Arg4 m c⟩, ⟨S64, Arg6 m c⟩] concatenates_S64_S64_S128_d0)
          shapeCasts_S128_S1x128 := by
  show StableHlo.after hostOps0 (W0 m ρ c) (Proc.devRef .tc main_v7) = _
  dsimp only [hostOps0]
  after_results
  all_goals rfl

/-- The input, one row per (batch, position). -/
theorem hv8 (b : Fin 4) (s : Fin 4096) (i : Fin 512) (r : Fin 16384) (hr : r.val = b.val * 4096 + s.val) :
    (V1 m ρ c main_v8 : S16384x512.Idx → EReal) (ix2 r i) = Arg0 m c (ix3 b s i) := by
  rw [V1_main_v8]
  exact shapeCast_rows512_apply _ _ b s i r hr

/-- The key weights are the first 64 columns of the joined weights. -/
theorem hv5k (i : Fin 512) (h : Fin 64) :
    (V1 m ρ c main_v5 : S512x128.Idx → EReal) (ix2 i (⟨h.val, by omega⟩ : Fin 128)) = Arg3 m c (ix2 i h) := by
  rw [V1_main_v5]
  exact concat_cols_left _ _ _ i h

/-- The value weights are the last 64 columns of the joined weights. -/
theorem hv5v (i : Fin 512) (h : Fin 64) :
    (V1 m ρ c main_v5 : S512x128.Idx → EReal) (ix2 i (⟨64 + h.val, by omega⟩ : Fin 128)) = Arg5 m c (ix2 i h) := by
  rw [V1_main_v5]
  exact concat_cols_right _ _ _ i h

/-- The key bias is the first 64 entries of the joined bias row. -/
theorem hv7k (h : Fin 64) :
    (V1 m ρ c main_v7 : S1x128.Idx → EReal) (ix2 (0 : Fin 1) (⟨h.val, by omega⟩ : Fin 128)) = Arg4 m c (ix1 h) := by
  rw [V1_main_v7, shapeCast_a_1a_apply]
  exact concat_vec_left _ _ _ h

/-- The value bias is the last 64 entries of the joined bias row. -/
theorem hv7v (h : Fin 64) :
    (V1 m ρ c main_v7 : S1x128.Idx → EReal) (ix2 (0 : Fin 1) (⟨64 + h.val, by omega⟩ : Fin 128)) = Arg6 m c (ix1 h) := by
  rw [V1_main_v7, shapeCast_a_1a_apply]
  exact concat_vec_right _ _ _ h

end Cert.KernelIdeal.Fr

end
-- ==== Proof.PayloadIdeal.lean ====
/-
  The kernel's stored values read at one index, at the ideal float instance.

  Every pure value the two kernel bodies compute is a composition of pointwise operations, layout operations
  (shape casts, broadcasts, column slices), row reductions and matrix products.  Read at an index written by
  its coordinates, each composition is an expression over the extended reals: a projection is a sum of
  products plus a bias, the initial values are `-∞`, `0` and `0`, the final value is a quotient, and one block of
  the online-softmax loop is one step of the blockwise recurrence `Cert.Attn.St.step` on the row's state.
-/
import proofs.«132332_j31885837205648_2_alg».proof.Proof.Gen.KernelIdeal.Skeleton
import proofs.«132332_j31885837205648_2_alg».proof.Proof.AttnSpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayVal

open Cert.KernelIdeal Cert.KernelIdeal.Gen Idealize.ShloMosaic Idealize.ShloMosaic.ValueIdx

/-! ## Two keepdims layout forms read at an index -/

section Layout
variable {α : Type}

/-- An `[a, 1]` column broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-! ## The final value: the weighted sum over the normaliser -/

theorem pay3_apply (a : Vec Ideal S2048x64 .f32) (l : Vec Ideal S2048x1 .f32) (y : Fin 2048) (h : Fin 64) :
    k1_pay3 (F := Ideal) a l (ix3 (0 : Fin 1) y h) = Ideal.div (a (ix2 y h)) (l (ix2 y (0 : Fin 1))) := by
  unfold k1_pay3
  refine (shapeCast_ab_1ab_apply _ _ (0 : Fin 1) y h).trans ?_
  rw [divf_apply]
  exact congrArg (Ideal.div (a (ix2 y h))) (broadcastTo_a1_ab_apply l _ y h)

/-! ## The initial values of the recurrence -/

theorem pay5_apply (y : Fin 2048) : k1_pay5 (F := Ideal) (ix2 y (0 : Fin 1)) = (⊥ : EReal) := by
  unfold k1_pay5
  rw [shapeCast_self]
  show Ideal.ofBits .f32 0xFF800000#32 = ⊥
  simp [Ideal.ofBits, Ideal.ieee]

theorem pay6_apply (y : Fin 2048) : k1_pay6 (F := Ideal) (ix2 y (0 : Fin 1)) = (0 : EReal) := by
  unfold k1_pay6
  rw [shapeCast_self]
  exact Ideal.ofBits_zero_f32

theorem pay7_apply (y : Fin 2048) (h : Fin 64) : k1_pay7 (F := Ideal) (ix2 y h) = (0 : EReal) := by
  unfold k1_pay7
  rw [shapeCast_self]
  exact Ideal.ofBits_zero_f32

/-! ## The three matrix products read at an index

Each product accumulates into the zero splat, so at an output index it is the sum over the one contracted
coordinate of the operands' products; the contraction index is re-indexed through its one coordinate. -/

section Dots

theorem dotKV_lhs0 (i : S2048x128.Idx) (q : dot_S2048x512_S512x128_S2048x128_1_0_0_1_n_n.contr.Idx) :
    (dot_S2048x512_S512x128_S2048x128_1_0_0_1_n_n.lhsIdx i q 0).val = (i 0).val := by
  unfold DotDims.lhsIdx
  rw [dif_neg (show ¬(0 : Fin S2048x512.rank) ∈ dot_S2048x512_S512x128_S2048x128_1_0_0_1_n_n.lhsBatch by decide), dif_pos (show (0 : Fin S2048x512.rank) ∈ dot_S2048x512_S512x128_S2048x128_1_0_0_1_n_n.lhsNonContracting by decide)]
  rfl
theorem dotKV_lhs1 (i : S2048x128.Idx) (q : dot_S2048x512_S512x128_S2048x128_1_0_0_1_n_n.contr.Idx) :
    (dot_S2048x512_S512x128_S2048x128_1_0_0_1_n_n.lhsIdx i q 1).val = (q ⟨0, by decide⟩).val :=
  dot_S2048x512_S512x128_S2048x128_1_0_0_1_n_n.lhsIdx_val_of_single rfl i q
theorem dotKV_rhs1 (i : S2048x128.Idx) (q : dot_S2048x512_S512x128_S2048x128_1_0_0_1_n_n.contr.Idx) :
    (dot_S2048x512_S512x128_S2048x128_1_0_0_1_n_n.rhsIdx i q 1).val = (i 1).val := by
  unfold DotDims.rhsIdx
  rw [dif_neg (show ¬(1 : Fin S512x128.rank) ∈ dot_S2048x512_S512x128_S2048x128_1_0_0_1_n_n.rhsBatch by decide), dif_pos (show (1 : Fin S512x128.rank) ∈ dot_S2048x512_S512x128_S2048x128_1_0_0_1_n_n.rhsNonContracting by decide)]
  rfl
theorem dotKV_rhs0 (i : S2048x128.Idx) (q : dot_S2048x512_S512x128_S2048x128_1_0_0_1_n_n.contr.Idx) :
    (dot_S2048x512_S512x128_S2048x128_1_0_0_1_n_n.rhsIdx i q 0).val = (q ⟨0, by decide⟩).val :=
  dot_S2048x512_S512x128_S2048x128_1_0_0_1_n_n.rhsIdx_val_of_single rfl i q

/-- Rows by columns, 512 contracted, 128 columns: at `(y, z)` the sum over `k` of `lhs (y, k) * rhs (k, z)`. -/
theorem dotKV_apply {φ₁ φ₂ : FTy} (lhs : FVec Ideal S2048x512 φ₁) (rhs : FVec Ideal S512x128 φ₂) (y : Fin 2048) (z : Fin 128) :
    matmul dot_S2048x512_S512x128_S2048x128_1_0_0_1_n_n none lhs rhs (constant (F := Ideal) S2048x128 .f32 0x00000000#32) (ix2 y z)
      = ∑ k : Fin 512, lhs (ix2 y k) * rhs (ix2 k z) := by
  simp only [matmul]
  rw [Ideal.matmul_constant_zero_apply, ← Equiv.sum_comp (contrEquiv1 dot_S2048x512_S512x128_S2048x128_1_0_0_1_n_n 512 rfl rfl).symm]
  refine Finset.sum_congr rfl fun k _ => ?_
  have hk := contrEquiv1_symm_val dot_S2048x512_S512x128_S2048x128_1_0_0_1_n_n 512 rfl rfl k
  have el : dot_S2048x512_S512x128_S2048x128_1_0_0_1_n_n.lhsIdx (ix2 y z) ((contrEquiv1 dot_S2048x512_S512x128_S2048x128_1_0_0_1_n_n 512 rfl rfl).symm k) = ix2 y k :=
    funext fun a => Fin.ext (by
      match a with
      | ⟨0, _⟩ => exact dotKV_lhs0 _ _
      | ⟨1, _⟩ => exact (dotKV_lhs1 _ _).trans hk)
  have er : dot_S2048x512_S512x128_S2048x128_1_0_0_1_n_n.rhsIdx (ix2 y z) ((contrEquiv1 dot_S2048x512_S512x128_S2048x128_1_0_0_1_n_n 512 rfl rfl).symm k) = ix2 k z :=
    funext fun a => Fin.ext (by
      match a with
      | ⟨0, _⟩ => exact (dotKV_rhs0 _ _).trans hk
      | ⟨1, _⟩ => exact dotKV_rhs1 _ _)
  rw [el, er]

theorem dotQ_lhs0 (i : S2048x64.Idx) (q : dot_S2048x512_S512x64_S2048x64_1_0_0_1_n_n.contr.Idx) :
    (dot_S2048x512_S512x64_S2048x64_1_0_0_1_n_n.lhsIdx i q 0).val = (i 0).val := by
  unfold DotDims.lhsIdx
  rw [dif_neg (show ¬(0 : Fin S2048x512.rank) ∈ dot_S2048x512_S512x64_S2048x64_1_0_0_1_n_n.lhsBatch by decide), dif_pos (show (0 : Fin S2048x512.rank) ∈ dot_S2048x512_S512x64_S2048x64_1_0_0_1_n_n.lhsNonContracting by decide)]
  rfl
theorem dotQ_lhs1 (i : S2048x64.Idx) (q : dot_S2048x512_S512x64_S2048x64_1_0_0_1_n_n.contr.Idx) :
    (dot_S2048x512_S512x64_S2048x64_1_0_0_1_n_n.lhsIdx i q 1).val = (q ⟨0, by decide⟩).val :=
  dot_S2048x512_S512x64_S2048x64_1_0_0_1_n_n.lhsIdx_val_of_single rfl i q
theorem dotQ_rhs1 (i : S2048x64.Idx) (q : dot_S2048x512_S512x64_S2048x64_1_0_0_1_n_n.contr.Idx) :
    (dot_S2048x512_S512x64_S2048x64_1_0_0_1_n_n.rhsIdx i q 1).val = (i 1).val := by
  unfold DotDims.rhsIdx
  rw [dif_neg (show ¬(1 : Fin S512x64.rank) ∈ dot_S2048x512_S512x64_S2048x64_1_0_0_1_n_n.rhsBatch by decide), dif_pos (show (1 : Fin S512x64.rank) ∈ dot_S2048x512_S512x64_S2048x64_1_0_0_1_n_n.rhsNonContracting by decide)]
  rfl
theorem dotQ_rhs0 (i : S2048x64.Idx) (q : dot_S2048x512_S512x64_S2048x64_1_0_0_1_n_n.contr.Idx) :
    (dot_S2048x512_S512x64_S2048x64_1_0_0_1_n_n.rhsIdx i q 0).val = (q ⟨0, by decide⟩).val :=
  dot_S2048x512_S512x64_S2048x64_1_0_0_1_n_n.rhsIdx_val_of_single rfl i q

/-- Rows by columns, 512 contracted, 64 columns: at `(y, z)` the sum over `k` of `lhs (y, k) * rhs (k, z)`. -/
theorem dotQ_apply {φ₁ φ₂ : FTy} (lhs : FVec Ideal S2048x512 φ₁) (rhs : FVec Ideal S512x64 φ₂) (y : Fin 2048) (z : Fin 64) :
    matmul dot_S2048x512_S512x64_S2048x64_1_0_0_1_n_n none lhs rhs (constant (F := Ideal) S2048x64 .f32 0x00000000#32) (ix2 y z)
      = ∑ k : Fin 512, lhs (ix2 y k) * rhs (ix2 k z) := by
  simp only [matmul]
  rw [Ideal.matmul_constant_zero_apply, ← Equiv.sum_comp (contrEquiv1 dot_S2048x512_S512x64_S2048x64_1_0_0_1_n_n 512 rfl rfl).symm]
  refine Finset.sum_congr rfl fun k _ => ?_
  have hk := contrEquiv1_symm_val dot_S2048x512_S512x64_S2048x64_1_0_0_1_n_n 512 rfl rfl k
  have el : dot_S2048x512_S512x64_S2048x64_1_0_0_1_n_n.lhsIdx (ix2 y z) ((contrEquiv1 dot_S2048x512_S512x64_S2048x64_1_0_0_1_n_n 512 rfl rfl).symm k) = ix2 y k :=
    funext fun a => Fin.ext (by
      match a with
      | ⟨0, _⟩ => exact dotQ_lhs0 _ _
      | ⟨1, _⟩ => exact (dotQ_lhs1 _ _).trans hk)
  have er : dot_S2048x512_S512x64_S2048x64_1_0_0_1_n_n.rhsIdx (ix2 y z) ((contrEquiv1 dot_S2048x512_S512x64_S2048x64_1_0_0_1_n_n 512 rfl rfl).symm k) = ix2 k z :=
    funext fun a => Fin.ext (by
      match a with
      | ⟨0, _⟩ => exact (dotQ_rhs0 _ _).trans hk
      | ⟨1, _⟩ => exact dotQ_rhs1 _ _)
  rw [el, er]

theorem dotS_lhs0 (i : S2048x512.Idx) (q : dot_S2048x64_S512x64_S2048x512_1_1_0_0_n_n.contr.Idx) :
    (dot_S2048x64_S512x64_S2048x512_1_1_0_0_n_n.lhsIdx i q 0).val = (i 0).val := by
  unfold DotDims.lhsIdx
  rw [dif_neg (show ¬(0 : Fin S2048x64.rank) ∈ dot_S2048x64_S512x64_S2048x512_1_1_0_0_n_n.lhsBatch by decide), dif_pos (show (0 : Fin S2048x64.rank) ∈ dot_S2048x64_S512x64_S2048x512_1_1_0_0_n_n.lhsNonContracting by decide)]
  rfl
theorem dotS_lhs1 (i : S2048x512.Idx) (q : dot_S2048x64_S512x64_S2048x512_1_1_0_0_n_n.contr.Idx) :
    (dot_S2048x64_S512x64_S2048x512_1_1_0_0_n_n.lhsIdx i q 1).val = (q ⟨0, by decide⟩).val :=
  dot_S2048x64_S512x64_S2048x512_1_1_0_0_n_n.lhsIdx_val_of_single rfl i q
theorem dotS_rhs0 (i : S2048x512.Idx) (q : dot_S2048x64_S512x64_S2048x512_1_1_0_0_n_n.contr.Idx) :
    (dot_S2048x64_S512x64_S2048x512_1_1_0_0_n_n.rhsIdx i q 0).val = (i 1).val := by
  unfold DotDims.rhsIdx
  rw [dif_neg (show ¬(0 : Fin S512x64.rank) ∈ dot_S2048x64_S512x64_S2048x512_1_1_0_0_n_n.rhsBatch by decide), dif_pos (show (0 : Fin S512x64.rank) ∈ dot_S2048x64_S512x64_S2048x512_1_1_0_0_n_n.rhsNonContracting by decide)]
  rfl
theorem dotS_rhs1 (i : S2048x512.Idx) (q : dot_S2048x64_S512x64_S2048x512_1_1_0_0_n_n.contr.Idx) :
    (dot_S2048x64_S512x64_S2048x512_1_1_0_0_n_n.rhsIdx i q 1).val = (q ⟨0, by decide⟩).val :=
  dot_S2048x64_S512x64_S2048x512_1_1_0_0_n_n.rhsIdx_val_of_single rfl i q

/-- Rows by rows (the right operand transposed), 64 contracted: at `(y, z)` the sum over `k` of `lhs (y, k) * rhs (z, k)`. -/
theorem dotS_apply {φ₁ φ₂ : FTy} (lhs : FVec Ideal S2048x64 φ₁) (rhs : FVec Ideal S512x64 φ₂) (y : Fin 2048) (z : Fin 512) :
    matmul dot_S2048x64_S512x64_S2048x512_1_1_0_0_n_n none lhs rhs (constant (F := Ideal) S2048x512 .f32 0x00000000#32) (ix2 y z)
      = ∑ k : Fin 64, lhs (ix2 y k) * rhs (ix2 z k) := by
  simp only [matmul]
  rw [Ideal.matmul_constant_zero_apply, ← Equiv.sum_comp (contrEquiv1 dot_S2048x64_S512x64_S2048x512_1_1_0_0_n_n 64 rfl rfl).symm]
  refine Finset.sum_congr rfl fun k _ => ?_
  have hk := contrEquiv1_symm_val dot_S2048x64_S512x64_S2048x512_1_1_0_0_n_n 64 rfl rfl k
  have el : dot_S2048x64_S512x64_S2048x512_1_1_0_0_n_n.lhsIdx (ix2 y z) ((contrEquiv1 dot_S2048x64_S512x64_S2048x512_1_1_0_0_n_n 64 rfl rfl).symm k) = ix2 y k :=
    funext fun a => Fin.ext (by
      match a with
      | ⟨0, _⟩ => exact dotS_lhs0 _ _
      | ⟨1, _⟩ => exact (dotS_lhs1 _ _).trans hk)
  have er : dot_S2048x64_S512x64_S2048x512_1_1_0_0_n_n.rhsIdx (ix2 y z) ((contrEquiv1 dot_S2048x64_S512x64_S2048x512_1_1_0_0_n_n 64 rfl rfl).symm k) = ix2 z k :=
    funext fun a => Fin.ext (by
      match a with
      | ⟨1, _⟩ => exact (dotS_rhs1 _ _).trans hk
      | ⟨0, _⟩ => exact dotS_rhs0 _ _)
  rw [el, er]

end Dots

/-! ## The two projections -/

theorem pay4_apply (x0 : Vec Ideal S1x2048x512 .f32) (x1 : Vec Ideal S512x64 .f32) (x2 : Vec Ideal S1x64 .f32) (y : Fin 2048) (h : Fin 64) :
    k1_pay4 (F := Ideal) x0 x1 x2 (ix2 y h) = (∑ i : Fin 512, x0 (ix3 (0 : Fin 1) y i) * x1 (ix2 i h)) + x2 (ix2 (0 : Fin 1) h) := by
  unfold k1_pay4
  rw [shapeCast_self, shapeCast_self, shapeCast_self]
  rw [truncf_apply, addf_apply, dotQ_apply, broadcastTo_1b_ab_apply]
  refine congrArg (· + x2 (ix2 (0 : Fin 1) h)) (Finset.sum_congr rfl fun i _ => ?_)
  rw [truncf_apply, truncf_apply, shapeCast_1ab_ab_apply]

theorem pay0_apply (x0 : Vec Ideal S2048x512 .f32) (x1 : Vec Ideal S512x128 .f32) (x2 : Vec Ideal S1x128 .f32) (y : Fin 2048) (col : Fin 128) :
    k0_pay1 (F := Ideal) x0 x1 x2 (ix2 y col) = (∑ i : Fin 512, x0 (ix2 y i) * x1 (ix2 i col)) + x2 (ix2 (0 : Fin 1) col) := by
  unfold k0_pay1
  rw [shapeCast_self, shapeCast_self, shapeCast_self]
  rw [truncf_apply, addf_apply, dotKV_apply, broadcastTo_1b_ab_apply]
  refine congrArg (· + x2 (ix2 (0 : Fin 1) col)) (Finset.sum_congr rfl fun i _ => ?_)
  rw [truncf_apply, truncf_apply]

end Cert.KernelIdeal.PayVal

end
-- ==== Proof.KernelIdealValue0.lean ====
/-
  The projection region's result. What point `t` writes back is rows `2048 t … 2048 t + 2047` of ONE function of the
  region's entry contents: row `r`, column `col` is `∑ i, x2d r i * wkv i col + bkv col`. The blocks of the 8 points
  tile the packed key|value array, so it ends holding that function; read through the host stages (the input
  flattened row-major, the key and value weights and biases side by side) its left 64 columns are the key
  projection of the specification and its right 64 columns the value projection.
-/
import proofs.«132332_j31885837205648_2_alg».proof.Proof.KernelIdealFrame
import proofs.«132332_j31885837205648_2_alg».proof.Proof.KernelIdealBlocks
import proofs.«132332_j31885837205648_2_alg».proof.Proof.KernelIdealPieces
import proofs.«132332_j31885837205648_2_alg».proof.Proof.KernelIdealHostVals
import proofs.«132332_j31885837205648_2_alg».proof.Proof.PayloadIdeal
import proofs.«132332_j31885837205648_2_alg».proof.Proof.AttnSpec
import Idealize.ShloMosaic.Lib.ValueIdx
import Idealize.ShloMosaic.Lib.Pipeline.Value

set_option maxRecDepth 16384

noncomputable section

namespace Cert.KernelIdeal.Val

open Cert.KernelIdeal Cert.KernelIdeal.Gen Cert.KernelIdeal.Fr Cert.KernelIdeal.PayVal
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg) (c : Dev nD)

/-- The seven argument arrays on core `c`, as the specification indexes them. -/
abbrev aX : Fin 4 → Fin 4096 → Fin 512 → EReal := fun b s i => (m ((c : Thread nD τ).loc main_arg0) : S4x4096x512.Idx → EReal) (ix3 b s i)
abbrev aWq : Fin 512 → Fin 64 → EReal := fun i h => (m ((c : Thread nD τ).loc main_arg1) : S512x64.Idx → EReal) (ix2 i h)
abbrev aBq : Fin 64 → EReal := fun h => (m ((c : Thread nD τ).loc main_arg2) : S64.Idx → EReal) (ix1 h)
abbrev aWk : Fin 512 → Fin 64 → EReal := fun i h => (m ((c : Thread nD τ).loc main_arg3) : S512x64.Idx → EReal) (ix2 i h)
abbrev aBk : Fin 64 → EReal := fun h => (m ((c : Thread nD τ).loc main_arg4) : S64.Idx → EReal) (ix1 h)
abbrev aWv : Fin 512 → Fin 64 → EReal := fun i h => (m ((c : Thread nD τ).loc main_arg5) : S512x64.Idx → EReal) (ix2 i h)
abbrev aBv : Fin 64 → EReal := fun h => (m ((c : Thread nD τ).loc main_arg6) : S64.Idx → EReal) (ix1 h)

/-! ## The first region's array after its run -/

/-- The first region's three input arrays as it finds them: the flattened input, the key|value weights side by side,
    the key|value bias row. -/
abbrev x8 : S16384x512.Idx → EReal := V1 m ρ c main_v8
abbrev w5 : S512x128.Idx → EReal := V1 m ρ c main_v5
abbrev b7 : S1x128.Idx → EReal := V1 m ρ c main_v7

/-- Row `r`, column `col` of the packed key|value array, from the first region's entry contents. -/
def kv0 (r : Fin 16384) (col : Fin 128) : EReal :=
  (∑ i : Fin 512, x8 m ρ c (ix2 r i) * w5 m ρ c (ix2 i col)) + b7 m ρ c (ix2 (0 : Fin 1) col)

/-- The same as one array. -/
def G0 : S16384x128.Idx → EReal := fun i => kv0 m ρ c ⟨(i 0).val, (i 0).isLt⟩ ⟨(i 1).val, (i 1).isLt⟩

theorem G0_apply (r : Fin 16384) (col : Fin 128) : G0 m ρ c (ix2 r col) = kv0 m ρ c r col := rfl

/-- What point `t` writes back is block `t` of `G0`. -/
theorem flushed0_eq (t : Fin cfg0.N) :
    (dat0 (V1 m ρ) c).flushed 3 t = ((cfg0.win 3).blk t).view.read (Elt Ideal) (G0 m ρ c) := by
  show (cfg0.win 3).cut (grid0.coords t) ((dat0 (V1 m ρ) c).after 3 t) = _
  rw [after0_3]
  unfold outAt0
  rw [piece0]
  funext j
  obtain ⟨y, col, rfl⟩ : ∃ (y : Fin 2048) (col : Fin 128), j = ix2 y col := ⟨j 0, j 1, eq_ix2 j⟩
  have hN : t.val < 8 := lt_of_lt_of_eq t.isLt (show cfg0.N = 8 from N_0)
  have hr : (⟨t.val * 2048 + y.val, by omega⟩ : Fin 16384).val = t.val * 2048 + y.val := rfl
  show k0_pay1 (F := Ideal) (iblk0 (V1 m ρ) c 0 t) (iblk0 (V1 m ρ) c 1 t) (iblk0 (V1 m ρ) c 2 t) (ix2 y col)
    = G0 m ρ c (((cfg0.win 3).blk t).view.emb (ix2 y col))
  rw [emb0_3 t y col _ hr, G0_apply]
  refine (pay0_apply (iblk0 (V1 m ρ) c 0 t) (iblk0 (V1 m ρ) c 1 t) (iblk0 (V1 m ρ) c 2 t) y col).trans ?_
  unfold kv0
  rw [iblk0_2_apply (V1 m ρ) c t col]
  refine congrArg (· + _) (Finset.sum_congr rfl fun i _ => ?_)
  rw [iblk0_0_apply (V1 m ρ) c t y i _ hr, iblk0_1_apply (V1 m ρ) c t i col]

/-- The packed key|value array after the first region, at row `r`, column `col`. -/
theorem kv_at (r : Fin 16384) (col : Fin 128) :
    (W2 m ρ c (Proc.devRef .tc main_v9) : S16384x128.Idx → EReal) (ix2 r col) = kv0 m ρ c r col := by
  have hN : cfg0.N = 8 := N_0
  have hlt : r.val / 2048 < cfg0.N := by rw [hN]; omega
  have hr : r.val = (⟨r.val / 2048, hlt⟩ : Fin cfg0.N).val * 2048 + (⟨r.val % 2048, by omega⟩ : Fin 2048).val := by
    show r.val = r.val / 2048 * 2048 + r.val % 2048; omega
  have hmem := ((cfg0.win 3).blk ⟨r.val / 2048, hlt⟩).view.emb_mem_set (ix2 (⟨r.val % 2048, by omega⟩ : Fin 2048) col)
  rw [emb0_3 ⟨r.val / 2048, hlt⟩ ⟨r.val % 2048, by omega⟩ col r hr] at hmem
  rw [show (W2 m ρ c (Proc.devRef .tc main_v9)) = (dat0 (V1 m ρ) c).arrAt 3 cfg0.N from W2_arr m ρ c 3]
  exact ((dat0 (V1 m ρ) c).arrAt_apply_of_mem 3 (G0 m ρ c) (fun t _ => flushed0_eq m ρ c t) cfg0.N
    ⟨r.val / 2048, hlt⟩ (ix2 r col) hlt (flush0_3 _) hmem).trans (G0_apply m ρ c r col)

/-- Its left 64 columns are the key projection, -/
theorem kv_key (b : Fin 4) (s : Fin 4096) (h : Fin 64) (r : Fin 16384) (hr : r.val = b.val * 4096 + s.val) :
    (W2 m ρ c (Proc.devRef .tc main_v9) : S16384x128.Idx → EReal) (ix2 r (⟨h.val, by omega⟩ : Fin 128))
      = Cert.Attn.proj (aX m c) (aWk m c) (aBk m c) b s h := by
  rw [kv_at]; unfold kv0 Cert.Attn.proj
  dsimp only [x8, w5, b7]
  rw [hv7k m ρ c h]
  refine congrArg (· + _) (Finset.sum_congr rfl fun i _ => ?_)
  rw [hv8 m ρ c b s i r hr, hv5k m ρ c i h]

/-- its right 64 columns the value projection. -/
theorem kv_val (b : Fin 4) (s : Fin 4096) (h : Fin 64) (r : Fin 16384) (hr : r.val = b.val * 4096 + s.val) :
    (W2 m ρ c (Proc.devRef .tc main_v9) : S16384x128.Idx → EReal) (ix2 r (⟨64 + h.val, by omega⟩ : Fin 128))
      = Cert.Attn.proj (aX m c) (aWv m c) (aBv m c) b s h := by
  rw [kv_at]; unfold kv0 Cert.Attn.proj
  dsimp only [x8, w5, b7]
  rw [hv7v m ρ c h]
  refine congrArg (· + _) (Finset.sum_congr rfl fun i _ => ?_)
  rw [hv8 m ρ c b s i r hr, hv5v m ρ c i h]

end Cert.KernelIdeal.Val

end
-- ==== Proof.PayloadIdeal2.lean ====
/-
  One block of the online softmax read at a row, at the ideal float instance: the values one trip of the kernel's
  loop over the key blocks stores are one step of the blockwise recurrence `Cert.Attn.St.step` on the row's state.
-/
import proofs.«132332_j31885837205648_2_alg».proof.Proof.PayloadIdeal

noncomputable section

namespace Cert.KernelIdeal.PayVal

open Cert.KernelIdeal Cert.KernelIdeal.Gen Idealize.ShloMosaic Idealize.ShloMosaic.ValueIdx

/-! ## One block of the online softmax, read at a row

The loop body reads the key|value block `x3`, the scaled query projection `q`, the running maximum, normaliser and
weighted sum, and computes: the scores `q · kᵀ` against the block's key columns (columns 0 to 63), the new maximum,
the rescaling factor `exp (m_old - m_new)`, the shifted exponentials, the new normaliser and the new weighted sum
against the block's value columns (columns 64 to 127). -/

section Block

/-- The bit pattern `0xFF800000` is `-∞`. -/
theorem ofBits_negInf_f32 : Ideal.ofBits .f32 0xFF800000#32 = (⊥ : EReal) := by
  simp [Ideal.ofBits, Ideal.ieee]

/-- The source index of a row reduction: row `y` with the reduced coordinate `k` put back. -/
theorem lift_row (y : Fin 2048) (k : Fin 512) : reduces_S2048x512_S2048.lift (ix1 y) k = ix2 y k :=
  funext fun c => Fin.ext (by
    match c with
    | ⟨0, _⟩ => rfl
    | ⟨1, _⟩ => rfl)

/-- A row maximum from `-∞`: the fold of `max` over the row. -/
theorem rowMax_apply (src : FVec Ideal S2048x512 .f32) (hφ : FKind.Formats .f32)
    (hacc : (0xFF800000#32 : BitVec 32) = 0xFF800000#32) (y : Fin 2048) :
    multiReduction (F := Ideal) .maximumf [1] S2048 src 0xFF800000#32 reduces_S2048x512_S2048 hφ hacc (ix1 y)
      = (Finset.univ : Finset (Fin 512)).fold max ⊥ (fun j => src (ix2 y j)) := by
  refine (Ideal.multiReduction_maximumf_single src 0xFF800000#32 reduces_S2048x512_S2048 hφ hacc (ix1 y)).trans ?_
  have e : (src ∘ reduces_S2048x512_S2048.lift (ix1 y)) = fun j : Fin 512 => src (ix2 y j) :=
    funext fun k => congrArg src (lift_row y k)
  exact congrArg₂ (fun (b : EReal) (f : Fin 512 → EReal) => (Finset.univ : Finset (Fin 512)).fold max b f) ofBits_negInf_f32 e

/-- A row sum from zero: the sum over the row. -/
theorem rowSum_apply (src : FVec Ideal S2048x512 .f32) (hφ : FKind.Formats .f32)
    (hacc : (0x00000000#32 : BitVec 32) = 0x00000000#32) (y : Fin 2048) :
    multiReduction (F := Ideal) .add [1] S2048 src 0x00000000#32 reduces_S2048x512_S2048 hφ hacc (ix1 y)
      = ∑ j : Fin 512, src (ix2 y j) := by
  refine (Ideal.multiReduction_add_single src 0x00000000#32 reduces_S2048x512_S2048 hφ hacc (ix1 y)).trans ?_
  exact Finset.sum_congr rfl fun k _ => congrArg src (lift_row y k)

/-- The key|value block without its unit axis. -/
theorem pay8_apply (x3 : Vec Ideal S1x512x128 .bf16) (j : Fin 512) (c : Fin 128) :
    k1_pay8 (F := Ideal) x3 (ix2 j c) = x3 (ix3 (0 : Fin 1) j c) := by
  unfold k1_pay8
  exact shapeCast_1ab_ab_apply x3 _ j c

/-- The score of query row `y` against key `j` of the block. -/
abbrev rowScore (x3 : Vec Ideal S1x512x128 .bf16) (q : Vec Ideal S2048x64 .bf16) (y : Fin 2048) (j : Fin 512) : EReal :=
  ∑ h : Fin 64, q (ix2 y h) * x3 (ix3 (0 : Fin 1) j (⟨h.val, by omega⟩ : Fin 128))

theorem pay9_apply (x3 : Vec Ideal S1x512x128 .bf16) (q : Vec Ideal S2048x64 .bf16) (y : Fin 2048) (j : Fin 512) :
    k1_pay9 (F := Ideal) x3 q (ix2 y j) = rowScore x3 q y j := by
  unfold k1_pay9
  refine (dotS_apply _ _ y j).trans ?_
  refine Finset.sum_congr rfl fun h _ => ?_
  refine congrArg (q (ix2 y h) * ·) ?_
  refine (slice2_axis1_apply 0 (k1_pay8 x3) _ j h (⟨h.val, by omega⟩ : Fin 128) (Nat.zero_add _).symm).trans ?_
  exact pay8_apply x3 j _

/-- The new running maximum. -/
theorem pay10_apply (x3 : Vec Ideal S1x512x128 .bf16) (q : Vec Ideal S2048x64 .bf16) (mo : Vec Ideal S2048x1 .f32) (y : Fin 2048) :
    k1_pay10 (F := Ideal) x3 q mo (ix2 y (0 : Fin 1))
      = max (mo (ix2 y (0 : Fin 1))) ((Finset.univ : Finset (Fin 512)).fold max ⊥ (rowScore x3 q y)) := by
  unfold k1_pay10
  rw [maximumf_apply]
  refine congrArg (max (mo (ix2 y (0 : Fin 1)))) ?_
  refine (shapeCast_a_a1_apply _ _ y (0 : Fin 1)).trans ?_
  refine (rowMax_apply _ _ _ y).trans ?_
  exact congrArg ((Finset.univ : Finset (Fin 512)).fold max ⊥) (funext fun j => pay9_apply x3 q y j)

/-- The rescaling factor. -/
theorem pay11_apply (x3 : Vec Ideal S1x512x128 .bf16) (q : Vec Ideal S2048x64 .bf16) (m9 m13 : Vec Ideal S2048x1 .f32) (y : Fin 2048) :
    k1_pay11 (F := Ideal) x3 q m9 m13 (ix2 y (0 : Fin 1))
      = Ideal.exp (m13 (ix2 y (0 : Fin 1)) - k1_pay10 (F := Ideal) x3 q m9 (ix2 y (0 : Fin 1))) := rfl

/-- The shifted exponentials. -/
theorem pay12_apply (x3 : Vec Ideal S1x512x128 .bf16) (q : Vec Ideal S2048x64 .bf16) (m9 : Vec Ideal S2048x1 .f32) (y : Fin 2048) (j : Fin 512) :
    k1_pay12 (F := Ideal) x3 q m9 (ix2 y j)
      = Ideal.exp (rowScore x3 q y j - k1_pay10 (F := Ideal) x3 q m9 (ix2 y (0 : Fin 1))) := by
  unfold k1_pay12
  show Ideal.exp (k1_pay9 x3 q (ix2 y j) - broadcastTo S2048x512 (k1_pay10 x3 q m9) _ (ix2 y j)) = _
  rw [pay9_apply, broadcastTo_a1_ab_apply]

/-- The new normaliser. -/
theorem pay13_apply (x3 : Vec Ideal S1x512x128 .bf16) (q : Vec Ideal S2048x64 .bf16) (m9 m13 l : Vec Ideal S2048x1 .f32) (y : Fin 2048) :
    k1_pay13 (F := Ideal) x3 q m9 m13 l (ix2 y (0 : Fin 1))
      = k1_pay11 (F := Ideal) x3 q m9 m13 (ix2 y (0 : Fin 1)) * l (ix2 y (0 : Fin 1))
        + ∑ j : Fin 512, k1_pay12 (F := Ideal) x3 q m9 (ix2 y j) := by
  unfold k1_pay13
  rw [shapeCast_self, addf_apply, mulf_apply]
  refine congrArg (k1_pay11 (F := Ideal) x3 q m9 m13 (ix2 y (0 : Fin 1)) * l (ix2 y (0 : Fin 1)) + ·) ?_
  refine (shapeCast_a_a1_apply _ _ y (0 : Fin 1)).trans ?_
  exact rowSum_apply _ _ _ y

/-- The new weighted sum. -/
theorem pay14_apply (x3 : Vec Ideal S1x512x128 .bf16) (q : Vec Ideal S2048x64 .bf16) (m9 m13 : Vec Ideal S2048x1 .f32)
    (ao : Vec Ideal S2048x64 .f32) (y : Fin 2048) (h : Fin 64) :
    k1_pay14 (F := Ideal) x3 q m9 m13 ao (ix2 y h)
      = k1_pay11 (F := Ideal) x3 q m9 m13 (ix2 y (0 : Fin 1)) * ao (ix2 y h)
        + ∑ j : Fin 512, k1_pay12 (F := Ideal) x3 q m9 (ix2 y j) * x3 (ix3 (0 : Fin 1) j (⟨64 + h.val, by omega⟩ : Fin 128)) := by
  unfold k1_pay14
  rw [addf_apply, mulf_apply, broadcastTo_a1_ab_apply, dotQ_apply]
  refine congrArg (k1_pay11 (F := Ideal) x3 q m9 m13 (ix2 y (0 : Fin 1)) * ao (ix2 y h) + ·) (Finset.sum_congr rfl fun j _ => ?_)
  rw [truncf_apply]
  refine congrArg (k1_pay12 (F := Ideal) x3 q m9 (ix2 y j) * ·) ?_
  refine (slice2_axis1_apply 64 (k1_pay8 x3) _ j h (⟨64 + h.val, by omega⟩ : Fin 128) rfl).trans ?_
  exact pay8_apply x3 j _

/-- The recurrence's step on row `y`: from the row's old state, over the block's scores and values. -/
abbrev rowStep (x3 : Vec Ideal S1x512x128 .bf16) (q : Vec Ideal S2048x64 .bf16) (mo lo : Vec Ideal S2048x1 .f32)
    (ao : Vec Ideal S2048x64 .f32) (y : Fin 2048) : Cert.Attn.St :=
  (⟨mo (ix2 y (0 : Fin 1)), lo (ix2 y (0 : Fin 1)), fun h => ao (ix2 y h)⟩ : Cert.Attn.St).step
    (fun j => ∑ h : Fin 64, q (ix2 y h) * x3 (ix3 (0 : Fin 1) j (⟨h.val, by omega⟩ : Fin 128)))
    (fun j h => x3 (ix3 (0 : Fin 1) j (⟨64 + h.val, by omega⟩ : Fin 128)))

/-- One loop body on one row is one step of the recurrence: the new maximum, normaliser and weighted sum the body
    stores are the step's. -/
theorem step_row (x3 : Vec Ideal S1x512x128 .bf16) (q : Vec Ideal S2048x64 .bf16) (mo lo : Vec Ideal S2048x1 .f32)
    (ao : Vec Ideal S2048x64 .f32) (y : Fin 2048) :
    k1_pay2 (F := Ideal) (k1_pay10 x3 q mo) (ix2 y (0 : Fin 1)) = (rowStep x3 q mo lo ao y).m
      ∧ k1_pay13 (F := Ideal) x3 q mo mo lo (ix2 y (0 : Fin 1)) = (rowStep x3 q mo lo ao y).l
      ∧ ∀ h : Fin 64, k1_pay1 (F := Ideal) (k1_pay14 x3 q mo mo ao) (ix2 y h) = (rowStep x3 q mo lo ao y).acc h := by
  have hm : k1_pay10 (F := Ideal) x3 q mo (ix2 y (0 : Fin 1)) = (rowStep x3 q mo lo ao y).m := pay10_apply x3 q mo y
  refine ⟨?_, ?_, ?_⟩
  · unfold k1_pay2
    rw [shapeCast_self]
    exact hm
  · rw [pay13_apply, pay11_apply]
    simp only [pay12_apply]
    rw [hm]
    rfl
  · intro h
    unfold k1_pay1
    rw [shapeCast_self, pay14_apply, pay11_apply]
    simp only [pay12_apply]
    rw [hm]
    rfl

end Block

end Cert.KernelIdeal.PayVal

end
-- ==== Proof.KernelIdealValue1.lean ====
/-
  The attention region's result, one query row at a time. Fix a batch `b` and a query row `s`. The 8 points that
  share them visit the key blocks in order, and after the point of key block `k` the four scratch buffers hold, at
  the row, exactly the state of the blockwise recurrence of the specification after `k + 1` blocks: the scaled query
  projection (stored once, at key block 0), the running maximum, the running normaliser and the running weighted sum.
  A point of key block 0 starts from the initial state (-∞, 0, 0); every other point steps from what the point before
  left. At key block 7 the stored tile is the quotient of the last two, which is the recurrence's result.
-/
import proofs.«132332_j31885837205648_2_alg».proof.Proof.KernelIdealValue0
import proofs.«132332_j31885837205648_2_alg».proof.Proof.PayloadIdeal2

set_option maxRecDepth 16384

noncomputable section

namespace Cert.KernelIdeal.Val

open Cert.KernelIdeal Cert.KernelIdeal.Gen Cert.KernelIdeal.Fr Cert.KernelIdeal.PayVal
open Idealize.ShloMosaic Idealize.ShloMosaic.TcCoe Idealize.ShloMosaic.ValueIdx
open Idealize.SL Idealize.SL.Sem
open Idealize.ShloMosaic.Pipeline (Dat Cfg Window)
open Cert.Attn (St key)

variable (m : (ℓ : Loc nD τ sig) → Buf (Elt Ideal) ℓ) (ρ : Dev nD → PrngReg) (c : Dev nD)

/-- The scores of query row `s` of batch `b` against key `j` of block `k`, and the values of that key. -/
abbrev Sc (b : Fin 4) (s : Fin 4096) : Fin 8 → Fin 512 → EReal :=
  fun k j => Cert.Attn.kScore (aX m c) (aWq m c) (aBq m c) (aWk m c) (aBk m c) b s (key k j)
abbrev Vl (b : Fin 4) : Fin 8 → Fin 512 → Fin 64 → EReal :=
  fun k j h => Cert.Attn.proj (aX m c) (aWv m c) (aBv m c) b (key k j) h

/-! ## The blocks the attention body reads, in the specification's terms -/

theorem xq_read (t : Fin cfg1.N) (y : Fin 2048) (i : Fin 512) (b : Fin 4) (s : Fin 4096)
    (hb : b.val = t.val / 16) (hs : s.val = t.val / 8 % 2 * 2048 + y.val) :
    (iblk1 (V3 m ρ) c 0 t : S1x2048x512.Idx → EReal) (ix3 (0 : Fin 1) y i) = aX m c b s i := by
  rw [iblk1_0_apply (V3 m ρ) c t y i b s hb hs, hvx m ρ c b s i]

theorem wq_read (t : Fin cfg1.N) (i : Fin 512) (h : Fin 64) :
    (iblk1 (V3 m ρ) c 1 t : S512x64.Idx → EReal) (ix2 i h) = aWq m c i h * Cert.Attn.kScale := by
  rw [iblk1_1_apply (V3 m ρ) c t i h, hv1 m ρ c i h]

theorem bq_read (t : Fin cfg1.N) (h : Fin 64) :
    (iblk1 (V3 m ρ) c 2 t : S1x64.Idx → EReal) (ix2 (0 : Fin 1) h) = aBq m c h * Cert.Attn.kScale := by
  rw [iblk1_2_apply (V3 m ρ) c t h, hv4 m ρ c h]

theorem key_read (t : Fin cfg1.N) (j : Fin 512) (h : Fin 64) (b : Fin 4) (k : Fin 8)
    (hb : b.val = t.val / 16) (hk : k.val = t.val % 8) :
    (iblk1 (V3 m ρ) c 3 t : S1x512x128.Idx → EReal) (ix3 (0 : Fin 1) j (⟨h.val, by omega⟩ : Fin 128))
      = Cert.Attn.proj (aX m c) (aWk m c) (aBk m c) b (key k j) h := by
  have hs : (key k j).val = t.val % 8 * 512 + j.val := by show k.val * 512 + j.val = _; rw [hk]
  rw [iblk1_3_apply (V3 m ρ) c t j _ b (key k j) hb hs,
    hv10 m ρ c b (key k j) _ ⟨b.val * 4096 + (key k j).val, by have := (key k j).isLt; omega⟩ rfl,
    kv_key m ρ c b (key k j) h _ rfl]

theorem val_read (t : Fin cfg1.N) (j : Fin 512) (h : Fin 64) (b : Fin 4) (k : Fin 8)
    (hb : b.val = t.val / 16) (hk : k.val = t.val % 8) :
    (iblk1 (V3 m ρ) c 3 t : S1x512x128.Idx → EReal) (ix3 (0 : Fin 1) j (⟨64 + h.val, by omega⟩ : Fin 128))
      = Cert.Attn.proj (aX m c) (aWv m c) (aBv m c) b (key k j) h := by
  have hs : (key k j).val = t.val % 8 * 512 + j.val := by show k.val * 512 + j.val = _; rw [hk]
  rw [iblk1_3_apply (V3 m ρ) c t j _ b (key k j) hb hs,
    hv10 m ρ c b (key k j) _ ⟨b.val * 4096 + (key k j).val, by have := (key k j).isLt; omega⟩ rfl,
    kv_val m ρ c b (key k j) h _ rfl]

/-! ## One block folded into a row's state -/

/-- A row's state read off the three running scratches. -/
abbrev rowSt (mo lo : Vec Ideal S2048x1 .f32) (ao : Vec Ideal S2048x64 .f32) (y : Fin 2048) : St :=
  ⟨mo (ix2 y (0 : Fin 1)), lo (ix2 y (0 : Fin 1)), fun h => ao (ix2 y h)⟩

/-- THE STEP. If the query scratch holds the scaled query projection at the row, the three running scratches hold
    the recurrence's state after `n1` blocks, and the key|value block `x3` holds block `n1`'s key and value
    projections, then what the body computes from them is the state after `n1 + 1` blocks. -/
theorem row_step (x3 : Vec Ideal S1x512x128 .bf16) (y : Fin 2048) (b : Fin 4) (s : Fin 4096) (n1 : ℕ) (hn1 : n1 < 8)
    (hK : ∀ (j : Fin 512) (h : Fin 64), x3 (ix3 (0 : Fin 1) j (⟨h.val, by omega⟩ : Fin 128))
      = Cert.Attn.proj (aX m c) (aWk m c) (aBk m c) b (key ⟨n1, hn1⟩ j) h)
    (hV : ∀ (j : Fin 512) (h : Fin 64), x3 (ix3 (0 : Fin 1) j (⟨64 + h.val, by omega⟩ : Fin 128))
      = Cert.Attn.proj (aX m c) (aWv m c) (aBv m c) b (key ⟨n1, hn1⟩ j) h)
    (q : Vec Ideal S2048x64 .bf16) (mo lo : Vec Ideal S2048x1 .f32) (ao : Vec Ideal S2048x64 .f32)
    (hq : ∀ h : Fin 64, q (ix2 y h) = Cert.Attn.kProjQ (aX m c) (aWq m c) (aBq m c) b s h)
    (hst : rowSt mo lo ao y = St.after (Sc m c b s) (Vl m c b) n1 (Nat.le_of_lt hn1)) :
    k1_pay2 (F := Ideal) (k1_pay10 x3 q mo) (ix2 y (0 : Fin 1)) = (St.after (Sc m c b s) (Vl m c b) (n1 + 1) hn1).m
    ∧ k1_pay13 (F := Ideal) x3 q mo mo lo (ix2 y (0 : Fin 1)) = (St.after (Sc m c b s) (Vl m c b) (n1 + 1) hn1).l
    ∧ ∀ h : Fin 64, k1_pay1 (F := Ideal) (k1_pay14 x3 q mo mo ao) (ix2 y h) = (St.after (Sc m c b s) (Vl m c b) (n1 + 1) hn1).acc h := by
  have hS : (fun j : Fin 512 => ∑ h : Fin 64, q (ix2 y h) * x3 (ix3 (0 : Fin 1) j (⟨h.val, by omega⟩ : Fin 128)))
      = Sc m c b s ⟨n1, hn1⟩ := by
    funext j
    show _ = Cert.Attn.kScore _ _ _ _ _ b s (key ⟨n1, hn1⟩ j)
    unfold Cert.Attn.kScore
    refine Finset.sum_congr rfl fun h _ => ?_
    rw [hq h, hK j h]
  have hVl : (fun (j : Fin 512) (h : Fin 64) => x3 (ix3 (0 : Fin 1) j (⟨64 + h.val, by omega⟩ : Fin 128)))
      = Vl m c b ⟨n1, hn1⟩ := by
    funext j h
    exact hV j h
  have key := step_row x3 q mo lo ao y
  have hrs : rowStep x3 q mo lo ao y = St.after (Sc m c b s) (Vl m c b) (n1 + 1) hn1 := by
    show (rowSt mo lo ao y).step _ _ = _
    rw [hS, hVl, hst]
    rfl
  rw [hrs] at key
  exact key

/-! ## The three cases, row by row -/

/-- What the scratches hold for a row, against the recurrence after `n1` blocks. -/
def RowInv (b : Fin 4) (s : Fin 4096) (n1 : ℕ) (hn1 : n1 ≤ 8) (y : Fin 2048) (p : (Vec Ideal S1x2048x64 .f32 × Vec Ideal S2048x64 .bf16 × Vec Ideal S2048x1 .f32 × Vec Ideal S2048x1 .f32 × Vec Ideal S2048x64 .f32)) : Prop :=
  (∀ h : Fin 64, p.2.1 (ix2 y h) = Cert.Attn.kProjQ (aX m c) (aWq m c) (aBq m c) b s h)
  ∧ rowSt p.2.2.1 p.2.2.2.1 p.2.2.2.2 y = St.after (Sc m c b s) (Vl m c b) n1 hn1

theorem St_ext {a b : St} (hm : a.m = b.m) (hl : a.l = b.l) (ha : ∀ h, a.acc h = b.acc h) : a = b := by
  cases a; cases b; simp only [St.mk.injEq]; exact ⟨hm, hl, funext ha⟩

/-- A point of key block 0: the state after one block. -/
theorem caseA_row (t : Fin cfg1.N) (hc0 : cond1_0 (grid1.coords t)) (hc1 : ¬cond1_1 (grid1.coords t)) (h0 : t.val % 8 = 0)
    (y : Fin 2048) (b : Fin 4) (s : Fin 4096) (hb : b.val = t.val / 16) (hs : s.val = t.val / 8 % 2 * 2048 + y.val) :
    RowInv m c b s 1 (by omega) y (caseA1 (V3 m ρ) c t hc0 hc1) := by
  have hq : ∀ h : Fin 64, k1_pay4 (F := Ideal) (iblk1 (V3 m ρ) c 0 t) (iblk1 (V3 m ρ) c 1 t) (iblk1 (V3 m ρ) c 2 t) (ix2 y h)
      = Cert.Attn.kProjQ (aX m c) (aWq m c) (aBq m c) b s h := fun h => by
    refine (pay4_apply (iblk1 (V3 m ρ) c 0 t) (iblk1 (V3 m ρ) c 1 t) (iblk1 (V3 m ρ) c 2 t) y h).trans ?_
    unfold Cert.Attn.kProjQ
    rw [bq_read m ρ c t h]
    refine congrArg (· + _) (Finset.sum_congr rfl fun i _ => ?_)
    rw [xq_read m ρ c t y i b s hb hs, wq_read m ρ c t i h]
  have hinit : rowSt (k1_pay5 (F := Ideal)) (k1_pay6 (F := Ideal)) (k1_pay7 (F := Ideal)) y = St.after (Sc m c b s) (Vl m c b) 0 (Nat.zero_le _) := by
    refine St_ext ?_ ?_ fun h => ?_
    · exact pay5_apply y
    · exact pay6_apply y
    · exact pay7_apply y h
  obtain ⟨r1, r2, r3⟩ := row_step m c (iblk1 (V3 m ρ) c 3 t) y b s 0 (by omega)
    (fun j h => key_read m ρ c t j h b ⟨0, by omega⟩ hb (by show 0 = t.val % 8; omega))
    (fun j h => val_read m ρ c t j h b ⟨0, by omega⟩ hb (by show 0 = t.val % 8; omega)) _ _ _ _ hq hinit
  unfold RowInv caseA1
  dsimp only
  rw [pieceA_0, pieceA_1, pieceA_2, pieceA_3]
  exact ⟨hq, St_ext r1 r2 r3⟩

/-- A point of key blocks 1 to 6: one more block. -/
theorem caseB_row (t : Fin cfg1.N) (hc0 : ¬cond1_0 (grid1.coords t)) (hc1 : ¬cond1_1 (grid1.coords t))
    (y : Fin 2048) (b : Fin 4) (s : Fin 4096) (hb : b.val = t.val / 16) (n1 : ℕ) (hn1 : n1 < 8) (hk : n1 = t.val % 8)
    (p : (Vec Ideal S1x2048x64 .f32 × Vec Ideal S2048x64 .bf16 × Vec Ideal S2048x1 .f32 × Vec Ideal S2048x1 .f32 × Vec Ideal S2048x64 .f32)) (hp : RowInv m c b s n1 (Nat.le_of_lt hn1) y p) :
    RowInv m c b s (n1 + 1) hn1 y (caseB1 (V3 m ρ) c t hc0 hc1 p) := by
  obtain ⟨r1, r2, r3⟩ := row_step m c (iblk1 (V3 m ρ) c 3 t) y b s n1 hn1
    (fun j h => key_read m ρ c t j h b ⟨n1, hn1⟩ hb hk) (fun j h => val_read m ρ c t j h b ⟨n1, hn1⟩ hb hk)
    p.2.1 p.2.2.1 p.2.2.2.1 p.2.2.2.2 hp.1 hp.2
  unfold RowInv caseB1
  dsimp only
  rw [pieceB_1, pieceB_2, pieceB_3]
  exact ⟨hp.1, St_ext r1 r2 r3⟩

/-- A point of key block 7: one more block, and the stored tile is the quotient. -/
theorem caseC_row (t : Fin cfg1.N) (hc0 : ¬cond1_0 (grid1.coords t)) (hc1 : cond1_1 (grid1.coords t))
    (y : Fin 2048) (b : Fin 4) (s : Fin 4096) (hb : b.val = t.val / 16) (n1 : ℕ) (hn1 : n1 < 8) (hk : n1 = t.val % 8)
    (p : (Vec Ideal S1x2048x64 .f32 × Vec Ideal S2048x64 .bf16 × Vec Ideal S2048x1 .f32 × Vec Ideal S2048x1 .f32 × Vec Ideal S2048x64 .f32)) (hp : RowInv m c b s n1 (Nat.le_of_lt hn1) y p) :
    RowInv m c b s (n1 + 1) hn1 y (caseC1 (V3 m ρ) c t hc0 hc1 p)
    ∧ ∀ h : Fin 64, (caseC1 (V3 m ρ) c t hc0 hc1 p).1 (ix3 (0 : Fin 1) y h)
        = Ideal.div ((St.after (Sc m c b s) (Vl m c b) (n1 + 1) hn1).acc h) (St.after (Sc m c b s) (Vl m c b) (n1 + 1) hn1).l := by
  obtain ⟨r1, r2, r3⟩ := row_step m c (iblk1 (V3 m ρ) c 3 t) y b s n1 hn1
    (fun j h => key_read m ρ c t j h b ⟨n1, hn1⟩ hb hk) (fun j h => val_read m ρ c t j h b ⟨n1, hn1⟩ hb hk)
    p.2.1 p.2.2.1 p.2.2.2.1 p.2.2.2.2 hp.1 hp.2
  constructor
  · unfold RowInv caseC1
    dsimp only
    rw [pieceC_1, pieceC_2, pieceC_3]
    exact ⟨hp.1, St_ext r1 r2 r3⟩
  · intro h
    unfold caseC1
    dsimp only
    rw [pieceC_4]
    refine (pay3_apply _ _ y h).trans ?_
    rw [r3 h, r2]

end Cert.KernelIdeal.Val

end
-- ==== Proof.KernelIdealValue2.lean ====
/-
  The attention region's result as one array, and the program's run with its result named. By induction on the point
  number, after the point of key block `k` every query row of the tile holds the recurrence's state after `k + 1`
  blocks; so at key block 7 the tile written back is the blockwise attention of the specification, row by row. The 8
  write-backs (one per batch and query tile) tile the result array, so it ends holding that function of the seven
  argument arrays.
-/
import proofs.«132332_j31885837205648_2_alg».proof.Proof.KernelIdealValue1

set_option maxRecDepth 16384

noncomputable section

namespace Cert.KernelIdeal.Val

open Cert.KernelIdeal Cert.KernelIdeal.Gen Cert.KernelIdeal.Fr Cert.KernelIdeal.PayVal
open Idealize.ShloMosaic Idealize.ShloMosaic.TcCoe Idealize.ShloMosaic.ValueIdx
open Idealize.SL Idealize.SL.Sem
open Idealize.ShloMosaic.Pipeline (Dat Cfg Window)
open Cert.Attn (St key)

variable (m : (ℓ : Loc nD τ sig) → Buf (Elt Ideal) ℓ) (ρ : Dev nD → PrngReg) (c : Dev nD)

/-! ## The recursion over the points, unfolded one step -/

section Outs
variable (V : (c : Dev nD) → (b : Ref sig .tc) → Buf (Elt Ideal) ((c : Thread nD τ).loc b))

theorem outs_succ_A (n : ℕ) (hn : n + 1 < cfg1.N) (h0 : (n + 1) % 8 = 0) (h1 : ¬(n + 1) % 8 = 7) :
    outsAt1 V c (n + 1) hn = caseA1 V c ⟨n + 1, hn⟩ ((hcond1_0 ⟨n + 1, hn⟩).mpr h0) (fun h => h1 ((hcond1_1 ⟨n + 1, hn⟩).mp h)) :=
  (dif_pos h0).trans ((dif_neg h1).trans rfl)
theorem outs_succ_B (n : ℕ) (hn : n + 1 < cfg1.N) (h0 : ¬(n + 1) % 8 = 0) (h1 : ¬(n + 1) % 8 = 7) :
    outsAt1 V c (n + 1) hn = caseB1 V c ⟨n + 1, hn⟩ (fun h => h0 ((hcond1_0 ⟨n + 1, hn⟩).mp h)) (fun h => h1 ((hcond1_1 ⟨n + 1, hn⟩).mp h)) (outsAt1 V c n (Nat.lt_of_succ_lt hn)) :=
  (dif_neg h0).trans ((dif_neg h1).trans rfl)
theorem outs_succ_C (n : ℕ) (hn : n + 1 < cfg1.N) (h0 : ¬(n + 1) % 8 = 0) (h1 : (n + 1) % 8 = 7) :
    outsAt1 V c (n + 1) hn = caseC1 V c ⟨n + 1, hn⟩ (fun h => h0 ((hcond1_0 ⟨n + 1, hn⟩).mp h)) ((hcond1_1 ⟨n + 1, hn⟩).mpr h1) (outsAt1 V c n (Nat.lt_of_succ_lt hn)) :=
  (dif_neg h0).trans ((dif_pos h1).trans rfl)

end Outs

theorem after_congr (S : Fin 8 → Fin 512 → EReal) (V : Fin 8 → Fin 512 → Fin 64 → EReal) (a b : ℕ) (e : a = b) (ha : a ≤ 8) (hb : b ≤ 8) :
    St.after S V a ha = St.after S V b hb := by subst e; rfl

/-! ## Every row after every point -/

/-- After point `n` (batch `n / 16`, query tile `n / 8 % 2`, key block `n % 8`) row `y` of the tile holds the
    recurrence's state after `n % 8 + 1` blocks. -/
theorem inv (n : ℕ) : ∀ (hn : n < cfg1.N) (y : Fin 2048) (b : Fin 4) (s : Fin 4096) (hb : b.val = n / 16)
    (hs : s.val = n / 8 % 2 * 2048 + y.val) (n1 : ℕ) (hn1 : n1 ≤ 8) (e : n1 = n % 8 + 1),
    RowInv m c b s n1 hn1 y (outsAt1 (V3 m ρ) c n hn) := by
  induction n with
  | zero =>
    intro hn y b s hb hs n1 hn1 e
    have e1 : n1 = 1 := by omega
    subst e1
    exact caseA_row m ρ c ⟨0, hn⟩ _ _ (Nat.zero_mod 8) y b s hb hs
  | succ n ih =>
    intro hn y b s hb hs n1 hn1 e
    have hN : n + 1 < 64 := lt_of_lt_of_eq hn N_1
    by_cases h0 : (n + 1) % 8 = 0
    · have h1 : ¬(n + 1) % 8 = 7 := by omega
      rw [outs_succ_A c (V3 m ρ) n hn h0 h1]
      have e1 : n1 = 1 := by omega
      subst e1
      exact caseA_row m ρ c ⟨n + 1, hn⟩ _ _ h0 y b s hb hs
    · have hb' : b.val = n / 16 := by omega
      have hs' : s.val = n / 8 % 2 * 2048 + y.val := by omega
      have e' : n1 = (n % 8 + 1) + 1 := by omega
      subst e'
      have ihn := ih (Nat.lt_of_succ_lt hn) y b s hb' hs' (n % 8 + 1) (by omega) rfl
      by_cases h1 : (n + 1) % 8 = 7
      · rw [outs_succ_C c (V3 m ρ) n hn h0 h1]
        exact (caseC_row m ρ c ⟨n + 1, hn⟩ _ _ y b s hb (n % 8 + 1) (by omega) (by show n % 8 + 1 = (n + 1) % 8; omega) _ ihn).1
      · rw [outs_succ_B c (V3 m ρ) n hn h0 h1]
        exact caseB_row m ρ c ⟨n + 1, hn⟩ _ _ y b s hb (n % 8 + 1) (by omega) (by show n % 8 + 1 = (n + 1) % 8; omega) _ ihn

/-- At a point of key block 7 the tile stored is the specification's blockwise attention, row by row. -/
theorem out_last (n : ℕ) (hn : n < cfg1.N) (h7 : n % 8 = 7) (y : Fin 2048) (b : Fin 4) (s : Fin 4096) (hb : b.val = n / 16)
    (hs : s.val = n / 8 % 2 * 2048 + y.val) (h : Fin 64) :
    (outsAt1 (V3 m ρ) c n hn).1 (ix3 (0 : Fin 1) y h) = Cert.Attn.kOut (aX m c) (aWq m c) (aBq m c) (aWk m c) (aBk m c) (aWv m c) (aBv m c) b s h := by
  obtain ⟨n', rfl⟩ : ∃ n', n = n' + 1 := ⟨n - 1, by omega⟩
  have hN : n' + 1 < 64 := lt_of_lt_of_eq hn N_1
  have h0 : ¬(n' + 1) % 8 = 0 := by omega
  have hb' : b.val = n' / 16 := by omega
  have hs' : s.val = n' / 8 % 2 * 2048 + y.val := by omega
  have ihn := inv m ρ c n' (Nat.lt_of_succ_lt hn) y b s hb' hs' (n' % 8 + 1) (by omega) rfl
  rw [outs_succ_C c (V3 m ρ) n' hn h0 h7]
  rw [(caseC_row m ρ c ⟨n' + 1, hn⟩ _ _ y b s hb (n' % 8 + 1) (by omega) (by show n' % 8 + 1 = (n' + 1) % 8; omega) _ ihn).2 h]
  rw [after_congr (Sc m c b s) (Vl m c b) (n' % 8 + 1 + 1) 8 (by omega) _ le_rfl]
  rfl

/-! ## The result array -/

/-- The attention of the specification's blockwise form, as one array of the seven argument arrays. -/
def G1 : S4x4096x64.Idx → EReal := fun i =>
  Cert.Attn.kOut (aX m c) (aWq m c) (aBq m c) (aWk m c) (aBk m c) (aWv m c) (aBv m c) ⟨(i 0).val, (i 0).isLt⟩ ⟨(i 1).val, (i 1).isLt⟩ ⟨(i 2).val, (i 2).isLt⟩

theorem G1_apply (b : Fin 4) (s : Fin 4096) (h : Fin 64) : G1 m c (ix3 b s h) = Cert.Attn.kOut (aX m c) (aWq m c) (aBq m c) (aWk m c) (aBk m c) (aWv m c) (aBv m c) b s h := rfl

/-- What a point of key block 7 writes back is its tile of `G1`. -/
theorem flushed1_eq (t : Fin cfg1.N) (hf : (cfg1.win 4).flush t = true) :
    (dat1 (V3 m ρ) c).flushed 4 t = ((cfg1.win 4).blk t).view.read (Elt Ideal) (G1 m c) := by
  have h7 : t.val % 8 = 7 := (flush1_4 t).mp hf
  have hN : t.val < 64 := lt_of_lt_of_eq t.isLt N_1
  show (cfg1.win 4).cut (grid1.coords t) ((dat1 (V3 m ρ) c).after 4 t) = _
  rw [after1_4]
  funext j
  obtain ⟨z, y, h, rfl⟩ : ∃ (z : Fin 1) (y : Fin 2048) (h : Fin 64), j = ix3 z y h := ⟨j 0, j 1, j 2, eq_ix3 j⟩
  obtain rfl : z = 0 := Subsingleton.elim _ _
  show (outsAt1 (V3 m ρ) c t.val t.isLt).1 (ix3 (0 : Fin 1) y h) = G1 m c (((cfg1.win 4).blk t).view.emb (ix3 (0 : Fin 1) y h))
  rw [emb1_4 t y h ⟨t.val / 16, by omega⟩ ⟨t.val / 8 % 2 * 2048 + y.val, by omega⟩ rfl rfl, G1_apply]
  exact out_last m ρ c t.val t.isLt h7 y _ _ rfl rfl h

/-- The result array after the run. -/
theorem final1 : (dat1 (V3 m ρ) c).arrAt 4 cfg1.N = G1 m c :=
  (dat1 (V3 m ρ) c).arrAt_eq_of_cover 4 (G1 m c) (fun t hf => flushed1_eq m ρ c t hf) (fun i => by
    obtain ⟨b, s, h, rfl⟩ : ∃ (b : Fin 4) (s : Fin 4096) (h : Fin 64), i = ix3 b s h := ⟨i 0, i 1, i 2, eq_ix3 i⟩
    have hN : cfg1.N = 64 := N_1
    have hlt : b.val * 16 + s.val / 2048 * 8 + 7 < cfg1.N := by rw [hN]; omega
    refine ⟨⟨b.val * 16 + s.val / 2048 * 8 + 7, hlt⟩, (flush1_4 _).mpr (by show (b.val * 16 + s.val / 2048 * 8 + 7) % 8 = 7; omega), ?_⟩
    have hmem := ((cfg1.win 4).blk ⟨b.val * 16 + s.val / 2048 * 8 + 7, hlt⟩).view.emb_mem_set (ix3 (0 : Fin 1) (⟨s.val % 2048, by omega⟩ : Fin 2048) h)
    rw [emb1_4 ⟨b.val * 16 + s.val / 2048 * 8 + 7, hlt⟩ ⟨s.val % 2048, by omega⟩ h b s
      (by show b.val = (b.val * 16 + s.val / 2048 * 8 + 7) / 16; omega)
      (by show s.val = (b.val * 16 + s.val / 2048 * 8 + 7) / 8 % 2 * 2048 + s.val % 2048; omega)] at hmem
    exact hmem)

/-! ## The run, read -/

/-- Every weakly fair execution of the idealized kernel program terminates with the result array at `G1` of the
    argument arrays and the arguments as launched. -/
theorem run_value : θ_run (defs (F := Ideal)) (onTc (τ := τ) (main (F := Ideal))) ⟨m, fun _ => 0, ρ⟩ (fun r => ∀ c : Dev nD,
      r.2.mem ((c.tc : Thread nD τ).loc main_v11) = G1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c _ (mem_uc main_v11 (by decide))).trans (W4_main_v11 m ρ c)).trans (final1 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩) (run_all m ρ)

end Cert.KernelIdeal.Val

end
-- ==== Proof.RefValue.lean ====
/-
  The reference's result, index by index, is the closed-form softmax attention of the specification.

  The reference computes three linear projections of the input rows (queries, keys, values), the scores
  `(q · k) · (1 / sqrt 64)`, and a softmax written out: the row maximum (a maximum against `-∞` of a
  maximum-reduction from `-∞`), the shifted exponentials, their sum from zero, the quotient, and the
  weighted sum of the value rows. Read at an index, each of these stages is the corresponding piece of
  `Cert.Attn.refOut`; nothing is rearranged, so no arithmetic law is used: only the index functions of the
  stages are identified with coordinates.
-/
import proofs.«132332_j31885837205648_2_alg».proof.Proof.Gen.ReferenceIdeal.Read
import proofs.«132332_j31885837205648_2_alg».proof.Proof.AttnSpec
import proofs.«132332_j31885837205648_2_alg».proof.Defs
import proofs.«132332_j31885837205648_2_alg».proof.Proof.Gen.Pre_finite_inputs
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.TcCoe Idealize.SL.Sem
open Cert.ReferenceIdeal Cert.ReferenceIdeal.Gen Cert.ReferenceIdeal.Read
open Idealize.ShloMosaic.ValueIdx

/-- The input rows by coordinates. -/
abbrev X (a0 : (⟨S4x4096x512, .f32⟩ : BufTy).Contents (Elt Ideal)) : Fin 4 → Fin 4096 → Fin 512 → EReal :=
  fun b s i => a0 (ix3 b s i)
/-- A weight matrix by coordinates. -/
abbrev W (a : (⟨S512x64, .f32⟩ : BufTy).Contents (Elt Ideal)) : Fin 512 → Fin 64 → EReal :=
  fun i h => a (ix2 i h)
/-- A bias vector by coordinates. -/
abbrev B (a : (⟨S64, .f32⟩ : BufTy).Contents (Elt Ideal)) : Fin 64 → EReal :=
  fun h => a (ix1 h)

/-! ## The three projections -/

/-- The query projection at (b, s, h): the row's product with the weight column, plus the bias entry. -/
theorem projQ_eq (a0 : (⟨S4x4096x512, .f32⟩ : BufTy).Contents (Elt Ideal)) (a1 : (⟨S512x64, .f32⟩ : BufTy).Contents (Elt Ideal))
    (a2 : (⟨S64, .f32⟩ : BufTy).Contents (Elt Ideal)) (b : Fin 4) (s : Fin 4096) (h : Fin 64) :
    val_main_v3 (F := Ideal) a0 a1 a2 (ix3 b s h) = Cert.Attn.proj (X a0) (W a1) (B a2) b s h := by
  have el : ∀ k : Fin 512, lidx_main_v0 (ix3 b s h) k = ix3 b s k := fun k => funext fun a => Fin.ext (by
    match a with | ⟨0, _⟩ => rfl | ⟨1, _⟩ => rfl | ⟨2, _⟩ => rfl)
  have er : ∀ k : Fin 512, ridx_main_v0 (ix3 b s h) k = ix2 k h := fun k => funext fun a => Fin.ext (by
    match a with | ⟨0, _⟩ => rfl | ⟨1, _⟩ => rfl)
  have eb : idx_main_v1 (idx_main_v2 (ix3 b s h)) = ix1 h := funext fun a => Fin.ext (by
    match a with | ⟨0, _⟩ => rfl)
  rw [val_main_v3_apply, val_main_v0_apply, val_main_v2_apply, val_main_v1_apply, eb]
  simp only [el, er, Ideal.addf_def]
  rfl

/-- The key projection at (b, s, h). -/
theorem projK_eq (a0 : (⟨S4x4096x512, .f32⟩ : BufTy).Contents (Elt Ideal)) (a3 : (⟨S512x64, .f32⟩ : BufTy).Contents (Elt Ideal))
    (a4 : (⟨S64, .f32⟩ : BufTy).Contents (Elt Ideal)) (b : Fin 4) (s : Fin 4096) (h : Fin 64) :
    val_main_v7 (F := Ideal) a0 a3 a4 (ix3 b s h) = Cert.Attn.proj (X a0) (W a3) (B a4) b s h := by
  have el : ∀ k : Fin 512, lidx_main_v4 (ix3 b s h) k = ix3 b s k := fun k => funext fun a => Fin.ext (by
    match a with | ⟨0, _⟩ => rfl | ⟨1, _⟩ => rfl | ⟨2, _⟩ => rfl)
  have er : ∀ k : Fin 512, ridx_main_v4 (ix3 b s h) k = ix2 k h := fun k => funext fun a => Fin.ext (by
    match a with | ⟨0, _⟩ => rfl | ⟨1, _⟩ => rfl)
  have eb : idx_main_v5 (idx_main_v6 (ix3 b s h)) = ix1 h := funext fun a => Fin.ext (by
    match a with | ⟨0, _⟩ => rfl)
  rw [val_main_v7_apply, val_main_v4_apply, val_main_v6_apply, val_main_v5_apply, eb]
  simp only [el, er, Ideal.addf_def]
  rfl

/-- The value projection at (b, s, h). -/
theorem projV_eq (a0 : (⟨S4x4096x512, .f32⟩ : BufTy).Contents (Elt Ideal)) (a5 : (⟨S512x64, .f32⟩ : BufTy).Contents (Elt Ideal))
    (a6 : (⟨S64, .f32⟩ : BufTy).Contents (Elt Ideal)) (b : Fin 4) (s : Fin 4096) (h : Fin 64) :
    val_main_v11 (F := Ideal) a0 a5 a6 (ix3 b s h) = Cert.Attn.proj (X a0) (W a5) (B a6) b s h := by
  have el : ∀ k : Fin 512, lidx_main_v8 (ix3 b s h) k = ix3 b s k := fun k => funext fun a => Fin.ext (by
    match a with | ⟨0, _⟩ => rfl | ⟨1, _⟩ => rfl | ⟨2, _⟩ => rfl)
  have er : ∀ k : Fin 512, ridx_main_v8 (ix3 b s h) k = ix2 k h := fun k => funext fun a => Fin.ext (by
    match a with | ⟨0, _⟩ => rfl | ⟨1, _⟩ => rfl)
  have eb : idx_main_v9 (idx_main_v10 (ix3 b s h)) = ix1 h := funext fun a => Fin.ext (by
    match a with | ⟨0, _⟩ => rfl)
  rw [val_main_v11_apply, val_main_v8_apply, val_main_v10_apply, val_main_v9_apply, eb]
  simp only [el, er, Ideal.addf_def]
  rfl

/-! ## The scale and the scores -/

/-- The broadcast scale is `1 / sqrt 64` everywhere, from the two printed words. -/
theorem scale_eq (i : S4x4096x4096.Idx) : val_main_v15 (F := Ideal) i = Cert.Attn.refScale := by
  rw [val_main_v15_apply, val_main_v13_apply, val_main_cst_0_apply, val_main_v12_apply, val_main_cst_apply]
  rfl

/-- The score of query `q` against key `k` in batch `b`: the product of the two projected rows, scaled. -/
theorem score_eq (a0 : (⟨S4x4096x512, .f32⟩ : BufTy).Contents (Elt Ideal)) (a1 : (⟨S512x64, .f32⟩ : BufTy).Contents (Elt Ideal))
    (a2 : (⟨S64, .f32⟩ : BufTy).Contents (Elt Ideal)) (a3 : (⟨S512x64, .f32⟩ : BufTy).Contents (Elt Ideal))
    (a4 : (⟨S64, .f32⟩ : BufTy).Contents (Elt Ideal)) (b : Fin 4) (q k : Fin 4096) :
    val_main_v16 (F := Ideal) a0 a1 a2 a3 a4 (ix3 b q k)
      = Cert.Attn.refScore (X a0) (W a1) (B a2) (W a3) (B a4) b q k := by
  have el : ∀ j : Fin 64, lidx_main_v14 (ix3 b q k) j = ix3 b q j := fun j => funext fun a => Fin.ext (by
    match a with | ⟨0, _⟩ => rfl | ⟨1, _⟩ => rfl | ⟨2, _⟩ => rfl)
  have er : ∀ j : Fin 64, ridx_main_v14 (ix3 b q k) j = ix3 b k j := fun j => funext fun a => Fin.ext (by
    match a with | ⟨0, _⟩ => rfl | ⟨1, _⟩ => rfl | ⟨2, _⟩ => rfl)
  rw [val_main_v16_apply, val_main_v14_apply, scale_eq]
  simp only [el, er, projQ_eq, projK_eq, Ideal.mulf_def]
  rfl

/-! ## The row maximum -/

/-- The printed word of `-∞` is the bottom of the extended reals. -/
theorem negInf_eq : Ideal.ofBits .f32 0xFF800000#32 = (⊥ : EReal) := by
  simp [Ideal.ofBits, Ideal.ieee]

/-- Row (b, q) of the scores with the reduced coordinate `k` put back is the index (b, q, k). -/
theorem lift_eq (hR : S4x4096x4096.Reduces [2] S4x4096) (b : Fin 4) (q : Fin 4096) (k : Fin (S4x4096x4096.size 2)) :
    hR.lift (ix2 b q) k = ix3 b q (⟨k.val, k.isLt⟩ : Fin 4096) := by
  funext c; apply Fin.ext
  match c with | ⟨0, _⟩ => rfl | ⟨1, _⟩ => rfl | ⟨2, _⟩ => rfl

/-- The maximum-reduction over the keys at row (b, q): the fold of `max` from `-∞` over the row's scores. -/
theorem reduceMax_eq (a0 : (⟨S4x4096x512, .f32⟩ : BufTy).Contents (Elt Ideal)) (a1 : (⟨S512x64, .f32⟩ : BufTy).Contents (Elt Ideal))
    (a2 : (⟨S64, .f32⟩ : BufTy).Contents (Elt Ideal)) (a3 : (⟨S512x64, .f32⟩ : BufTy).Contents (Elt Ideal))
    (a4 : (⟨S64, .f32⟩ : BufTy).Contents (Elt Ideal)) (b : Fin 4) (q : Fin 4096) :
    val_main_v17 (F := Ideal) a0 a1 a2 a3 a4 (ix2 b q)
      = (Finset.univ : Finset (Fin 4096)).fold max ⊥
          (fun k => Cert.Attn.refScore (X a0) (W a1) (B a2) (W a3) (B a4) b q k) := by
  have hR : S4x4096x4096.Reduces [2] S4x4096 := by decide
  unfold val_main_v17
  rw [Host.reduce_eq_fold_single FloatOps.maximumf _ _ reducesTo_S4x4096x4096_S4x4096_d2 hR h_S_]
  have hf : (val_main_v16 (F := Ideal) a0 a1 a2 a3 a4 ∘ hR.lift (ix2 b q))
      = fun k : Fin 4096 => Cert.Attn.refScore (X a0) (W a1) (B a2) (W a3) (B a4) b q k := funext fun k => by
    show val_main_v16 (F := Ideal) a0 a1 a2 a3 a4 (hR.lift (ix2 b q) k) = _
    rw [lift_eq]
    exact score_eq a0 a1 a2 a3 a4 b q _
  rw [hf, val_main_cst_1_apply, Ideal.ofBits_def, negInf_eq]
  rfl

/-- The row maximum the softmax subtracts: the maximum of `-∞` and the reduction. -/
theorem rowMax_eq (a0 : (⟨S4x4096x512, .f32⟩ : BufTy).Contents (Elt Ideal)) (a1 : (⟨S512x64, .f32⟩ : BufTy).Contents (Elt Ideal))
    (a2 : (⟨S64, .f32⟩ : BufTy).Contents (Elt Ideal)) (a3 : (⟨S512x64, .f32⟩ : BufTy).Contents (Elt Ideal))
    (a4 : (⟨S64, .f32⟩ : BufTy).Contents (Elt Ideal)) (b : Fin 4) (q : Fin 4096) :
    val_main_v19 (F := Ideal) a0 a1 a2 a3 a4 (ix2 b q)
      = max ⊥ ((Finset.univ : Finset (Fin 4096)).fold max ⊥
          (fun k => Cert.Attn.refScore (X a0) (W a1) (B a2) (W a3) (B a4) b q k)) := by
  rw [val_main_v19_apply, val_main_v18_apply, val_main_cst_2_apply, reduceMax_eq, Ideal.ofBits_def, negInf_eq]
  rfl

/-! ## The softmax and the weighted sum -/

/-- The maximum of row (b, q), as the specification's closed form writes it. -/
abbrev rowMax (a0 : (⟨S4x4096x512, .f32⟩ : BufTy).Contents (Elt Ideal)) (a1 : (⟨S512x64, .f32⟩ : BufTy).Contents (Elt Ideal))
    (a2 : (⟨S64, .f32⟩ : BufTy).Contents (Elt Ideal)) (a3 : (⟨S512x64, .f32⟩ : BufTy).Contents (Elt Ideal))
    (a4 : (⟨S64, .f32⟩ : BufTy).Contents (Elt Ideal)) (b : Fin 4) (q : Fin 4096) : EReal :=
  max ⊥ ((Finset.univ : Finset (Fin 4096)).fold max ⊥
    (fun k => Cert.Attn.refScore (X a0) (W a1) (B a2) (W a3) (B a4) b q k))

/-- The shifted exponential at (b, q, k). -/
theorem exp_eq (a0 : (⟨S4x4096x512, .f32⟩ : BufTy).Contents (Elt Ideal)) (a1 : (⟨S512x64, .f32⟩ : BufTy).Contents (Elt Ideal))
    (a2 : (⟨S64, .f32⟩ : BufTy).Contents (Elt Ideal)) (a3 : (⟨S512x64, .f32⟩ : BufTy).Contents (Elt Ideal))
    (a4 : (⟨S64, .f32⟩ : BufTy).Contents (Elt Ideal)) (b : Fin 4) (q k : Fin 4096) :
    val_main_v23 (F := Ideal) a0 a1 a2 a3 a4 (ix3 b q k)
      = Ideal.exp (Cert.Attn.refScore (X a0) (W a1) (B a2) (W a3) (B a4) b q k - rowMax a0 a1 a2 a3 a4 b q) := by
  have ei : idx_main_v20 (idx_main_v21 (ix3 b q k)) = ix2 b q := funext fun a => Fin.ext (by
    match a with | ⟨0, _⟩ => rfl | ⟨1, _⟩ => rfl)
  rw [val_main_v23_apply, val_main_v22_apply, val_main_v21_apply, val_main_v20_apply, ei, score_eq, rowMax_eq]
  rfl

/-- The normaliser of row (b, q): zero plus the sum of the shifted exponentials. -/
theorem rowSum_eq (a0 : (⟨S4x4096x512, .f32⟩ : BufTy).Contents (Elt Ideal)) (a1 : (⟨S512x64, .f32⟩ : BufTy).Contents (Elt Ideal))
    (a2 : (⟨S64, .f32⟩ : BufTy).Contents (Elt Ideal)) (a3 : (⟨S512x64, .f32⟩ : BufTy).Contents (Elt Ideal))
    (a4 : (⟨S64, .f32⟩ : BufTy).Contents (Elt Ideal)) (b : Fin 4) (q : Fin 4096) :
    val_main_v24 (F := Ideal) a0 a1 a2 a3 a4 (ix2 b q)
      = 0 + ∑ k : Fin 4096,
          Ideal.exp (Cert.Attn.refScore (X a0) (W a1) (B a2) (W a3) (B a4) b q k - rowMax a0 a1 a2 a3 a4 b q) := by
  have ei : ∀ k : Fin 4096, idx_main_v24 (ix2 b q) k = ix3 b q k := fun k => funext fun a => Fin.ext (by
    match a with | ⟨0, _⟩ => rfl | ⟨1, _⟩ => rfl | ⟨2, _⟩ => rfl)
  rw [val_main_v24_apply, val_main_cst_3_apply, Ideal.ofBits_def, Ideal.ofBits_zero_f32]
  simp only [ei, exp_eq]

/-- The attention weight at (b, q, k): the shifted exponential over the row's normaliser. -/
theorem weight_eq (a0 : (⟨S4x4096x512, .f32⟩ : BufTy).Contents (Elt Ideal)) (a1 : (⟨S512x64, .f32⟩ : BufTy).Contents (Elt Ideal))
    (a2 : (⟨S64, .f32⟩ : BufTy).Contents (Elt Ideal)) (a3 : (⟨S512x64, .f32⟩ : BufTy).Contents (Elt Ideal))
    (a4 : (⟨S64, .f32⟩ : BufTy).Contents (Elt Ideal)) (b : Fin 4) (q k : Fin 4096) :
    val_main_v27 (F := Ideal) a0 a1 a2 a3 a4 (ix3 b q k)
      = Ideal.div (Ideal.exp (Cert.Attn.refScore (X a0) (W a1) (B a2) (W a3) (B a4) b q k - rowMax a0 a1 a2 a3 a4 b q))
          (0 + ∑ k' : Fin 4096,
            Ideal.exp (Cert.Attn.refScore (X a0) (W a1) (B a2) (W a3) (B a4) b q k' - rowMax a0 a1 a2 a3 a4 b q)) := by
  have ei : idx_main_v25 (idx_main_v26 (ix3 b q k)) = ix2 b q := funext fun a => Fin.ext (by
    match a with | ⟨0, _⟩ => rfl | ⟨1, _⟩ => rfl)
  rw [val_main_v27_apply, val_main_v26_apply, val_main_v25_apply, ei, exp_eq, rowSum_eq]
  rfl

/-- **The reference's result at (b, q, h) is the specification's closed-form attention** of the seven arguments
    read by coordinates. -/
theorem ref_value (a0 : (⟨S4x4096x512, .f32⟩ : BufTy).Contents (Elt Ideal)) (a1 : (⟨S512x64, .f32⟩ : BufTy).Contents (Elt Ideal))
    (a2 : (⟨S64, .f32⟩ : BufTy).Contents (Elt Ideal)) (a3 : (⟨S512x64, .f32⟩ : BufTy).Contents (Elt Ideal))
    (a4 : (⟨S64, .f32⟩ : BufTy).Contents (Elt Ideal)) (a5 : (⟨S512x64, .f32⟩ : BufTy).Contents (Elt Ideal))
    (a6 : (⟨S64, .f32⟩ : BufTy).Contents (Elt Ideal)) (b : Fin 4) (q : Fin 4096) (h : Fin 64) :
    val_main_v28 (F := Ideal) a0 a1 a2 a3 a4 a5 a6 (ix3 b q h)
      = Cert.Attn.refOut (fun b s i => a0 (ix3 b s i)) (fun i h => a1 (ix2 i h)) (fun h => a2 (ix1 h))
          (fun i h => a3 (ix2 i h)) (fun h => a4 (ix1 h)) (fun i h => a5 (ix2 i h)) (fun h => a6 (ix1 h)) b q h := by
  have el : ∀ k : Fin 4096, lidx_main_v28 (ix3 b q h) k = ix3 b q k := fun k => funext fun a => Fin.ext (by
    match a with | ⟨0, _⟩ => rfl | ⟨1, _⟩ => rfl | ⟨2, _⟩ => rfl)
  have er : ∀ k : Fin 4096, ridx_main_v28 (ix3 b q h) k = ix3 b k h := fun k => funext fun a => Fin.ext (by
    match a with | ⟨0, _⟩ => rfl | ⟨1, _⟩ => rfl | ⟨2, _⟩ => rfl)
  rw [val_main_v28_apply]
  simp only [el, er, weight_eq, projV_eq]
  rfl

/-! ## The run, with its result named by the specification -/

/-- The specification's output as a result array of the seven argument arrays: at (b, q, h) the closed-form
    attention of the arguments read by coordinates. -/
def refBuf (a0 : (⟨S4x4096x512, .f32⟩ : BufTy).Contents (Elt Ideal)) (a1 : (⟨S512x64, .f32⟩ : BufTy).Contents (Elt Ideal))
    (a2 : (⟨S64, .f32⟩ : BufTy).Contents (Elt Ideal)) (a3 : (⟨S512x64, .f32⟩ : BufTy).Contents (Elt Ideal))
    (a4 : (⟨S64, .f32⟩ : BufTy).Contents (Elt Ideal)) (a5 : (⟨S512x64, .f32⟩ : BufTy).Contents (Elt Ideal))
    (a6 : (⟨S64, .f32⟩ : BufTy).Contents (Elt Ideal)) : (⟨S4x4096x64, .f32⟩ : BufTy).Contents (Elt Ideal) :=
  fun i => Cert.Attn.refOut (fun b s i => a0 (ix3 b s i)) (fun i h => a1 (ix2 i h)) (fun h => a2 (ix1 h))
    (fun i h => a3 (ix2 i h)) (fun h => a4 (ix1 h)) (fun i h => a5 (ix2 i h)) (fun h => a6 (ix1 h))
    (i 0 : Fin 4) (i 1 : Fin 4096) (i 2 : Fin 64)

/-- Its value at the index of coordinates (b, q, h). -/
theorem refBuf_apply (a0 : (⟨S4x4096x512, .f32⟩ : BufTy).Contents (Elt Ideal)) (a1 : (⟨S512x64, .f32⟩ : BufTy).Contents (Elt Ideal))
    (a2 : (⟨S64, .f32⟩ : BufTy).Contents (Elt Ideal)) (a3 : (⟨S512x64, .f32⟩ : BufTy).Contents (Elt Ideal))
    (a4 : (⟨S64, .f32⟩ : BufTy).Contents (Elt Ideal)) (a5 : (⟨S512x64, .f32⟩ : BufTy).Contents (Elt Ideal))
    (a6 : (⟨S64, .f32⟩ : BufTy).Contents (Elt Ideal)) (b : Fin 4) (q : Fin 4096) (h : Fin 64) :
    refBuf a0 a1 a2 a3 a4 a5 a6 (ix3 b q h)
      = Cert.Attn.refOut (fun b s i => a0 (ix3 b s i)) (fun i h => a1 (ix2 i h)) (fun h => a2 (ix1 h))
          (fun i h => a3 (ix2 i h)) (fun h => a4 (ix1 h)) (fun i h => a5 (ix2 i h)) (fun h => a6 (ix1 h)) b q h := rfl

/-- The reference's composed result is that array. -/
theorem val_eq_refBuf (a0 : (⟨S4x4096x512, .f32⟩ : BufTy).Contents (Elt Ideal)) (a1 : (⟨S512x64, .f32⟩ : BufTy).Contents (Elt Ideal))
    (a2 : (⟨S64, .f32⟩ : BufTy).Contents (Elt Ideal)) (a3 : (⟨S512x64, .f32⟩ : BufTy).Contents (Elt Ideal))
    (a4 : (⟨S64, .f32⟩ : BufTy).Contents (Elt Ideal)) (a5 : (⟨S512x64, .f32⟩ : BufTy).Contents (Elt Ideal))
    (a6 : (⟨S64, .f32⟩ : BufTy).Contents (Elt Ideal)) :
    val_main_v28 (F := Ideal) a0 a1 a2 a3 a4 a5 a6 = refBuf a0 a1 a2 a3 a4 a5 a6 := by
  funext i
  obtain ⟨b, q, h, rfl⟩ : ∃ (b : Fin 4) (q : Fin 4096) (h : Fin 64), i = ix3 b q h := ⟨i 0, i 1, i 2, eq_ix3 i⟩
  exact ref_value a0 a1 a2 a3 a4 a5 a6 b q h

/-- **The reference's run**: from any memory with zero counters every weakly fair execution terminates with the
    result array at the specification's closed-form attention of the launch contents of the seven arguments, and the
    arguments unchanged. -/
theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ fun r => ∀ c : Dev nD,
      r.2.mem ((c.tc : Thread nD τ).loc main_v28)
          = refBuf (m' ((c.tc : Thread nD τ).loc main_arg0)) (m' ((c.tc : Thread nD τ).loc main_arg1))
              (m' ((c.tc : Thread nD τ).loc main_arg2)) (m' ((c.tc : Thread nD τ).loc main_arg3))
              (m' ((c.tc : Thread nD τ).loc main_arg4)) (m' ((c.tc : Thread nD τ).loc main_arg5))
              (m' ((c.tc : Thread nD τ).loc main_arg6))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6) :=
  (θ_run defs _ _).mono
    (fun _ h c => ⟨(h c).1.trans ((val_main_v28_eq m' c).trans (val_eq_refBuf _ _ _ _ _ _ _)), (h c).2⟩)
    (Cert.ReferenceIdeal.Value.run (F := Ideal) m' ρ')

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.AttnMath.lean ====
/-
  The blockwise softmax recurrence equals the closed form, for finite real scores and values.

  The road: an invariant of the recurrence that holds from the very first state.  After the blocks in a set B,
  the running maximum is the supremum of the scores seen, and for EVERY real c the rescaled normaliser
  exp (m - c) * l is the real sum of exp (s - c) over the keys seen (likewise the weighted sum).  A step multiplies
  by exp (m_old - m_new) and adds the new block's terms at m_new: at c := m_new the invariant gives the old part
  as a real sum, and exp (m_new - c) * exp (s - m_new) = exp (s - c) in the reals.  Before the first block the
  normaliser is 0 and both sides vanish, so the infinite initial maximum needs no separate case.
-/
import proofs.«132332_j31885837205648_2_alg».proof.Proof.AttnSpec
import Mathlib.Data.EReal.Operations
import Mathlib.Algebra.BigOperators.Fin
import Mathlib.Algebra.BigOperators.Field
import Mathlib.Tactic.Ring
import Mathlib.Tactic.Linarith

noncomputable section

namespace Cert.Attn

open Idealize.ShloMosaic

/-! ### Small facts on the extended reals -/

/-- The coercion of a finite real sum is the sum of the coercions. -/
theorem coe_sum {ι : Type*} (t : Finset ι) (f : ι → ℝ) :
    ((∑ i ∈ t, f i : ℝ) : EReal) = ∑ i ∈ t, ((f i : ℝ) : EReal) := by
  classical
  induction t using Finset.induction_on with
  | empty => simp
  | insert a t ha ih => rw [Finset.sum_insert ha, Finset.sum_insert ha, EReal.coe_add, ih]

/-- A maximum folded from the bottom is the finite supremum. -/
theorem fold_max_eq_sup {ι : Type*} (t : Finset ι) (f : ι → EReal) : t.fold max ⊥ f = t.sup f := rfl

/-- The exponential of a difference of two reals. -/
theorem exp_coe_sub (x y : ℝ) : Ideal.exp ((x : EReal) - (y : EReal)) = ((Real.exp (x - y) : ℝ) : EReal) := by
  rw [← EReal.coe_sub]; rfl

/-- A finite supremum of reals over a nonempty set is a real. -/
theorem sup_coe_real {ι : Type*} (t : Finset ι) (ht : t.Nonempty) (f : ι → ℝ) :
    ∃ r : ℝ, t.sup (fun i => ((f i : ℝ) : EReal)) = (r : EReal) := by
  obtain ⟨i, _, hi⟩ := Finset.exists_mem_eq_sup t ht (fun i => ((f i : ℝ) : EReal))
  exact ⟨f i, hi⟩

/-! ### The 4096 keys as 8 blocks of 512 -/

theorem key_divmod (i : Fin 4096) : key ⟨i.val / 512, by omega⟩ ⟨i.val % 512, by omega⟩ = i := by
  apply Fin.ext; simp only [key]; omega

/-- Block and offset, as a bijection with the keys. -/
def keyEquiv : Fin 8 × Fin 512 ≃ Fin 4096 where
  toFun p := key p.1 p.2
  invFun i := (⟨i.val / 512, by omega⟩, ⟨i.val % 512, by omega⟩)
  left_inv p := by
    rcases p with ⟨k, j⟩
    apply Prod.ext <;> apply Fin.ext <;> simp only [key] <;> omega
  right_inv i := key_divmod i

theorem keyEquiv_apply (p : Fin 8 × Fin 512) : keyEquiv p = key p.1 p.2 := rfl

theorem sum_keyEquiv {α : Type*} [AddCommMonoid α] (f : Fin 4096 → α) :
    ∑ p : Fin 8 × Fin 512, f (keyEquiv p) = ∑ i, f i := Equiv.sum_comp keyEquiv f

theorem sum_key_pair {α : Type*} [AddCommMonoid α] (f : Fin 4096 → α) :
    ∑ p : Fin 8 × Fin 512, f (key p.1 p.2) = ∑ i, f i := by
  rw [← sum_keyEquiv f]; simp only [keyEquiv_apply]

/-- A sum over blocks and offsets is the sum over the keys. -/
theorem sum_key {α : Type*} [AddCommMonoid α] (f : Fin 4096 → α) :
    ∑ k : Fin 8, ∑ j : Fin 512, f (key k j) = ∑ i, f i := by
  rw [← sum_key_pair f, Fintype.sum_prod_type]

theorem le_sup_key (f : Fin 4096 → EReal) (k : Fin 8) (j : Fin 512) :
    f (key k j)
      ≤ (Finset.univ : Finset (Fin 8)).sup (fun k => (Finset.univ : Finset (Fin 512)).sup (fun j => f (key k j))) :=
  le_trans
    (Finset.le_sup (f := fun j => f (key k j)) (Finset.mem_univ j))
    (Finset.le_sup (f := fun k => (Finset.univ : Finset (Fin 512)).sup (fun j => f (key k j))) (Finset.mem_univ k))

/-- A supremum over blocks and offsets is the supremum over the keys. -/
theorem sup_key (f : Fin 4096 → EReal) :
    (Finset.univ : Finset (Fin 8)).sup (fun k => (Finset.univ : Finset (Fin 512)).sup (fun j => f (key k j)))
      = (Finset.univ : Finset (Fin 4096)).sup f := by
  apply le_antisymm
  · exact Finset.sup_le fun k _ => Finset.sup_le fun j _ => Finset.le_sup (f := f) (Finset.mem_univ (key k j))
  · refine Finset.sup_le fun i _ => ?_
    have h := le_sup_key f ⟨i.val / 512, by omega⟩ ⟨i.val % 512, by omega⟩
    rwa [key_divmod i] at h

/-! ### The step, field by field -/

theorem step_m (st : St) (s : Fin 512 → EReal) (v : Fin 512 → Fin 64 → EReal) :
    (st.step s v).m = max st.m ((Finset.univ : Finset (Fin 512)).sup s) := rfl

theorem step_l (st : St) (s : Fin 512 → EReal) (v : Fin 512 → Fin 64 → EReal) :
    (st.step s v).l = Ideal.exp (st.m - (st.step s v).m) * st.l + ∑ j : Fin 512, Ideal.exp (s j - (st.step s v).m) := rfl

theorem step_acc (st : St) (s : Fin 512 → EReal) (v : Fin 512 → Fin 64 → EReal) (h : Fin 64) :
    (st.step s v).acc h
      = Ideal.exp (st.m - (st.step s v).m) * st.acc h + ∑ j : Fin 512, Ideal.exp (s j - (st.step s v).m) * v j h := rfl

/-! ### The invariant -/

/-- What holds of the state after the blocks in `B`: the running maximum is the supremum of the scores seen, and
    for every real `c` the normaliser and the weighted sum, rescaled to `c`, are the real sums over the keys seen. -/
structure Inv (s : Fin 4096 → ℝ) (v : Fin 4096 → Fin 64 → ℝ) (B : Finset (Fin 8)) (st : St) : Prop where
  hm : st.m = B.sup (fun k => (Finset.univ : Finset (Fin 512)).sup (fun j => ((s (key k j) : ℝ) : EReal)))
  hl : ∀ c : ℝ, Ideal.exp (st.m - (c : EReal)) * st.l
        = ((∑ k ∈ B, ∑ j : Fin 512, Real.exp (s (key k j) - c) : ℝ) : EReal)
  hacc : ∀ (c : ℝ) (h : Fin 64), Ideal.exp (st.m - (c : EReal)) * st.acc h
        = ((∑ k ∈ B, ∑ j : Fin 512, Real.exp (s (key k j) - c) * v (key k j) h : ℝ) : EReal)

theorem Inv.init (s : Fin 4096 → ℝ) (v : Fin 4096 → Fin 64 → ℝ) : Inv s v ∅ St.init where
  hm := Finset.sup_empty.symm
  hl c := by simp [St.init]
  hacc c h := by simp [St.init]

theorem Inv.step {s : Fin 4096 → ℝ} {v : Fin 4096 → Fin 64 → ℝ} {B : Finset (Fin 8)} {st : St}
    (hI : Inv s v B st) (k : Fin 8) (hk : k ∉ B) :
    Inv s v (insert k B)
      (st.step (fun j => ((s (key k j) : ℝ) : EReal)) (fun j h' => ((v (key k j) h' : ℝ) : EReal))) := by
  obtain ⟨b, hb⟩ := sup_coe_real (Finset.univ : Finset (Fin 512)) ⟨0, Finset.mem_univ _⟩ (fun j => s (key k j))
  have hmtop : st.m < ⊤ := by
    rw [hI.hm, Finset.sup_lt_iff bot_lt_top]
    intro k' _
    rw [Finset.sup_lt_iff bot_lt_top]
    intro j _
    exact EReal.coe_lt_top _
  obtain ⟨c', hc'⟩ : ∃ c' : ℝ, max st.m (b : EReal) = (c' : EReal) := by
    refine ⟨(max st.m (b : EReal)).toReal, (EReal.coe_toReal ?_ ?_).symm⟩
    · exact ne_of_lt (max_lt hmtop (EReal.coe_lt_top b))
    · exact ne_of_gt (lt_of_lt_of_le (EReal.bot_lt_coe b) (le_max_right _ _))
  have hm' : (st.step (fun j => ((s (key k j) : ℝ) : EReal)) (fun j h' => ((v (key k j) h' : ℝ) : EReal))).m
      = (c' : EReal) := by
    rw [step_m, hb, hc']
  refine ⟨?_, ?_, ?_⟩
  · rw [step_m, Finset.sup_insert, hI.hm]
    exact max_comm _ _
  · intro c
    rw [step_l, hm', hI.hl c']
    simp only [exp_coe_sub]
    rw [← coe_sum, ← EReal.coe_add, ← EReal.coe_mul, Finset.sum_insert hk, mul_add, Finset.mul_sum, Finset.mul_sum,
      add_comm]
    congr 2
    · refine Finset.sum_congr rfl fun j _ => ?_
      rw [← Real.exp_add]; congr 1; ring
    · refine Finset.sum_congr rfl fun k' _ => ?_
      rw [Finset.mul_sum]
      refine Finset.sum_congr rfl fun j _ => ?_
      rw [← Real.exp_add]; congr 1; ring
  · intro c h
    rw [step_acc, hm', hI.hacc c' h]
    simp only [exp_coe_sub]
    simp only [← EReal.coe_mul]
    rw [← coe_sum, ← EReal.coe_add, ← EReal.coe_mul, Finset.sum_insert hk, mul_add, Finset.mul_sum, Finset.mul_sum,
      add_comm]
    congr 2
    · refine Finset.sum_congr rfl fun j _ => ?_
      rw [← mul_assoc, ← Real.exp_add]; congr 2; ring
    · refine Finset.sum_congr rfl fun k' _ => ?_
      rw [Finset.mul_sum]
      refine Finset.sum_congr rfl fun j _ => ?_
      rw [← mul_assoc, ← Real.exp_add]; congr 2; ring

/-! ### All eight blocks -/

/-- The blocks before the `n`-th. -/
def blocksBelow (n : ℕ) : Finset (Fin 8) := Finset.univ.filter (fun k => k.val < n)

theorem blocksBelow_zero : blocksBelow 0 = ∅ := by
  ext k; simp [blocksBelow]

theorem blocksBelow_succ (n : ℕ) (hn : n + 1 ≤ 8) : blocksBelow (n + 1) = insert ⟨n, hn⟩ (blocksBelow n) := by
  ext k
  simp only [blocksBelow, Finset.mem_filter, Finset.mem_univ, true_and, Finset.mem_insert, Fin.ext_iff]
  omega

theorem not_mem_blocksBelow (n : ℕ) (hn : n + 1 ≤ 8) : (⟨n, hn⟩ : Fin 8) ∉ blocksBelow n := by
  simp [blocksBelow]

theorem blocksBelow_eight : blocksBelow 8 = Finset.univ := by
  ext k; simp only [blocksBelow, Finset.mem_filter, Finset.mem_univ, true_and, iff_true]; exact k.isLt

theorem Inv.after (s : Fin 4096 → ℝ) (v : Fin 4096 → Fin 64 → ℝ) : ∀ (n : ℕ) (hn : n ≤ 8),
    Inv s v (blocksBelow n)
      (St.after (fun k j => ((s (key k j) : ℝ) : EReal)) (fun k j h' => ((v (key k j) h' : ℝ) : EReal)) n hn)
  | 0, _ => by rw [blocksBelow_zero]; exact Inv.init s v
  | n + 1, hn => by
    rw [blocksBelow_succ n hn]
    exact (Inv.after s v n (Nat.le_of_succ_le hn)).step ⟨n, hn⟩ (not_mem_blocksBelow n hn)

theorem closed_def (s : Fin 4096 → EReal) (v : Fin 4096 → Fin 64 → EReal) (h : Fin 64) :
    closed s v h
      = ∑ k : Fin 4096,
          Ideal.div (Ideal.exp (s k - max ⊥ ((Finset.univ : Finset (Fin 4096)).sup s)))
            (0 + ∑ k : Fin 4096, Ideal.exp (s k - max ⊥ ((Finset.univ : Finset (Fin 4096)).sup s))) * v k h := rfl

/-- For finite real scores and values the blockwise recurrence returns the closed form. -/
theorem blockwise_eq_closed (s : Fin 4096 → ℝ) (v : Fin 4096 → Fin 64 → ℝ) (h : Fin 64) :
    blockwise (fun k j => ((s (key k j) : ℝ) : EReal)) (fun k j h' => ((v (key k j) h' : ℝ) : EReal)) h
      = closed (fun k => ((s k : ℝ) : EReal)) (fun k h' => ((v k h' : ℝ) : EReal)) h := by
  have hI := Inv.after s v 8 le_rfl
  rw [blocksBelow_eight] at hI
  obtain ⟨Mr, hMr⟩ := sup_coe_real (Finset.univ : Finset (Fin 4096)) ⟨0, Finset.mem_univ _⟩ s
  have hm := hI.hm
  rw [sup_key (fun i => ((s i : ℝ) : EReal)), hMr] at hm
  have hl := hI.hl Mr
  have hacc := hI.hacc Mr h
  rw [hm, exp_coe_sub, sub_self, Real.exp_zero, EReal.coe_one, one_mul,
    sum_key (fun i => Real.exp (s i - Mr))] at hl
  rw [hm, exp_coe_sub, sub_self, Real.exp_zero, EReal.coe_one, one_mul,
    sum_key (fun i => Real.exp (s i - Mr) * v i h)] at hacc
  have hL : (∑ i : Fin 4096, Real.exp (s i - Mr)) ≠ 0 :=
    ne_of_gt (Finset.sum_pos (fun i _ => Real.exp_pos _) ⟨0, Finset.mem_univ _⟩)
  have hb : blockwise (fun k j => ((s (key k j) : ℝ) : EReal)) (fun k j h' => ((v (key k j) h' : ℝ) : EReal)) h
      = Ideal.div
          ((St.after (fun k j => ((s (key k j) : ℝ) : EReal)) (fun k j h' => ((v (key k j) h' : ℝ) : EReal)) 8
            le_rfl).acc h)
          (St.after (fun k j => ((s (key k j) : ℝ) : EReal)) (fun k j h' => ((v (key k j) h' : ℝ) : EReal)) 8
            le_rfl).l := rfl
  rw [hb, hacc, hl, closed_def, hMr, max_eq_right bot_le]
  simp only [exp_coe_sub]
  rw [zero_add, ← coe_sum]
  simp only [Ideal.div_coe hL]
  simp only [← EReal.coe_mul]
  rw [← coe_sum, EReal.coe_eq_coe_iff, Finset.sum_mul]
  refine Finset.sum_congr rfl fun i _ => ?_
  ring

end Cert.Attn

end
-- ==== Proof.AttnMath2.lean ====
/-
  The scale, the scores and the output of the two arrangements agree on finite real inputs.

  * The reference scales by 1 / sqrt 64 and the kernel by the word 0.125; both are the real 1/8.
  * With real inputs every projection and every score is the coercion of a real; the kernel's score, which
    scales the query weights and bias before the products, equals the reference's, which scales the finished
    product sum, by distributivity in the reals.
  * The outputs then agree by the equality of the blockwise recurrence and the closed form.
-/
import proofs.«132332_j31885837205648_2_alg».proof.Proof.AttnMath
import Mathlib.Analysis.SpecialFunctions.Pow.Real
import Mathlib.Tactic.NormNum

noncomputable section

namespace Cert.Attn

open Idealize.ShloMosaic

/-! ### The three printed words -/

/-- The word 1.0 denotes 1. -/
theorem ofBits_one : Ideal.ofBits .f32 0x3F800000#32 = ((1 : ℝ) : EReal) := by
  simp [Ideal.ofBits, Ideal.ieee, -EReal.coe_mul]; norm_num

/-- The word 64.0 denotes 64. -/
theorem ofBits_64 : Ideal.ofBits .f32 0x42800000#32 = ((64 : ℝ) : EReal) := by
  simp [Ideal.ofBits, Ideal.ieee, -EReal.coe_mul]; norm_num

/-- The word 0.125 denotes 1/8. -/
theorem ofBits_eighth : Ideal.ofBits .f32 0x3E000000#32 = ((1 / 8 : ℝ) : EReal) := by
  simp [Ideal.ofBits, Ideal.ieee, -EReal.coe_mul]; norm_num

theorem sqrt_64 : Real.sqrt 64 = 8 := by
  rw [show (64 : ℝ) = 8 ^ 2 by norm_num]; exact Real.sqrt_sq (by norm_num)

/-- The kernel's scale is the real 1/8. -/
theorem kScale_eq : kScale = ((1 / 8 : ℝ) : EReal) := ofBits_eighth

/-- The reference's scale 1 / sqrt 64 is the real 1/8. -/
theorem refScale_val : refScale = ((1 / 8 : ℝ) : EReal) := by
  rw [refScale, ofBits_one, ofBits_64, Ideal.sqrt_coe, if_neg (by norm_num), sqrt_64,
    Ideal.div_coe (by norm_num : (8 : ℝ) ≠ 0), ← EReal.coe_mul, one_mul]

theorem refScale_eq : refScale = kScale := by rw [refScale_val, kScale_eq]

/-! ### Real inputs: projections and scores are reals -/

/-- The projection over the reals. -/
def projR (x : Fin 4 → Fin 4096 → Fin 512 → ℝ) (w : Fin 512 → Fin 64 → ℝ) (bias : Fin 64 → ℝ)
    (b : Fin 4) (s : Fin 4096) (h : Fin 64) : ℝ :=
  (∑ i : Fin 512, x b s i * w i h) + bias h

/-- The scaled score over the reals. -/
def scoreR (x : Fin 4 → Fin 4096 → Fin 512 → ℝ) (wq : Fin 512 → Fin 64 → ℝ) (bq : Fin 64 → ℝ)
    (wk : Fin 512 → Fin 64 → ℝ) (bk : Fin 64 → ℝ) (b : Fin 4) (q k : Fin 4096) : ℝ :=
  (∑ h : Fin 64, projR x wq bq b q h * projR x wk bk b k h) * (1 / 8)

theorem proj_coe (x : Fin 4 → Fin 4096 → Fin 512 → ℝ) (w : Fin 512 → Fin 64 → ℝ) (bias : Fin 64 → ℝ)
    (b : Fin 4) (s : Fin 4096) (h : Fin 64) :
    proj (fun b s i => ((x b s i : ℝ) : EReal)) (fun i h => ((w i h : ℝ) : EReal)) (fun h => ((bias h : ℝ) : EReal)) b s h = ((projR x w bias b s h : ℝ) : EReal) := by
  simp only [proj, projR, ← EReal.coe_mul]
  rw [← coe_sum, ← EReal.coe_add]

theorem kProjQ_coe (x : Fin 4 → Fin 4096 → Fin 512 → ℝ) (wq : Fin 512 → Fin 64 → ℝ) (bq : Fin 64 → ℝ)
    (b : Fin 4) (s : Fin 4096) (h : Fin 64) :
    kProjQ (fun b s i => ((x b s i : ℝ) : EReal)) (fun i h => ((wq i h : ℝ) : EReal)) (fun h => ((bq h : ℝ) : EReal)) b s h = ((projR x wq bq b s h * (1 / 8) : ℝ) : EReal) := by
  simp only [kProjQ, kScale_eq, ← EReal.coe_mul]
  rw [← coe_sum, ← EReal.coe_add, EReal.coe_eq_coe_iff, projR, add_mul, Finset.sum_mul]
  refine congrArg₂ (· + ·) ?_ rfl
  exact Finset.sum_congr rfl fun i _ => by ring

theorem refScore_coe (x : Fin 4 → Fin 4096 → Fin 512 → ℝ) (wq : Fin 512 → Fin 64 → ℝ) (bq : Fin 64 → ℝ)
    (wk : Fin 512 → Fin 64 → ℝ) (bk : Fin 64 → ℝ) (b : Fin 4) (q k : Fin 4096) :
    refScore (fun b s i => ((x b s i : ℝ) : EReal)) (fun i h => ((wq i h : ℝ) : EReal)) (fun h => ((bq h : ℝ) : EReal)) (fun i h => ((wk i h : ℝ) : EReal)) (fun h => ((bk h : ℝ) : EReal)) b q k
      = ((scoreR x wq bq wk bk b q k : ℝ) : EReal) := by
  simp only [refScore, proj_coe, refScale_val, ← EReal.coe_mul]
  rw [← coe_sum, ← EReal.coe_mul, scoreR]

theorem kScore_coe (x : Fin 4 → Fin 4096 → Fin 512 → ℝ) (wq : Fin 512 → Fin 64 → ℝ) (bq : Fin 64 → ℝ)
    (wk : Fin 512 → Fin 64 → ℝ) (bk : Fin 64 → ℝ) (b : Fin 4) (q k : Fin 4096) :
    kScore (fun b s i => ((x b s i : ℝ) : EReal)) (fun i h => ((wq i h : ℝ) : EReal)) (fun h => ((bq h : ℝ) : EReal)) (fun i h => ((wk i h : ℝ) : EReal)) (fun h => ((bk h : ℝ) : EReal)) b q k
      = ((scoreR x wq bq wk bk b q k : ℝ) : EReal) := by
  simp only [kScore, kProjQ_coe, proj_coe, ← EReal.coe_mul]
  rw [← coe_sum, EReal.coe_eq_coe_iff, scoreR, Finset.sum_mul]
  exact Finset.sum_congr rfl fun h _ => by ring

/-- On real inputs the kernel's score is the reference's. -/
theorem kScore_eq_refScore (x : Fin 4 → Fin 4096 → Fin 512 → ℝ) (wq : Fin 512 → Fin 64 → ℝ) (bq : Fin 64 → ℝ)
    (wk : Fin 512 → Fin 64 → ℝ) (bk : Fin 64 → ℝ) (b : Fin 4) (q k : Fin 4096) :
    kScore (fun b s i => ((x b s i : ℝ) : EReal)) (fun i h => ((wq i h : ℝ) : EReal)) (fun h => ((bq h : ℝ) : EReal)) (fun i h => ((wk i h : ℝ) : EReal)) (fun h => ((bk h : ℝ) : EReal)) b q k
      = refScore (fun b s i => ((x b s i : ℝ) : EReal)) (fun i h => ((wq i h : ℝ) : EReal)) (fun h => ((bq h : ℝ) : EReal)) (fun i h => ((wk i h : ℝ) : EReal)) (fun h => ((bk h : ℝ) : EReal)) b q k := by
  rw [kScore_coe, refScore_coe]

/-- On real inputs the reference's score is a real. -/
theorem refScore_real (x : Fin 4 → Fin 4096 → Fin 512 → ℝ) (wq : Fin 512 → Fin 64 → ℝ) (bq : Fin 64 → ℝ)
    (wk : Fin 512 → Fin 64 → ℝ) (bk : Fin 64 → ℝ) (b : Fin 4) (q k : Fin 4096) :
    ∃ r : ℝ, refScore (fun b s i => ((x b s i : ℝ) : EReal)) (fun i h => ((wq i h : ℝ) : EReal)) (fun h => ((bq h : ℝ) : EReal)) (fun i h => ((wk i h : ℝ) : EReal)) (fun h => ((bk h : ℝ) : EReal)) b q k = (r : EReal) :=
  ⟨_, refScore_coe x wq bq wk bk b q k⟩

/-- On real inputs a projection is a real. -/
theorem proj_real (x : Fin 4 → Fin 4096 → Fin 512 → ℝ) (w : Fin 512 → Fin 64 → ℝ) (bias : Fin 64 → ℝ)
    (b : Fin 4) (s : Fin 4096) (h : Fin 64) :
    ∃ r : ℝ, proj (fun b s i => ((x b s i : ℝ) : EReal)) (fun i h => ((w i h : ℝ) : EReal)) (fun h => ((bias h : ℝ) : EReal)) b s h = (r : EReal) :=
  ⟨_, proj_coe x w bias b s h⟩

/-! ### The outputs -/

/-- On real inputs the kernel's output (blockwise, its own scores) is the reference's (closed form). -/
theorem kOut_eq_refOut (x : Fin 4 → Fin 4096 → Fin 512 → ℝ) (wq : Fin 512 → Fin 64 → ℝ) (bq : Fin 64 → ℝ)
    (wk : Fin 512 → Fin 64 → ℝ) (bk : Fin 64 → ℝ) (wv : Fin 512 → Fin 64 → ℝ) (bv : Fin 64 → ℝ)
    (b : Fin 4) (q : Fin 4096) (h : Fin 64) :
    kOut (fun b s i => ((x b s i : ℝ) : EReal)) (fun i h => ((wq i h : ℝ) : EReal)) (fun h => ((bq h : ℝ) : EReal)) (fun i h => ((wk i h : ℝ) : EReal)) (fun h => ((bk h : ℝ) : EReal)) (fun i h => ((wv i h : ℝ) : EReal)) (fun h => ((bv h : ℝ) : EReal)) b q h
      = refOut (fun b s i => ((x b s i : ℝ) : EReal)) (fun i h => ((wq i h : ℝ) : EReal)) (fun h => ((bq h : ℝ) : EReal)) (fun i h => ((wk i h : ℝ) : EReal)) (fun h => ((bk h : ℝ) : EReal)) (fun i h => ((wv i h : ℝ) : EReal)) (fun h => ((bv h : ℝ) : EReal)) b q h := by
  simp only [kOut, refOut, kScore_coe, refScore_coe, proj_coe]
  exact blockwise_eq_closed (fun k => scoreR x wq bq wk bk b q k) (fun k h' => projR x wv bv b k h') h

/-! ### Finite inputs on the extended reals -/

/-- The absolute value (as a maximum with the negation) is below `⊤` exactly at the finite values. -/
theorem max_neg_lt_top_iff (a : EReal) : max a (-a) < ⊤ ↔ a ≠ ⊥ ∧ a ≠ ⊤ := by
  induction a using EReal.rec with
  | bot => simp
  | coe r =>
    exact ⟨fun _ => ⟨EReal.coe_ne_bot r, EReal.coe_ne_top r⟩,
      fun _ => max_lt (EReal.coe_lt_top r) (by rw [← EReal.coe_neg]; exact EReal.coe_lt_top _)⟩
  | top => simp

theorem exists_real_fun₁ {α : Type*} (x : α → EReal) (hx : ∀ a, x a ≠ ⊥ ∧ x a ≠ ⊤) :
    ∃ r : α → ℝ, x = fun a => ((r a : ℝ) : EReal) :=
  ⟨fun a => (x a).toReal, by funext a; exact (EReal.coe_toReal (hx a).2 (hx a).1).symm⟩

theorem exists_real_fun₂ {α β : Type*} (x : α → β → EReal) (hx : ∀ a b, x a b ≠ ⊥ ∧ x a b ≠ ⊤) :
    ∃ r : α → β → ℝ, x = fun a b => ((r a b : ℝ) : EReal) :=
  ⟨fun a b => (x a b).toReal, by funext a b; exact (EReal.coe_toReal (hx a b).2 (hx a b).1).symm⟩

theorem exists_real_fun₃ {α β γ : Type*} (x : α → β → γ → EReal) (hx : ∀ a b c, x a b c ≠ ⊥ ∧ x a b c ≠ ⊤) :
    ∃ r : α → β → γ → ℝ, x = fun a b c => ((r a b c : ℝ) : EReal) :=
  ⟨fun a b c => (x a b c).toReal, by funext a b c; exact (EReal.coe_toReal (hx a b c).2 (hx a b c).1).symm⟩

/-- The outputs agree for extended-real inputs all of whose entries are finite. -/
theorem kOut_eq_refOut_of_finite (x : Fin 4 → Fin 4096 → Fin 512 → EReal) (wq : Fin 512 → Fin 64 → EReal)
    (bq : Fin 64 → EReal) (wk : Fin 512 → Fin 64 → EReal) (bk : Fin 64 → EReal) (wv : Fin 512 → Fin 64 → EReal)
    (bv : Fin 64 → EReal)
    (hx : ∀ b s i, x b s i ≠ ⊥ ∧ x b s i ≠ ⊤) (hwq : ∀ i h, wq i h ≠ ⊥ ∧ wq i h ≠ ⊤) (hbq : ∀ h, bq h ≠ ⊥ ∧ bq h ≠ ⊤)
    (hwk : ∀ i h, wk i h ≠ ⊥ ∧ wk i h ≠ ⊤) (hbk : ∀ h, bk h ≠ ⊥ ∧ bk h ≠ ⊤)
    (hwv : ∀ i h, wv i h ≠ ⊥ ∧ wv i h ≠ ⊤) (hbv : ∀ h, bv h ≠ ⊥ ∧ bv h ≠ ⊤)
    (b : Fin 4) (q : Fin 4096) (h : Fin 64) :
    kOut x wq bq wk bk wv bv b q h = refOut x wq bq wk bk wv bv b q h := by
  obtain ⟨x', rfl⟩ := exists_real_fun₃ x hx
  obtain ⟨wq', rfl⟩ := exists_real_fun₂ wq hwq
  obtain ⟨bq', rfl⟩ := exists_real_fun₁ bq hbq
  obtain ⟨wk', rfl⟩ := exists_real_fun₂ wk hwk
  obtain ⟨bk', rfl⟩ := exists_real_fun₁ bk hbk
  obtain ⟨wv', rfl⟩ := exists_real_fun₂ wv hwv
  obtain ⟨bv', rfl⟩ := exists_real_fun₁ bv hbv
  exact kOut_eq_refOut x' wq' bq' wk' bk' wv' bv' b q h

end Cert.Attn

end
-- ==== Proof.FiniteInputs.lean ====
/-
  The precondition, decoded: every entry of the seven argument arrays is a finite real.

  The printed predicate is, for each array, "all entries have absolute value below +∞", the seven answers joined
  by "and" into one bit.  That bit being 1 gives each conjunct; a conjunction over all entries that is 1 gives
  each entry's comparison; at the extended reals |a| = max a (-a), the word 0x7F800000 denotes ⊤, and
  max a (-a) < ⊤ says a is neither ⊥ nor ⊤.
-/
import proofs.«132332_j31885837205648_2_alg».proof.Defs
import proofs.«132332_j31885837205648_2_alg».proof.Proof.Gen.Pre_finite_inputs
import proofs.«132332_j31885837205648_2_alg».proof.Proof.AttnMath2
import Idealize.ShloMosaic.Lib.ReduceAll
import Idealize.ShloMosaic.Lib.ValueIdx
import Idealize.ShloMosaic.PureOps.Ideal.Laws

noncomputable section

namespace Cert.Attn

open Idealize.ShloMosaic

/-- The word of +∞ denotes ⊤. -/
theorem ofBits_inf : Ideal.ofBits .f32 0x7F800000#32 = (⊤ : EReal) := by
  simp [Ideal.ofBits, Ideal.ieee]

instance : Subsingleton Cert.Pre_finite_inputs.S_.Idx := ⟨fun a b => funext fun d => d.elim0⟩

/-- A conjunction of two one-bit scalars is 1 exactly when both are. -/
theorem andi_scalar_eq_one (x y : IVec Cert.Pre_finite_inputs.S_ 1) (j : Cert.Pre_finite_inputs.S_.Idx) :
    andi x y j = 1#1 ↔ x j = 1#1 ∧ y j = 1#1 := IntOp.andi_eq_one

/-- One array: if "all |a| < +∞" came out 1, every entry is finite. -/
theorem finite_of_all {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi
          (cmpf .olt (Host.absf a)
            (broadcastInDim s ![] hb (constant Cert.Pre_finite_inputs.S_ .f32 0x7F800000#32)))
          init hr hu j = 1#1)
    (i : s.Idx) : a i ≠ ⊥ ∧ a i ≠ ⊤ := by
  have h1 := Host.reduce_andi_all _ init hr hu j e i
  have h2 : BitVec.ofBool (decide (max (a i) (-(a i)) < Ideal.ofBits .f32 0x7F800000#32)) = 1#1 := h1
  rw [ofBits_inf] at h2
  have h3 : max (a i) (-(a i)) < ⊤ := by
    by_contra hn
    rw [decide_eq_false hn] at h2
    exact absurd h2 (by decide)
  exact (max_neg_lt_top_iff (a i)).1 h3

/-- The precondition's bit being 1 says every entry of every argument array is finite. -/
theorem finite_of_pre [hPre : Cert.Pre_finite_inputs.Facts]
    (a0 : FVec Ideal Cert.Pre_finite_inputs.S4x4096x512 .f32) (a1 : FVec Ideal Cert.Pre_finite_inputs.S512x64 .f32)
    (a2 : FVec Ideal Cert.Pre_finite_inputs.S64 .f32) (a3 : FVec Ideal Cert.Pre_finite_inputs.S512x64 .f32)
    (a4 : FVec Ideal Cert.Pre_finite_inputs.S64 .f32) (a5 : FVec Ideal Cert.Pre_finite_inputs.S512x64 .f32)
    (a6 : FVec Ideal Cert.Pre_finite_inputs.S64 .f32)
    (h : Cert.Pre_finite_inputs.fn (F := Ideal) a0 a1 a2 a3 a4 a5 a6 = fun _ => 1#1) :
    (∀ i, a0 i ≠ ⊥ ∧ a0 i ≠ ⊤) ∧ (∀ i, a1 i ≠ ⊥ ∧ a1 i ≠ ⊤) ∧ (∀ i, a2 i ≠ ⊥ ∧ a2 i ≠ ⊤)
      ∧ (∀ i, a3 i ≠ ⊥ ∧ a3 i ≠ ⊤) ∧ (∀ i, a4 i ≠ ⊥ ∧ a4 i ≠ ⊤) ∧ (∀ i, a5 i ≠ ⊥ ∧ a5 i ≠ ⊤)
      ∧ (∀ i, a6 i ≠ ⊥ ∧ a6 i ≠ ⊤) := by
  have h0 := congrFun h ValueIdx.ix0
  dsimp only [Cert.Pre_finite_inputs.fn, Cert.Pre_finite_inputs.fn_part1] at h0
  obtain ⟨h28, r6⟩ := (andi_scalar_eq_one _ _ _).1 h0
  obtain ⟨h23, r5⟩ := (andi_scalar_eq_one _ _ _).1 h28
  obtain ⟨h18, r4⟩ := (andi_scalar_eq_one _ _ _).1 h23
  obtain ⟨h13, r3⟩ := (andi_scalar_eq_one _ _ _).1 h18
  obtain ⟨h8, r2⟩ := (andi_scalar_eq_one _ _ _).1 h13
  obtain ⟨r0, r1⟩ := (andi_scalar_eq_one _ _ _).1 h8
  exact ⟨finite_of_all a0 _ _ _ _ _ r0, finite_of_all a1 _ _ _ _ _ r1, finite_of_all a2 _ _ _ _ _ r2,
    finite_of_all a3 _ _ _ _ _ r3, finite_of_all a4 _ _ _ _ _ r4, finite_of_all a5 _ _ _ _ _ r5,
    finite_of_all a6 _ _ _ _ _ r6⟩

open Idealize.SL.Sem in
/-- The same, read off the idealized kernel's precondition on a device `c`. -/
theorem finite_of_Pre_KernelIdeal [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, @Ne EReal ((m ((c.tc : Thread Cert.KernelIdeal.nD Cert.KernelIdeal.τ).loc Cert.KernelIdeal.main_arg0)) i) ⊥ ∧ @Ne EReal ((m ((c.tc : Thread Cert.KernelIdeal.nD Cert.KernelIdeal.τ).loc Cert.KernelIdeal.main_arg0)) i) ⊤)
      ∧ (∀ i, @Ne EReal ((m ((c.tc : Thread Cert.KernelIdeal.nD Cert.KernelIdeal.τ).loc Cert.KernelIdeal.main_arg1)) i) ⊥ ∧ @Ne EReal ((m ((c.tc : Thread Cert.KernelIdeal.nD Cert.KernelIdeal.τ).loc Cert.KernelIdeal.main_arg1)) i) ⊤)
      ∧ (∀ i, @Ne EReal ((m ((c.tc : Thread Cert.KernelIdeal.nD Cert.KernelIdeal.τ).loc Cert.KernelIdeal.main_arg2)) i) ⊥ ∧ @Ne EReal ((m ((c.tc : Thread Cert.KernelIdeal.nD Cert.KernelIdeal.τ).loc Cert.KernelIdeal.main_arg2)) i) ⊤)
      ∧ (∀ i, @Ne EReal ((m ((c.tc : Thread Cert.KernelIdeal.nD Cert.KernelIdeal.τ).loc Cert.KernelIdeal.main_arg3)) i) ⊥ ∧ @Ne EReal ((m ((c.tc : Thread Cert.KernelIdeal.nD Cert.KernelIdeal.τ).loc Cert.KernelIdeal.main_arg3)) i) ⊤)
      ∧ (∀ i, @Ne EReal ((m ((c.tc : Thread Cert.KernelIdeal.nD Cert.KernelIdeal.τ).loc Cert.KernelIdeal.main_arg4)) i) ⊥ ∧ @Ne EReal ((m ((c.tc : Thread Cert.KernelIdeal.nD Cert.KernelIdeal.τ).loc Cert.KernelIdeal.main_arg4)) i) ⊤)
      ∧ (∀ i, @Ne EReal ((m ((c.tc : Thread Cert.KernelIdeal.nD Cert.KernelIdeal.τ).loc Cert.KernelIdeal.main_arg5)) i) ⊥ ∧ @Ne EReal ((m ((c.tc : Thread Cert.KernelIdeal.nD Cert.KernelIdeal.τ).loc Cert.KernelIdeal.main_arg5)) i) ⊤)
      ∧ (∀ i, @Ne EReal ((m ((c.tc : Thread Cert.KernelIdeal.nD Cert.KernelIdeal.τ).loc Cert.KernelIdeal.main_arg6)) i) ⊥ ∧ @Ne EReal ((m ((c.tc : Thread Cert.KernelIdeal.nD Cert.KernelIdeal.τ).loc Cert.KernelIdeal.main_arg6)) i) ⊤) :=
  finite_of_pre _ _ _ _ _ _ _ (h c)

end Cert.Attn

end
-- ==== Proof.lean ====
/-
  Self-attention with the query projection fused into a blockwise ("online") softmax, against the plain formulation.

  The kernel program: on the host the query weights and bias are multiplied by 0.125, the key and value weights and
  biases are laid side by side and the input is flattened; a first region projects every input row to a 128-wide
  key|value row; a second region, over batch × query tile × key block, projects the query tile once per tile, and for
  each key block rescales a running maximum `m`, normaliser `l` and weighted sum `acc` by `exp (m_old - m_new)` and adds
  the block's `exp (s - m_new)` terms; after the last key block it stores `acc / l`.
  The reference: three projections, scores `(q · k) · (1 / sqrt 64)`, the softmax written out (maximum against -∞,
  subtraction, exponential, sum, quotient), and the weighted sum of the values.

  At the ideal instance every change of float format is the identity, so the two differ in exactly three ways:
  * where the scale enters: `x · (Wq · 0.125) + bq · 0.125` against `(x · Wq + bq) · (1 / sqrt 64)` — equal because
    `sqrt 64 = 8` and multiplication distributes over a finite sum of finite reals;
  * the blockwise recurrence against the closed form — equal for finite scores: after each block `m` is the maximum
    seen so far, `l = ∑ exp (s - m)`, `acc = ∑ exp (s - m) · v`, because `exp (m_old - m_new) · exp (s - m_old) =
    exp (s - m_new)`; the first block starts from `m = -∞`, where `exp (-∞) = 0` annihilates the zero initial sums;
  * `(∑ e_k · v_k) / L` against `∑ (e_k / L) · v_k` — equal since `L` is a positive real.
  All three need the inputs finite, which is the precondition.

  The modules: the specification and its algebra (AttnSpec, AttnMath, AttnMath2); the precondition decoded
  (FiniteInputs); the reference's result read index by index (RefValue); for each kernel program its two regions' body
  runs and proof data, and the whole run over @main's four segments (…Region0, …Region1Base, …Run1A/B/C, …Region1,
  …Frame); for the idealized one also what the bodies' stores are (KernelIdealPieces), every computed value read at an
  index (PayloadIdeal, PayloadIdeal2), the host stages' values (KernelIdealHostVals), the windows' blocks
  (KernelIdealBlocks), the first region's array (KernelIdealValue0), a query row's state point by point
  (KernelIdealValue1) and the result array (KernelIdealValue2).
-/
import proofs.«132332_j31885837205648_2_alg».proof.Defs
import proofs.«132332_j31885837205648_2_alg».proof.Proof.Gen.Kernel
import proofs.«132332_j31885837205648_2_alg».proof.Proof.Gen.KernelIdeal
import proofs.«132332_j31885837205648_2_alg».proof.Proof.Gen.ReferenceIdeal
import proofs.«132332_j31885837205648_2_alg».proof.Proof.Gen.Pre_finite_inputs
import proofs.«132332_j31885837205648_2_alg».proof.Proof.KernelFrame
import proofs.«132332_j31885837205648_2_alg».proof.Proof.KernelIdealValue2
import proofs.«132332_j31885837205648_2_alg».proof.Proof.RefValue
import proofs.«132332_j31885837205648_2_alg».proof.Proof.AttnMath2
import proofs.«132332_j31885837205648_2_alg».proof.Proof.FiniteInputs

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Fr.frame m ρ

/-- So does the idealized one. -/
theorem frame_ki : Cert.frame_KernelIdeal := fun m ρ _ => Cert.KernelIdeal.Fr.frame m ρ

/-- The reference's frame is its run with the result dropped. -/
theorem frame_ri : Cert.frame_ReferenceIdeal := Cert.ReferenceIdeal.RefValue.frame_ri

/-- The ideal pass rewrote nothing. -/
theorem preserves : Cert.preserves_Kernel_KernelIdeal := trivial

/-- Both idealized programs end at the same array: the kernel's at the blockwise attention of its arguments, the
    reference's at the closed form, and on finite arguments the two are one function. -/
theorem algebraic : Cert.algebraic_KernelIdeal_ReferenceIdeal := by
  intro m ρ m' ρ' hpre hagree
  refine ⟨Cert.KernelIdeal.Val.G1 m, Cert.KernelIdeal.Val.run_value m ρ, ?_⟩
  refine (θ_run Cert.ReferenceIdeal.defs _ _).mono (fun _ h c => ⟨(h c).1.trans ?_, (h c).2⟩)
    (Cert.ReferenceIdeal.RefValue.ref_run m' ρ')
  obtain ⟨e0, e1, e2, e3, e4, e5, e6⟩ := hagree c
  rw [e0, e1, e2, e3, e4, e5, e6]
  obtain ⟨f0, f1, f2, f3, f4, f5, f6⟩ := Cert.Attn.finite_of_Pre_KernelIdeal m hpre c
  funext i
  obtain ⟨b, s, h, rfl⟩ : ∃ (b : Fin 4) (s : Fin 4096) (h : Fin 64), i = ValueIdx.ix3 b s h :=
    ⟨i 0, i 1, i 2, ValueIdx.eq_ix3 i⟩
  rw [Cert.ReferenceIdeal.RefValue.refBuf_apply, Cert.KernelIdeal.Val.G1_apply]
  exact (Cert.Attn.kOut_eq_refOut_of_finite _ _ _ _ _ _ _ (fun b s i => f0 _) (fun i h => f1 _) (fun h => f2 _)
    (fun i h => f3 _) (fun h => f4 _) (fun i h => f5 _) (fun h => f6 _) b s h).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
